-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128 : Shape := ⟨2, ![8, 128]⟩
abbrev S4096x64 : Shape := ⟨2, ![4096, 64]⟩
abbrev S8192x8192 : Shape := ⟨2, ![8192, 8192]⟩
abbrev S8192 : Shape := ⟨1, ![8192]⟩
abbrev S4096x8192 : Shape := ⟨2, ![4096, 8192]⟩
abbrev S4096 : Shape := ⟨1, ![4096]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_
  bcast_S_S4096x8192 : S_.BroadcastsInDim S4096x8192 (![] : Fin 0 → Fin S4096x8192.rank)
  reducesTo_S4096x8192_S_d0_1 : S4096x8192.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S4096 .f32) (main_v13 : IVec S_ 1) (main_v16 : IVec S4096x8192 1) : IVec S_ 1 :=
  let main_c_5 : IVec S_ 1 := constantI S_ 1 1#1
  let main_v17 : IVec S_ 1 := (fun x v => Host.reduce IntOp.andi x v reducesTo_S4096x8192_S_d0_1 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : IVec S8x128 32) (main_arg1 : FVec F S4096x64 .f32) (main_arg2 : FVec F S8192x8192 .f32) (main_arg3 : FVec F S8192 .f32) (main_arg4 : FVec F S4096x8192 .f32) (main_arg5 : FVec F S4096 .f32) : IVec S_ 1 :=
  let main_v0 : FVec F S4096x64 .f32 := Host.absf main_arg1
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S8192x8192 .f32 := Host.absf main_arg2
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S4096x8192 .f32 := Host.absf main_arg4
  let main_cst_4 : FVec F S_ .f32 := constant S_ .f32 0x7F800000#32
  let main_v15 : FVec F S4096x8192 .f32 := broadcastInDim S4096x8192 ![] bcast_S_S4096x8192 main_cst_4
  let main_v16 : IVec S4096x8192 1 := cmpf .olt main_v14 main_v15
  fn_part1 (F := F) main_arg5 main_v13 main_v16
-- ==== Kernel.lean ====
abbrev S8x128 : Shape := ⟨2, ![8, 128]⟩
abbrev S4096x64 : Shape := ⟨2, ![4096, 64]⟩
abbrev S8192x8192 : Shape := ⟨2, ![8192, 8192]⟩
abbrev S8192 : Shape := ⟨1, ![8192]⟩
abbrev S4096x8192 : Shape := ⟨2, ![4096, 8192]⟩
abbrev S4096 : Shape := ⟨1, ![4096]⟩
abbrev S_ : Shape := ⟨0, ![]⟩
abbrev S8x128x1 : Shape := ⟨3, ![8, 128, 1]⟩
abbrev S8x128x64 : Shape := ⟨3, ![8, 128, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x128x1 : Shape := ⟨3, ![128, 128, 1]⟩
abbrev S8x128x128x64 : Shape := ⟨4, ![8, 128, 128, 64]⟩
abbrev S1x128x128x1 : Shape := ⟨4, ![1, 128, 128, 1]⟩
abbrev S8x128x8192 : Shape := ⟨3, ![8, 128, 8192]⟩
abbrev S1024x8192 : Shape := ⟨2, ![1024, 8192]⟩
abbrev S1x8192 : Shape := ⟨2, ![1, 8192]⟩
abbrev S1x4096 : Shape := ⟨2, ![1, 4096]⟩
abbrev S512x2048 : Shape := ⟨2, ![512, 2048]⟩
abbrev S1x512 : Shape := ⟨2, ![1, 512]⟩
abbrev S1024x512 : Shape := ⟨2, ![1024, 512]⟩
abbrev S1024x2048 : Shape := ⟨2, ![1024, 2048]⟩
abbrev S1024x4096 : Shape := ⟨2, ![1024, 4096]⟩
abbrev S8x128x4096 : Shape := ⟨3, ![8, 128, 4096]⟩

abbrev nBuf : Space → Nat
  | .hbm => 58
  | .vmem => 17
  | .smem => 0
  | _ => 0

abbrev bufTy : (tb : Table) → Fin (tcTables nBuf tb) → BufTy
  | .hbm, ⟨0, _⟩ => ⟨S8x128, .i32⟩
  | .hbm, ⟨1, _⟩ => ⟨S4096x64, .f32⟩
  | .hbm, ⟨2, _⟩ => ⟨S8192x8192, .f32⟩
  | .hbm, ⟨3, _⟩ => ⟨S8192, .f32⟩
  | .hbm, ⟨4, _⟩ => ⟨S4096x8192, .f32⟩
  | .hbm, ⟨5, _⟩ => ⟨S4096, .f32⟩
  | .hbm, ⟨6, _⟩ => ⟨S_, .i32⟩
  | .hbm, ⟨7, _⟩ => ⟨S8x128, .i32⟩
  | .hbm, ⟨8, _⟩ => ⟨S8x128, .i1⟩
  | .hbm, ⟨9, _⟩ => ⟨S_, .i32⟩
  | .hbm, ⟨10, _⟩ => ⟨S8x128, .i32⟩
  | .hbm, ⟨11, _⟩ => ⟨S8x128, .i32⟩
  | .hbm, ⟨12, _⟩ => ⟨S8x128, .i32⟩
  | .hbm, ⟨13, _⟩ => ⟨S8x128x1, .i32⟩
  | .hbm, ⟨14, _⟩ => ⟨S8x128x64, .f32⟩
  | .hbm, ⟨15, _⟩ => ⟨S8x128x64, .bf16⟩
  | .hbm, ⟨16, _⟩ => ⟨S128, .i32⟩
  | .hbm, ⟨17, _⟩ => ⟨S128x1, .i32⟩
  | .hbm, ⟨18, _⟩ => ⟨S128, .i32⟩
  | .hbm, ⟨19, _⟩ => ⟨S1x128, .i32⟩
  | .hbm, ⟨20, _⟩ => ⟨S_, .i32⟩
  | .hbm, ⟨21, _⟩ => ⟨S1x128, .i32⟩
  | .hbm, ⟨22, _⟩ => ⟨S1x128, .i32⟩
  | .hbm, ⟨23, _⟩ => ⟨S128x128, .i32⟩
  | .hbm, ⟨24, _⟩ => ⟨S128x128, .i32⟩
  | .hbm, ⟨25, _⟩ => ⟨S128x128, .i32⟩
  | .hbm, ⟨26, _⟩ => ⟨S_, .i32⟩
  | .hbm, ⟨27, _⟩ => ⟨S128x128, .i32⟩
  | .hbm, ⟨28, _⟩ => ⟨S128x128, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S128x128, .i32⟩
  | .hbm, ⟨33, _⟩ => ⟨S128x128, .i32⟩
  | .hbm, ⟨34, _⟩ => ⟨S_, .i32⟩
  | .hbm, ⟨35, _⟩ => ⟨S128x128, .i32⟩
  | .hbm, ⟨36, _⟩ => ⟨S128x128, .i32⟩
  | .hbm, ⟨37, _⟩ => ⟨S_, .i32⟩
  | .hbm, ⟨38, _⟩ => ⟨S128x128, .i32⟩
  | .hbm, ⟨39, _⟩ => ⟨S128x128, .i1⟩
  | .hbm, ⟨40, _⟩ => ⟨S_, .i32⟩
  | .hbm, ⟨41, _⟩ => ⟨S128x128, .i32⟩
  | .hbm, ⟨42, _⟩ => ⟨S128x128, .i32⟩
  | .hbm, ⟨43, _⟩ => ⟨S128x128, .i32⟩
  | .hbm, ⟨44, _⟩ => ⟨S128x128x1, .i32⟩
  | .hbm, ⟨45, _⟩ => ⟨S8x128x128x64, .bf16⟩
  | .hbm, ⟨46, _⟩ => ⟨S1x128x128x1, .i1⟩
  | .hbm, ⟨47, _⟩ => ⟨S_, .bf16⟩
  | .hbm, ⟨48, _⟩ => ⟨S8x128x128x64, .i1⟩
  | .hbm, ⟨49, _⟩ => ⟨S8x128x128x64, .bf16⟩
  | .hbm, ⟨50, _⟩ => ⟨S8x128x128x64, .bf16⟩
  | .hbm, ⟨51, _⟩ => ⟨S8x128x8192, .bf16⟩
  | .hbm, ⟨52, _⟩ => ⟨S1024x8192, .bf16⟩
  | .hbm, ⟨53, _⟩ => ⟨S1x8192, .f32⟩
  | .hbm, ⟨54, _⟩ => ⟨S1x4096, .f32⟩
  | .hbm, ⟨55, _⟩ => ⟨S1024x8192, .f32⟩
  | .hbm, ⟨56, _⟩ => ⟨S1024x4096, .f32⟩
  | .hbm, ⟨57, _⟩ => ⟨S8x128x4096, .f32⟩
  | .local _ .vmem, ⟨0, _⟩ => ⟨S1024x8192, .bf16⟩
  | .local _ .vmem, ⟨1, _⟩ => ⟨S512x2048, .f32⟩
  | .local _ .vmem, ⟨2, _⟩ => ⟨S512x2048, .f32⟩
  | .local _ .vmem, ⟨3, _⟩ => ⟨S1x512, .f32⟩
  | .local _ .vmem, ⟨4, _⟩ => ⟨S1x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x2048, .f32⟩
  | .local _ .vmem, ⟨9, _⟩ => ⟨S1024x2048, .f32⟩
  | .local _ .vmem, ⟨10, _⟩ => ⟨S512x2048, .f32⟩
  | .local _ .vmem, ⟨11, _⟩ => ⟨S512x2048, .f32⟩
  | .local _ .vmem, ⟨12, _⟩ => ⟨S1x512, .f32⟩
  | .local _ .vmem, ⟨13, _⟩ => ⟨S1x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | _, _ => ⟨S8x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_c_4 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v19 : Ref sig .tc := ⟨.hbm, 36, rfl⟩
abbrev main_c_5 : Ref sig .tc := ⟨.hbm, 37, rfl⟩
abbrev main_v20 : Ref sig .tc := ⟨.hbm, 38, rfl⟩
abbrev main_v21 : Ref sig .tc := ⟨.hbm, 39, rfl⟩
abbrev main_c_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst : Ref sig .tc := ⟨.hbm, 47, rfl⟩
abbrev main_call1_v0 : Ref sig .tc := ⟨.hbm, 48, rfl⟩
abbrev main_call1_v1 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let c0 : Index := 0#32
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  ![0, v5.toNat]
def k0_cond2 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S1024x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S8x128 : S_.BroadcastsInDim S8x128 (![] : Fin 0 → Fin S8x128.rank)
  bcast_S8x128_S8x128x1_0_1 : S8x128.BroadcastsInDim S8x128x1 (![0, 1] : Fin 2 → Fin S8x128x1.rank)
  bitsLt_bf16_f32 : FTy.bits .bf16 < FTy.bits .f32
  bcast_S128_S128x1_0 : S128.BroadcastsInDim S128x1 (![0] : Fin 1 → Fin S128x1.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S128x128_0_1 : S1x128.BroadcastsInDim S128x128 (![0, 1] : Fin 2 → Fin S128x128.rank)
  bcast_S128x1_S128x128_0_1 : S128x1.BroadcastsInDim S128x128 (![0, 1] : Fin 2 → Fin S128x128.rank)
  bcast_S_S128x128 : S_.BroadcastsInDim S128x128 (![] : Fin 0 → Fin S128x128.rank)
  bcast_S128x128_S128x128x1_0_1 : S128x128.BroadcastsInDim S128x128x1 (![0, 1] : Fin 2 → Fin S128x128x1.rank)
  bcast_S128x128_S1x128x128x1_1_2 : S128x128.BroadcastsInDim S1x128x128x1 (![1, 2] : Fin 2 → Fin S1x128x128x1.rank)
  bcast_S1x128x128x1_S8x128x128x64_0_1_2_3 : S1x128x128x1.BroadcastsInDim S8x128x128x64 (![0, 1, 2, 3] : Fin 4 → Fin S8x128x128x64.rank)
  bcast_S_S8x128x128x64 : S_.BroadcastsInDim S8x128x128x64 (![] : Fin 0 → Fin S8x128x128x64.rank)
  shapeCasts_S8x128x128x64_S8x128x8192 : S8x128x128x64.ShapeCasts S8x128x8192
  shapeCasts_S8x128x8192_S1024x8192 : S8x128x8192.ShapeCasts S1024x8192
  shapeCasts_S8192_S1x8192 : S8192.ShapeCasts S1x8192
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  h_S1024x2048 : 0 < S1024x2048.numel
  shapeCasts_S1024x2048_S1024x2048 : S1024x2048.ShapeCasts S1024x2048
  inb_S512x2048_S512x2048_0_0 : ∀ a, (![0, 0] : Fin 2 → Nat) a + S512x2048.size a ≤ S512x2048.size a
  h_S512x2048 : 0 < S512x2048.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x2048_S1024x2048_0_0 : ∀ a, (![0, 0] : Fin 2 → Nat) a + S1024x2048.size a ≤ S1024x2048.size a
  shapeCasts_S1024x4096_S8x128x4096 : S1024x4096.ShapeCasts S8x128x4096
  gather_S4096x64_S8x128x1_S8x128x64_2_0_n_n_0_2_164_wf : GatherDims.WF S4096x64 S8x128x1 S8x128x64 [2] [0] [] [0] [] 2 ![1, 64]
  gather_S8x128x64_S128x128x1_S8x128x128x64_03_1_n_n_1_2_8164_wf : GatherDims.WF S8x128x64 S128x128x1 S8x128x128x64 [0, 3] [1] [] [1] [] 2 ![8, 1, 64]
  dot_S1024x2048_S512x2048_S1024x512_1_1_0_0_n_n_wf : DotDims.WF S1024x2048 S512x2048 S1024x512 [1] [1] [0] [0] [] []
  hrank0 : 0 < grid0.rank
  k0_mult1_dvd : ∀ i : grid0.Coords, 2048 ∣ (k0_mult1 i).toNat
  k0_off1_inb : ∀ i : grid0.Coords, ∀ a, (k0_off1 i) a + S1024x2048.size a ≤ S1024x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x8192.size a ≤ S1024x8192.size a
  hwx0_0 : ∀ i : grid0.Coords, EltTy.bits .bf16 = 32 ∨ (Rect.block (s := S1024x8192) S1024x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x8192.size a
  hwx0_1 : ∀ i : grid0.Coords, EltTy.bits .f32 = 32 ∨ (Rect.block (s := S8192x8192) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x8192.size a
  hwx0_3 : ∀ i : grid0.Coords, EltTy.bits .f32 = 32 ∨ (Rect.block (s := S1024x8192) S1024x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S1024x8192.size a
  hwx1_0 : ∀ i : grid1.Coords, EltTy.bits .f32 = 32 ∨ (Rect.block (s := S1024x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S4096x8192.size a
  hwx1_1 : ∀ i : grid1.Coords, EltTy.bits .f32 = 32 ∨ (Rect.block (s := S4096x8192) S512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S1024x4096.size a
  hwx1_3 : ∀ i : grid1.Coords, EltTy.bits .f32 = 32 ∨ (Rect.block (s := S1024x4096) S1024x512.size (cc1_transform_3 i) (hinb1_3 i)).WholeWords (EltTy.packing .f32)

variable [Facts₀]

def gather_S4096x64_S8x128x1_S8x128x64_2_0_n_n_0_2_164 : GatherDims S4096x64 S8x128x1 S8x128x64 where
  offsetDims := [2]
  collapsedSliceDims := [0]
  operandBatchingDims := []
  startIndicesBatchingDims := []
  startIndexMap := [0]
  indexVectorDim := 2
  sliceSizes := ![1, 64]
  wf := gather_S4096x64_S8x128x1_S8x128x64_2_0_n_n_0_2_164_wf
def gather_S8x128x64_S128x128x1_S8x128x128x64_03_1_n_n_1_2_8164 : GatherDims S8x128x64 S128x128x1 S8x128x128x64 where
  offsetDims := [0, 3]
  collapsedSliceDims := [1]
  operandBatchingDims := []
  startIndicesBatchingDims := []
  startIndexMap := [1]
  indexVectorDim := 2
  sliceSizes := ![8, 1, 64]
  wf := gather_S8x128x64_S128x128x1_S8x128x128x64_03_1_n_n_1_2_8164_wf
def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf

abbrev win0_0 : Pipeline.Window sig grid0 :=
  Pipeline.Window.ofSpec (Memref.whole main_v30) S1024x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v33) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x128 : Shape := ⟨2, ![8, 128]⟩
abbrev S4096x64 : Shape := ⟨2, ![4096, 64]⟩
abbrev S8192x8192 : Shape := ⟨2, ![8192, 8192]⟩
abbrev S8192 : Shape := ⟨1, ![8192]⟩
abbrev S4096x8192 : Shape := ⟨2, ![4096, 8192]⟩
abbrev S4096 : Shape := ⟨1, ![4096]⟩
abbrev S_ : Shape := ⟨0, ![]⟩
abbrev S8x128x1 : Shape := ⟨3, ![8, 128, 1]⟩
abbrev S8x128x64 : Shape := ⟨3, ![8, 128, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x128x1 : Shape := ⟨3, ![128, 128, 1]⟩
abbrev S8x128x128x64 : Shape := ⟨4, ![8, 128, 128, 64]⟩
abbrev S1x128x128x1 : Shape := ⟨4, ![1, 128, 128, 1]⟩
abbrev S8x128x8192 : Shape := ⟨3, ![8, 128, 8192]⟩
abbrev S1x1x8192 : Shape := ⟨3, ![1, 1, 8192]⟩
abbrev S8x128x4096 : Shape := ⟨3, ![8, 128, 4096]⟩
abbrev S1x1x4096 : Shape := ⟨3, ![1, 1, 4096]⟩

abbrev nBuf : Space → Nat
  | .hbm => 76
  | .vmem => 0
  | .smem => 0
  | _ => 0

abbrev bufTy : (tb : Table) → Fin (tcTables nBuf tb) → BufTy
  | .hbm, ⟨0, _⟩ => ⟨S8x128, .i32⟩
  | .hbm, ⟨1, _⟩ => ⟨S4096x64, .f32⟩
  | .hbm, ⟨2, _⟩ => ⟨S8192x8192, .f32⟩
  | .hbm, ⟨3, _⟩ => ⟨S8192, .f32⟩
  | .hbm, ⟨4, _⟩ => ⟨S4096x8192, .f32⟩
  | .hbm, ⟨5, _⟩ => ⟨S4096, .f32⟩
  | .hbm, ⟨6, _⟩ => ⟨S_, .i32⟩
  | .hbm, ⟨7, _⟩ => ⟨S8x128, .i32⟩
  | .hbm, ⟨8, _⟩ => ⟨S8x128, .i1⟩
  | .hbm, ⟨9, _⟩ => ⟨S_, .i32⟩
  | .hbm, ⟨10, _⟩ => ⟨S8x128, .i32⟩
  | .hbm, ⟨11, _⟩ => ⟨S8x128, .i32⟩
  | .hbm, ⟨12, _⟩ => ⟨S8x128, .i32⟩
  | .hbm, ⟨13, _⟩ => ⟨S8x128x1, .i32⟩
  | .hbm, ⟨14, _⟩ => ⟨S8x128x64, .f32⟩
  | .hbm, ⟨15, _⟩ => ⟨S128, .i32⟩
  | .hbm, ⟨16, _⟩ => ⟨S128x1, .i32⟩
  | .hbm, ⟨17, _⟩ => ⟨S128, .i32⟩
  | .hbm, ⟨18, _⟩ => ⟨S1x128, .i32⟩
  | .hbm, ⟨19, _⟩ => ⟨S_, .i32⟩
  | .hbm, ⟨20, _⟩ => ⟨S1x128, .i32⟩
  | .hbm, ⟨21, _⟩ => ⟨S1x128, .i32⟩
  | .hbm, ⟨22, _⟩ => ⟨S128x128, .i32⟩
  | .hbm, ⟨23, _⟩ => ⟨S128x128, .i32⟩
  | .hbm, ⟨24, _⟩ => ⟨S128x128, .i32⟩
  | .hbm, ⟨25, _⟩ => ⟨S_, .i32⟩
  | .hbm, ⟨26, _⟩ => ⟨S128x128, .i32⟩
  | .hbm, ⟨27, _⟩ => ⟨S128x128, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S128x128, .i32⟩
  | .hbm, ⟨32, _⟩ => ⟨S128x128, .i32⟩
  | .hbm, ⟨33, _⟩ => ⟨S_, .i32⟩
  | .hbm, ⟨34, _⟩ => ⟨S128x128, .i32⟩
  | .hbm, ⟨35, _⟩ => ⟨S128x128, .i32⟩
  | .hbm, ⟨36, _⟩ => ⟨S_, .i32⟩
  | .hbm, ⟨37, _⟩ => ⟨S128x128, .i32⟩
  | .hbm, ⟨38, _⟩ => ⟨S128x128, .i1⟩
  | .hbm, ⟨39, _⟩ => ⟨S_, .i32⟩
  | .hbm, ⟨40, _⟩ => ⟨S128x128, .i32⟩
  | .hbm, ⟨41, _⟩ => ⟨S128x128, .i32⟩
  | .hbm, ⟨42, _⟩ => ⟨S128x128, .i32⟩
  | .hbm, ⟨43, _⟩ => ⟨S128x128x1, .i32⟩
  | .hbm, ⟨44, _⟩ => ⟨S8x128x128x64, .f32⟩
  | .hbm, ⟨45, _⟩ => ⟨S1x128x128x1, .i1⟩
  | .hbm, ⟨46, _⟩ => ⟨S_, .f32⟩
  | .hbm, ⟨47, _⟩ => ⟨S8x128x128x64, .i1⟩
  | .hbm, ⟨48, _⟩ => ⟨S8x128x128x64, .f32⟩
  | .hbm, ⟨49, _⟩ => ⟨S8x128x128x64, .f32⟩
  | .hbm, ⟨50, _⟩ => ⟨S8x128x8192, .f32⟩
  | .hbm, ⟨51, _⟩ => ⟨S8x128x8192, .f32⟩
  | .hbm, ⟨52, _⟩ => ⟨S1x1x8192, .f32⟩
  | .hbm, ⟨53, _⟩ => ⟨S8x128x8192, .f32⟩
  | .hbm, ⟨54, _⟩ => ⟨S8x128x8192, .f32⟩
  | .hbm, ⟨55, _⟩ => ⟨S_, .f32⟩
  | .hbm, ⟨56, _⟩ => ⟨S8x128x8192, .f32⟩
  | .hbm, ⟨57, _⟩ => ⟨S8x128x8192, .f32⟩
  | .hbm, ⟨58, _⟩ => ⟨S8x128x8192, .f32⟩
  | .hbm, ⟨59, _⟩ => ⟨S8x128x8192, .f32⟩
  | .hbm, ⟨60, _⟩ => ⟨S_, .f32⟩
  | .hbm, ⟨61, _⟩ => ⟨S8x128x8192, .f32⟩
  | .hbm, ⟨62, _⟩ => ⟨S8x128x8192, .f32⟩
  | .hbm, ⟨63, _⟩ => ⟨S8x128x8192, .f32⟩
  | .hbm, ⟨64, _⟩ => ⟨S_, .f32⟩
  | .hbm, ⟨65, _⟩ => ⟨S8x128x8192, .f32⟩
  | .hbm, ⟨66, _⟩ => ⟨S8x128x8192, .f32⟩
  | .hbm, ⟨67, _⟩ => ⟨S8x128x8192, .f32⟩
  | .hbm, ⟨68, _⟩ => ⟨S_, .f32⟩
  | .hbm, ⟨69, _⟩ => ⟨S8x128x8192, .f32⟩
  | .hbm, ⟨70, _⟩ => ⟨S8x128x8192, .f32⟩
  | .hbm, ⟨71, _⟩ => ⟨S8x128x8192, .f32⟩
  | .hbm, ⟨72, _⟩ => ⟨S8x128x4096, .f32⟩
  | .hbm, ⟨73, _⟩ => ⟨S1x1x4096, .f32⟩
  | .hbm, ⟨74, _⟩ => ⟨S8x128x4096, .f32⟩
  | .hbm, ⟨75, _⟩ => ⟨S8x128x4096, .f32⟩
  | _, _ => ⟨S8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_c_4 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v18 : Ref sig .tc := ⟨.hbm, 35, rfl⟩
abbrev main_c_5 : Ref sig .tc := ⟨.hbm, 36, rfl⟩
abbrev main_v19 : Ref sig .tc := ⟨.hbm, 37, rfl⟩
abbrev main_v20 : Ref sig .tc := ⟨.hbm, 38, rfl⟩
abbrev main_c_6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst : Ref sig .tc := ⟨.hbm, 46, rfl⟩
abbrev main_call1_v0 : Ref sig .tc := ⟨.hbm, 47, rfl⟩
abbrev main_call1_v1 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_10 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩

abbrev nD : Nat := 1
abbrev τ : Topo := Topo.v7x

variable {F : FTy → Type} [FloatOps F]

class Facts₀ : Prop where
  bcast_S_S8x128 : S_.BroadcastsInDim S8x128 (![] : Fin 0 → Fin S8x128.rank)
  bcast_S8x128_S8x128x1_0_1 : S8x128.BroadcastsInDim S8x128x1 (![0, 1] : Fin 2 → Fin S8x128x1.rank)
  bcast_S128_S128x1_0 : S128.BroadcastsInDim S128x1 (![0] : Fin 1 → Fin S128x1.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S128x128_0_1 : S1x128.BroadcastsInDim S128x128 (![0, 1] : Fin 2 → Fin S128x128.rank)
  bcast_S128x1_S128x128_0_1 : S128x1.BroadcastsInDim S128x128 (![0, 1] : Fin 2 → Fin S128x128.rank)
  bcast_S_S128x128 : S_.BroadcastsInDim S128x128 (![] : Fin 0 → Fin S128x128.rank)
  bcast_S128x128_S128x128x1_0_1 : S128x128.BroadcastsInDim S128x128x1 (![0, 1] : Fin 2 → Fin S128x128x1.rank)
  bcast_S128x128_S1x128x128x1_1_2 : S128x128.BroadcastsInDim S1x128x128x1 (![1, 2] : Fin 2 → Fin S1x128x128x1.rank)
  bcast_S1x128x128x1_S8x128x128x64_0_1_2_3 : S1x128x128x1.BroadcastsInDim S8x128x128x64 (![0, 1, 2, 3] : Fin 4 → Fin S8x128x128x64.rank)
  bcast_S_S8x128x128x64 : S_.BroadcastsInDim S8x128x128x64 (![] : Fin 0 → Fin S8x128x128x64.rank)
  shapeCasts_S8x128x128x64_S8x128x8192 : S8x128x128x64.ShapeCasts S8x128x8192
  bcast_S8192_S1x1x8192_2 : S8192.BroadcastsInDim S1x1x8192 (![2] : Fin 1 → Fin S1x1x8192.rank)
  bcast_S1x1x8192_S8x128x8192_0_1_2 : S1x1x8192.BroadcastsInDim S8x128x8192 (![0, 1, 2] : Fin 3 → Fin S8x128x8192.rank)
  bcast_S_S8x128x8192 : S_.BroadcastsInDim S8x128x8192 (![] : Fin 0 → Fin S8x128x8192.rank)
  bcast_S4096_S1x1x4096_2 : S4096.BroadcastsInDim S1x1x4096 (![2] : Fin 1 → Fin S1x1x4096.rank)
  bcast_S1x1x4096_S8x128x4096_0_1_2 : S1x1x4096.BroadcastsInDim S8x128x4096 (![0, 1, 2] : Fin 3 → Fin S8x128x4096.rank)
  gather_S4096x64_S8x128x1_S8x128x64_2_0_n_n_0_2_164_wf : GatherDims.WF S4096x64 S8x128x1 S8x128x64 [2] [0] [] [0] [] 2 ![1, 64]
  gather_S8x128x64_S128x128x1_S8x128x128x64_03_1_n_n_1_2_8164_wf : GatherDims.WF S8x128x64 S128x128x1 S8x128x128x64 [0, 3] [1] [] [1] [] 2 ![8, 1, 64]
  dot_S8x128x8192_S8192x8192_S8x128x8192_2_1_01_0_n_n_wf : DotDims.WF S8x128x8192 S8192x8192 S8x128x8192 [2] [1] [0, 1] [0] [] []
  dot_S8x128x8192_S4096x8192_S8x128x4096_2_1_01_0_n_n_wf : DotDims.WF S8x128x8192 S4096x8192 S8x128x4096 [2] [1] [0, 1] [0] [] []

variable [Facts₀]

def gather_S4096x64_S8x128x1_S8x128x64_2_0_n_n_0_2_164 : GatherDims S4096x64 S8x128x1 S8x128x64 where
  offsetDims := [2]
  collapsedSliceDims := [0]
  operandBatchingDims := []
  startIndicesBatchingDims := []
  startIndexMap := [0]
  indexVectorDim := 2
  sliceSizes := ![1, 64]
  wf := gather_S4096x64_S8x128x1_S8x128x64_2_0_n_n_0_2_164_wf
def gather_S8x128x64_S128x128x1_S8x128x128x64_03_1_n_n_1_2_8164 : GatherDims S8x128x64 S128x128x1 S8x128x128x64 where
  offsetDims := [0, 3]
  collapsedSliceDims := [1]
  operandBatchingDims := []
  startIndicesBatchingDims := []
  startIndexMap := [1]
  indexVectorDim := 2
  sliceSizes := ![8, 1, 64]
  wf := gather_S8x128x64_S128x128x1_S8x128x128x64_03_1_n_n_1_2_8164_wf
def dot_S8x128x8192_S8192x8192_S8x128x8192_2_1_01_0_n_n : DotDims S8x128x8192 S8192x8192 S8x128x8192 where
  lhsContracting := [2]
  rhsContracting := [1]
  lhsNonContracting := [0, 1]
  rhsNonContracting := [0]
  lhsBatch := []
  rhsBatch := []
  wf := dot_S8x128x8192_S8192x8192_S8x128x8192_2_1_01_0_n_n_wf
def dot_S8x128x8192_S4096x8192_S8x128x4096_2_1_01_0_n_n : DotDims S8x128x8192 S4096x8192 S8x128x4096 where
  lhsContracting := [2]
  rhsContracting := [1]
  lhsNonContracting := [0, 1]
  rhsNonContracting := [0]
  lhsBatch := []
  rhsBatch := []
  wf := dot_S8x128x8192_S4096x8192_S8x128x4096_2_1_01_0_n_n_wf

class Facts : Prop extends Facts₀ where

variable [Facts]
-- ==== Proof.Mlp1Cases.lean ====
/-
  The first kernel (the hidden layer) as the pipeline runs it: a 16 × 4 grid, point t = 4·n + k. At k = 0 the
  body zeroes its accumulator, at every k it adds the product of the k-th 2048-column slab of the resident input
  with the (n, k) tile of the weights, and at k = 3 it adds the bias row, applies GELU and stores the output
  block. This module fixes what the three cases (k = 0, k = 1 or 2, k = 3) share: the blocks of the windows, the
  two branch conditions decided over the grid, where the output window is idle, and the invariant's shape.
-/
import proofs.«179280_j42734924595240_2_alg».proof.Proof.Gen.KernelIdeal.Launch
import proofs.«179280_j42734924595240_2_alg».proof.Proof.Gen.KernelIdeal.Skeleton
import proofs.«179280_j42734924595240_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the TensorCore's buffers when the region is entered: a parameter
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or not:
    the body leaves the block in place and the index does not move between two fetches. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, decided over the grid -/

/-- "k = 0", as the body computes it from the second grid coordinate. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- "k = 3". -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Before k = 3 the body stores nothing into the output block and the pipeline does not write it back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S1024x512 .f32 := (Memref.whole cc0_stg3_0 : Memref sig .tc .vmem S1024x512 .f32).view
abbrev ms0_0 (t : Fin cfg0.N) : Memref sig .tc .vmem S1024x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .f32 := win0_3.stage (cfg0.slots t 3)
abbrev hs0_3 (t : Fin cfg0.N) : (ms0_3 t).IsWhole := hstage0_3 ((cfg0.slots t 3).cast nbuf0_3)
/-- The accumulator: a scratch buffer of the kernel's own, carried from point to point. -/
abbrev scM0 : Memref sig .tc .vmem S1024x512 .f32 := Memref.whole cc0_scratch0
abbrev VS0 : View sig .tc .vmem S1024x512 .f32 := scM0.view

/-- The other scoped buffers that are no staging buffer of this call (the second call's), each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the launch hands the body besides the windows: the accumulator at some contents, the other scoped
    buffers, the generator register at some state. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; rfl

end Cert.KernelIdeal.Frm

end
-- ==== Proof.Mlp1First.lean ====
/-
  The first kernel's body at a point with k = 0: the accumulator, whatever it held, is overwritten with zeros
  and then with zeros plus the product of the first slab; the output block is not touched. Stated on any whole
  staging memrefs: the three input blocks at their contents, the output buffer handed back as found, the
  accumulator left with the pieces the run's two stores wrote.
-/
import proofs.«179280_j42734924595240_2_alg».proof.Proof.Mlp1Cases

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the accumulator at k = 0 (last first), with the proof that the body runs
    to the continuation holding every input as it was, the output buffer untouched and the accumulator with those
    pieces written. -/
noncomputable def kernelRun0_A (c : Dev nD) (i : grid0.Coords) (arg2 : Memref sig .tc .vmem S1024x8192 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond0_0 i) (hc1 : ¬cond0_1 i)
    (x0 : Vec F S1024x8192 .bf16) (x1 : Vec F S512x2048 .f32) (x2 : Vec F S1x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__mlp1_kernel i arg2 harg2 arg3 harg3 arg4 harg4 arg5 harg5 arg6 harg6) K } := by
  refine ⟨[], ?_, fun xi3 E K => ?run⟩
  case run =>
    simp only [cc0__mlp1_kernel_eq_skeleton]; unfold cc0__mlp1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frm

end
-- ==== Proof.Mlp1Middle.lean ====
/-
  The first kernel's body at a point with k = 1 or 2: the accumulator, at what the point before left, is
  overwritten with itself plus the product of the k-th slab; the output block is not touched.
-/
import proofs.«179280_j42734924595240_2_alg».proof.Proof.Mlp1First

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's one store leaves in the accumulator at k = 1, 2, with the proof that the body runs to the
    continuation holding every input as it was, the output buffer untouched and the accumulator with them written. -/
noncomputable def kernelRun0_B (c : Dev nD) (i : grid0.Coords) (arg2 : Memref sig .tc .vmem S1024x8192 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : ¬cond0_1 i)
    (x0 : Vec F S1024x8192 .bf16) (x1 : Vec F S512x2048 .f32) (x2 : Vec F S1x512 .f32) (xs0 : Vec F S1024x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__mlp1_kernel i arg2 harg2 arg3 harg3 arg4 harg4 arg5 harg5 arg6 harg6) K } := by
  refine ⟨[], ?_, fun xi3 E K => ?run⟩
  case run =>
    simp only [cc0__mlp1_kernel_eq_skeleton]; unfold cc0__mlp1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frm

end
-- ==== Proof.Mlp1Last.lean ====
/-
  The first kernel's body at a point with k = 3: the accumulator is overwritten with itself plus the product of
  the last slab, and the output block, whatever it held, with GELU of the accumulator plus the bias row.
-/
import proofs.«179280_j42734924595240_2_alg».proof.Proof.Mlp1Middle

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the output block and in the accumulator at k = 3, with the proof that the
    body runs to the continuation holding every input as it was and both buffers with their pieces written. -/
noncomputable def kernelRun0_C (c : Dev nD) (i : grid0.Coords) (arg2 : Memref sig .tc .vmem S1024x8192 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i)
    (x0 : Vec F S1024x8192 .bf16) (x1 : Vec F S512x2048 .f32) (x2 : Vec F S1x512 .f32) (xs0 : Vec F S1024x512 .f32) :
    Σ' (L3 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__mlp1_kernel i arg2 harg2 arg3 harg3 arg4 harg4 arg5 harg5 arg6 harg6) K } := by
  refine ⟨?_, ?_, fun E K => ?run⟩
  case run =>
    simp only [cc0__mlp1_kernel_eq_skeleton]; unfold cc0__mlp1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Frm

end
-- ==== Proof.Mlp1Points.lean ====
/-
  The first kernel point by point. The accumulator after point t = 4·n + k is, by recursion on t, what the case
  of k leaves in it: at k = 0 from anything, at k = 1, 2, 3 from what point t − 1 left. The output block after a
  point with k = 3 is what that case stores from the accumulator of point t − 1; at the other points the window
  is idle. With these as the pipeline's proof data, the body meets its obligation at every point, and the
  invariant (the accumulator at its named contents) is entered from and returned to the launch's.
-/
import proofs.«179280_j42734924595240_2_alg».proof.Proof.Mlp1Last

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, read back -/

theorem scover0_A (c : Dev nD) (i : grid0.Coords) (arg2 : Memref sig .tc .vmem S1024x8192 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond0_0 i) (hc1 : ¬cond0_1 i)
    (x0 : Vec F S1024x8192 .bf16) (x1 : Vec F S512x2048 .f32) (x2 : Vec F S1x512 .f32) (y : S1024x512.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1024x512.size (by sl_kernel_rfl) y
/-- The accumulator after a point with k = 0. -/
def sout0_A (c : Dev nD) (i : grid0.Coords) (arg2 : Memref sig .tc .vmem S1024x8192 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond0_0 i) (hc1 : ¬cond0_1 i)
    (x0 : Vec F S1024x8192 .bf16) (x1 : Vec F S512x2048 .f32) (x2 : Vec F S1x512 .f32) : Vec F S1024x512 .f32 :=
  VS0.read (Elt F) (VS0.writes (Elt F) VS0.junk (kernelRun0_A c i arg2 harg2 arg3 harg3 arg4 harg4 arg5 harg5 arg6 harg6 hc0 hc1 x0 x1 x2).2.1)

theorem scover0_B (c : Dev nD) (i : grid0.Coords) (arg2 : Memref sig .tc .vmem S1024x8192 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : ¬cond0_1 i)
    (x0 : Vec F S1024x8192 .bf16) (x1 : Vec F S512x2048 .f32) (x2 : Vec F S1x512 .f32) (xs0 : Vec F S1024x512 .f32) (y : S1024x512.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1024x512.size (by sl_kernel_rfl) y
/-- The accumulator after a point with k = 1, 2, from what the point before left. -/
def sout0_B (c : Dev nD) (i : grid0.Coords) (arg2 : Memref sig .tc .vmem S1024x8192 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : ¬cond0_1 i)
    (x0 : Vec F S1024x8192 .bf16) (x1 : Vec F S512x2048 .f32) (x2 : Vec F S1x512 .f32) (xs0 : Vec F S1024x512 .f32) : Vec F S1024x512 .f32 :=
  VS0.read (Elt F) (VS0.writes (Elt F) VS0.junk (kernelRun0_B c i arg2 harg2 arg3 harg3 arg4 harg4 arg5 harg5 arg6 harg6 hc0 hc1 x0 x1 x2 xs0).2.1)

theorem scover0_C (c : Dev nD) (i : grid0.Coords) (arg2 : Memref sig .tc .vmem S1024x8192 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i)
    (x0 : Vec F S1024x8192 .bf16) (x1 : Vec F S512x2048 .f32) (x2 : Vec F S1x512 .f32) (xs0 : Vec F S1024x512 .f32) (y : S1024x512.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1024x512.size (by sl_kernel_rfl) y
/-- The accumulator after a point with k = 3. -/
def sout0_C (c : Dev nD) (i : grid0.Coords) (arg2 : Memref sig .tc .vmem S1024x8192 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i)
    (x0 : Vec F S1024x8192 .bf16) (x1 : Vec F S512x2048 .f32) (x2 : Vec F S1x512 .f32) (xs0 : Vec F S1024x512 .f32) : Vec F S1024x512 .f32 :=
  VS0.read (Elt F) (VS0.writes (Elt F) VS0.junk (kernelRun0_C c i arg2 harg2 arg3 harg3 arg4 harg4 arg5 harg5 arg6 harg6 hc0 hc1 x0 x1 x2 xs0).2.1)
theorem cover0_C (c : Dev nD) (i : grid0.Coords) (arg2 : Memref sig .tc .vmem S1024x8192 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i)
    (x0 : Vec F S1024x8192 .bf16) (x1 : Vec F S512x2048 .f32) (x2 : Vec F S1x512 .f32) (xs0 : Vec F S1024x512 .f32) (y : S1024x512.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1024x512.size (by sl_kernel_rfl) y
/-- The output block after a point with k = 3. -/
def out0_C (c : Dev nD) (i : grid0.Coords) (arg2 : Memref sig .tc .vmem S1024x8192 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i)
    (x0 : Vec F S1024x8192 .bf16) (x1 : Vec F S512x2048 .f32) (x2 : Vec F S1x512 .f32) (xs0 : Vec F S1024x512 .f32) : Vec F S1024x512 .f32 :=
  VO0_3.read (Elt F) (VO0_3.writes (Elt F) VO0_3.junk (kernelRun0_C c i arg2 harg2 arg3 harg3 arg4 harg4 arg5 harg5 arg6 harg6 hc0 hc1 x0 x1 x2 xs0).1)

/-! ## Point by point -/

theorem not3_of_0 {n : ℕ} (h : n % 4 = 0) : ¬ n % 4 = 3 := by omega

/-- THE ACCUMULATOR after position `n`. -/
def accAt0 (c : Dev nD) : (n : ℕ) → n < cfg0.N → Vec F S1024x512 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => not3_of_0 (Nat.zero_mod 4) ((hcond0_1 ⟨0, hn⟩).mp h)) (iblk0 V c 0 ⟨0, hn⟩) (iblk0 V c 1 ⟨0, hn⟩) (iblk0 V c 2 ⟨0, hn⟩)
  | n + 1, hn =>
    if h0 : (n + 1) % 4 = 0 then
      sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => not3_of_0 h0 ((hcond0_1 ⟨n + 1, hn⟩).mp h)) (iblk0 V c 0 ⟨n + 1, hn⟩) (iblk0 V c 1 ⟨n + 1, hn⟩) (iblk0 V c 2 ⟨n + 1, hn⟩)
    else if h1 : (n + 1) % 4 = 3 then
      sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (accAt0 c n (Nat.lt_of_succ_lt hn))
    else
      sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (accAt0 c n (Nat.lt_of_succ_lt hn))

theorem accAt0_A (c : Dev nD) (t : Fin cfg0.N) (h0 : t.val % 4 = 0) :
    accAt0 V c t.val t.isLt = sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => not3_of_0 h0 ((hcond0_1 t).mp h)) (iblk0 V c 0 t) (iblk0 V c 1 t) (iblk0 V c 2 t) := by
  obtain ⟨n, hn⟩ := t
  cases n with
  | zero => exact rfl
  | succ n => exact (dif_pos h0).trans rfl

theorem accAt0_B (c : Dev nD) (t : Fin cfg0.N) (h0 : ¬t.val % 4 = 0) (h1 : ¬t.val % 4 = 3) :
    accAt0 V c t.val t.isLt = sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt0_C (c : Dev nD) (t : Fin cfg0.N) (h0 : ¬t.val % 4 = 0) (h1 : t.val % 4 = 3) :
    accAt0 V c t.val t.isLt = sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

theorem ne0_of_3 {n : ℕ} (h : n % 4 = 3) : ¬ n % 4 = 0 := by omega

/-- THE OUTPUT BLOCK after point `t`: at k = 3 what the case stores from the accumulator of the point before;
    elsewhere the window is idle and this value is never consulted. -/
def outAt0 (c : Dev nD) (t : Fin cfg0.N) : Vec F S1024x512 .f32 :=
  if h1 : t.val % 4 = 3 then
    out0_C c (grid0.coords t) (ms0_0 t) (hs0_0 t) (ms0_1 t) (hs0_1 t) (ms0_2 t) (hs0_2 t) (ms0_3 t) (hs0_3 t) scM0 (Memref.isWhole_whole _) (fun h => ne0_of_3 h1 ((hcond0_0 t).mp h)) ((hcond0_1 t).mpr h1) (iblk0 V c 0 t) (iblk0 V c 1 t) (iblk0 V c 2 t) (accAt0 V c (t.val - 1) (Nat.lt_of_le_of_lt (Nat.sub_le _ _) t.isLt))
  else VO0_3.read (Elt F) VO0_3.junk

theorem outAt0_C (c : Dev nD) (t : Fin cfg0.N) (h1 : t.val % 4 = 3) :
    outAt0 V c t = out0_C c (grid0.coords t) (ms0_0 t) (hs0_0 t) (ms0_1 t) (hs0_1 t) (ms0_2 t) (hs0_2 t) (ms0_3 t) (hs0_3 t) scM0 (Memref.isWhole_whole _) (fun h => ne0_of_3 h1 ((hcond0_0 t).mp h)) ((hcond0_1 t).mpr h1) (iblk0 V c 0 t) (iblk0 V c 1 t) (iblk0 V c 2 t) (accAt0 V c (t.val - 1) (Nat.lt_of_le_of_lt (Nat.sub_le _ _) t.isLt)) :=
  dif_pos h1

/-- The invariant before position `n`: before the first point what the launch hands over; afterwards the
    accumulator at what the point before left, the other scoped buffers and the generator register at anything. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (accAt0 V c n hn) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare (accAt0 V c (n - 1) (by omega)) ∗ others0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.KernelIdeal.Frm

end
-- ==== Proof.Mlp1Body.lean ====
/-
  The first kernel's body obligation: at every grid point, from the invariant and the windows' staging buffers at
  what the pipeline's schedule says they hold, the body runs and leaves the invariant of the next point and every
  window's buffer at the proof data's contents. A case split on k = t mod 4, each leaf one of the three runs.
-/
import proofs.«179280_j42734924595240_2_alg».proof.Proof.Mlp1Points

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 4 = 0
  · have h1 : ¬ t.val % 4 = 3 := not3_of_0 h0
    rw [Dat.leavesExact_idle (dat0 V c) 3 t (idleAt0_3 t (fun h => h1 ((hcond0_1 t).mp h))) (noFlush0_3 t (fun h => h1 ((hcond0_1 t).mp h)))]
    rw [accAt0_A V c t h0]
    unfold sout0_A; (try dsimp only)
    by_cases hz : t.val = 0
    · rw [PhiS0_castSucc V c t, PhiS0_zero V c _ _ hz, PhiA0_eq]
      iintro ⟨⟨⟨HS0, Hot⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => not3_of_0 h0 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hot]
      · isplitl [HS0 Hot]
        · isplitl [HS0]
          · unfold owns; iexists _; isplitr
            swap; · iexact HS0
            ipureintro; exact View.read_writes_of_cover _ _ _ _ _ (scover0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => not3_of_0 h0 ((hcond0_1 t).mp h)) (iblk0 V c 0 t) (iblk0 V c 1 t) (iblk0 V c 2 t))
          iexact Hot
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hot⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => not3_of_0 h0 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg Hot]
      · isplitl [HS0 Hot]
        · isplitl [HS0]
          · unfold owns; iexists _; isplitr
            swap; · iexact HS0
            ipureintro; exact View.read_writes_of_cover _ _ _ _ _ (scover0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => not3_of_0 h0 ((hcond0_1 t).mp h)) (iblk0 V c 0 t) (iblk0 V c 1 t) (iblk0 V c 2 t))
          iexact Hot
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat0 V c).leavesExact 3 t = owns (c : Thread nD τ) (ms0_3 t) fullShare ((dat0 V c).after 3 t) from by
        unfold Dat.leavesExact; rw [liveAt0_3 t ((hcond0_1 t).mpr h1)], after0_3]
      rw [accAt0_C V c t h0 h1, outAt0_C V c t h1]
      unfold out0_C sout0_C; (try dsimp only)
      rw [PhiS0_castSucc V c t, PhiS0_pos V c _ _ hz]
      iintro ⟨⟨⟨HS0, Hot⟩, Hg⟩, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (accAt0 V c (t.val - 1) (Nat.lt_of_le_of_lt (Nat.sub_le _ _) t.isLt))).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg Hot]
      · isplitl [HS0 Hot]
        · isplitl [HS0]
          · unfold owns; iexists _; isplitr
            swap; · iexact HS0
            ipureintro; exact View.read_writes_of_cover _ _ _ _ _ (scover0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) _)
          iexact Hot
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) _)
    · rw [Dat.leavesExact_idle (dat0 V c) 3 t (idleAt0_3 t (fun h => h1 ((hcond0_1 t).mp h))) (noFlush0_3 t (fun h => h1 ((hcond0_1 t).mp h)))]
      rw [accAt0_B V c t h0 h1]
      unfold sout0_B; (try dsimp only)
      rw [PhiS0_castSucc V c t, PhiS0_pos V c _ _ hz]
      iintro ⟨⟨⟨HS0, Hot⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (accAt0 V c (t.val - 1) (Nat.lt_of_le_of_lt (Nat.sub_le _ _) t.isLt))).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hot]
      · isplitl [HS0 Hot]
        · isplitl [HS0]
          · unfold owns; iexists _; isplitr
            swap; · iexact HS0
            ipureintro; exact View.read_writes_of_cover _ _ _ _ _ (scover0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) _)
          iexact Hot
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS0, Hot⟩, Hg⟩
  isplitl [HS0 Hot]
  · isplitl [HS0]
    · iexists _; iexact HS0
    iexact Hot
  iexact Hg

end Cert.KernelIdeal.Frm

end
-- ==== Proof.Mlp2Cases.lean ====
/-
  The second kernel (the output layer) as the pipeline runs it: an 8 × 4 grid, point t = 4·n + k. At k = 0 the
  body zeroes its accumulator, at every k it adds the product of the (·, k) block of the hidden layer with the
  (n, k) tile of the weights, and at k = 3 it adds the bias row and stores the output block. This module fixes
  what the three cases share: the blocks of the windows, the two branch conditions decided over the grid, where
  the output window is idle, and the invariant's shape.
-/
import proofs.«179280_j42734924595240_2_alg».proof.Proof.Gen.KernelIdeal.Launch
import proofs.«179280_j42734924595240_2_alg».proof.Proof.Gen.KernelIdeal.Skeleton
import proofs.«179280_j42734924595240_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the TensorCore's buffers when the region is entered: a parameter
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or not:
    the body leaves the block in place and the index does not move between two fetches. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, decided over the grid -/

/-- "k = 0", as the body computes it from the second grid coordinate. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "k = 3". -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Before k = 3 the body stores nothing into the output block and the pipeline does not write it back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S1024x512 .f32 := (Memref.whole cc1_stg3_0 : Memref sig .tc .vmem S1024x512 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .f32 := win1_3.stage (cfg1.slots t 3)
abbrev hs1_3 (t : Fin cfg1.N) : (ms1_3 t).IsWhole := hstage1_3 ((cfg1.slots t 3).cast nbuf1_3)
/-- The accumulator: a scratch buffer of the kernel's own, carried from point to point. -/
abbrev scM1 : Memref sig .tc .vmem S1024x512 .f32 := Memref.whole cc1_scratch0
abbrev VS1 : View sig .tc .vmem S1024x512 .f32 := scM1.view

/-- The other scoped buffers that are no staging buffer of this call (the first call's), each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

theorem PhiA1_open (c : Dev nD) : (Pipeline.ΦA spec1 c : sProp 𝕄) ⊢ iprop(iprop((∃ d, owns (c : Thread nD τ) scM1 fullShare d) ∗ others1 c) ∗ (∃ r, prngReg c r)) := by
  unfold Pipeline.ΦA others1; rw [scopedRest1_eq]; simp only [scM1, owns_whole]
  iintro ⟨⟨B1, B2, B3, B4, B5, B6, B7, B8, HS⟩, Hg⟩
  isplitl [B1 B2 B3 B4 B5 B6 B7 B8 HS]
  · isplitl [HS]; · iexact HS
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  iexact Hg
theorem PhiA1_close (c : Dev nD) : iprop(iprop((∃ d, owns (c : Thread nD τ) scM1 fullShare d) ∗ others1 c) ∗ (∃ r, prngReg c r)) ⊢ (Pipeline.ΦA spec1 c : sProp 𝕄) := by
  unfold Pipeline.ΦA others1; rw [scopedRest1_eq]; simp only [scM1, owns_whole]
  iintro ⟨⟨HS, B1, B2, B3, B4, B5, B6, B7, B8⟩, Hg⟩
  isplitl [B1 B2 B3 B4 B5 B6 B7 B8 HS]
  · isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact HS
  iexact Hg
/-- What the launch hands the body besides the windows: the accumulator at some contents, the other scoped
    buffers, the generator register at some state (the same resources in another order). -/
theorem PhiA1_eq (c : Dev nD) :
    (Pipeline.ΦA spec1 c : sProp 𝕄) = iprop(iprop((∃ d, owns (c : Thread nD τ) scM1 fullShare d) ∗ others1 c) ∗ (∃ r, prngReg c r)) :=
  BI.equiv_iff.mp ⟨PhiA1_open c, PhiA1_close c⟩

end Cert.KernelIdeal.Frm

end
-- ==== Proof.Mlp2First.lean ====
/-
  The second kernel's body at a point with k = 0: the accumulator, whatever it held, is overwritten with zeros
  and then with zeros plus the product of the first block; the output block is not touched. Stated on any whole
  staging memrefs: the three input blocks at their contents, the output buffer handed back as found, the
  accumulator left with the pieces the run's two stores wrote.
-/
import proofs.«179280_j42734924595240_2_alg».proof.Proof.Mlp2Cases

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the accumulator at k = 0 (last first), with the proof that the body runs
    to the continuation holding every input as it was, the output buffer untouched and the accumulator with those
    pieces written. -/
noncomputable def kernelRun1_A (c : Dev nD) (i : grid1.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond1_0 i) (hc1 : ¬cond1_1 i)
    (x0 : Vec F S1024x2048 .f32) (x1 : Vec F S512x2048 .f32) (x2 : Vec F S1x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__mlp2_kernel i arg2 harg2 arg3 harg3 arg4 harg4 arg5 harg5 arg6 harg6) K } := by
  refine ⟨[], ?_, fun xi3 E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frm

end
-- ==== Proof.Mlp2Middle.lean ====
/-
  The second kernel's body at a point with k = 1 or 2: the accumulator, at what the point before left, is
  overwritten with itself plus the product of the k-th block; the output block is not touched.
-/
import proofs.«179280_j42734924595240_2_alg».proof.Proof.Mlp2First

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's one store leaves in the accumulator at k = 1, 2, with the proof that the body runs to the
    continuation holding every input as it was, the output buffer untouched and the accumulator with them written. -/
noncomputable def kernelRun1_B (c : Dev nD) (i : grid1.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : ¬cond1_1 i)
    (x0 : Vec F S1024x2048 .f32) (x1 : Vec F S512x2048 .f32) (x2 : Vec F S1x512 .f32) (xs0 : Vec F S1024x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__mlp2_kernel i arg2 harg2 arg3 harg3 arg4 harg4 arg5 harg5 arg6 harg6) K } := by
  refine ⟨[], ?_, fun xi3 E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frm

end
-- ==== Proof.Mlp2Last.lean ====
/-
  The second kernel's body at a point with k = 3: the accumulator is overwritten with itself plus the product of
  the last block, and the output block, whatever it held, with the accumulator plus the bias row.
-/
import proofs.«179280_j42734924595240_2_alg».proof.Proof.Mlp2Middle

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the output block and in the accumulator at k = 3, with the proof that the
    body runs to the continuation holding every input as it was and both buffers with their pieces written. -/
noncomputable def kernelRun1_C (c : Dev nD) (i : grid1.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : cond1_1 i)
    (x0 : Vec F S1024x2048 .f32) (x1 : Vec F S512x2048 .f32) (x2 : Vec F S1x512 .f32) (xs0 : Vec F S1024x512 .f32) :
    Σ' (L3 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__mlp2_kernel i arg2 harg2 arg3 harg3 arg4 harg4 arg5 harg5 arg6 harg6) K } := by
  refine ⟨?_, ?_, fun E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Frm

end
-- ==== Proof.Mlp2Points.lean ====
/-
  The second kernel point by point. The accumulator after point t = 4·n + k is, by recursion on t, what the case
  of k leaves in it: at k = 0 from anything, at k = 1, 2, 3 from what point t − 1 left. The output block after a
  point with k = 3 is what that case stores from the accumulator of point t − 1; at the other points the window
  is idle. With these as the pipeline's proof data, the body meets its obligation at every point, and the
  invariant (the accumulator at its named contents) is entered from and returned to the launch's.
-/
import proofs.«179280_j42734924595240_2_alg».proof.Proof.Mlp2Last

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, read back -/

theorem scover1_A (c : Dev nD) (i : grid1.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond1_0 i) (hc1 : ¬cond1_1 i)
    (x0 : Vec F S1024x2048 .f32) (x1 : Vec F S512x2048 .f32) (x2 : Vec F S1x512 .f32) (y : S1024x512.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x512.size (by sl_kernel_rfl) y
/-- The accumulator after a point with k = 0. -/
def sout1_A (c : Dev nD) (i : grid1.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond1_0 i) (hc1 : ¬cond1_1 i)
    (x0 : Vec F S1024x2048 .f32) (x1 : Vec F S512x2048 .f32) (x2 : Vec F S1x512 .f32) : Vec F S1024x512 .f32 :=
  VS1.read (Elt F) (VS1.writes (Elt F) VS1.junk (kernelRun1_A c i arg2 harg2 arg3 harg3 arg4 harg4 arg5 harg5 arg6 harg6 hc0 hc1 x0 x1 x2).2.1)

theorem scover1_B (c : Dev nD) (i : grid1.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : ¬cond1_1 i)
    (x0 : Vec F S1024x2048 .f32) (x1 : Vec F S512x2048 .f32) (x2 : Vec F S1x512 .f32) (xs0 : Vec F S1024x512 .f32) (y : S1024x512.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x512.size (by sl_kernel_rfl) y
/-- The accumulator after a point with k = 1, 2, from what the point before left. -/
def sout1_B (c : Dev nD) (i : grid1.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : ¬cond1_1 i)
    (x0 : Vec F S1024x2048 .f32) (x1 : Vec F S512x2048 .f32) (x2 : Vec F S1x512 .f32) (xs0 : Vec F S1024x512 .f32) : Vec F S1024x512 .f32 :=
  VS1.read (Elt F) (VS1.writes (Elt F) VS1.junk (kernelRun1_B c i arg2 harg2 arg3 harg3 arg4 harg4 arg5 harg5 arg6 harg6 hc0 hc1 x0 x1 x2 xs0).2.1)

theorem scover1_C (c : Dev nD) (i : grid1.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : cond1_1 i)
    (x0 : Vec F S1024x2048 .f32) (x1 : Vec F S512x2048 .f32) (x2 : Vec F S1x512 .f32) (xs0 : Vec F S1024x512 .f32) (y : S1024x512.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x512.size (by sl_kernel_rfl) y
/-- The accumulator after a point with k = 3. -/
def sout1_C (c : Dev nD) (i : grid1.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : cond1_1 i)
    (x0 : Vec F S1024x2048 .f32) (x1 : Vec F S512x2048 .f32) (x2 : Vec F S1x512 .f32) (xs0 : Vec F S1024x512 .f32) : Vec F S1024x512 .f32 :=
  VS1.read (Elt F) (VS1.writes (Elt F) VS1.junk (kernelRun1_C c i arg2 harg2 arg3 harg3 arg4 harg4 arg5 harg5 arg6 harg6 hc0 hc1 x0 x1 x2 xs0).2.1)
theorem cover1_C (c : Dev nD) (i : grid1.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : cond1_1 i)
    (x0 : Vec F S1024x2048 .f32) (x1 : Vec F S512x2048 .f32) (x2 : Vec F S1x512 .f32) (xs0 : Vec F S1024x512 .f32) (y : S1024x512.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x512.size (by sl_kernel_rfl) y
/-- The output block after a point with k = 3. -/
def out1_C (c : Dev nD) (i : grid1.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : cond1_1 i)
    (x0 : Vec F S1024x2048 .f32) (x1 : Vec F S512x2048 .f32) (x2 : Vec F S1x512 .f32) (xs0 : Vec F S1024x512 .f32) : Vec F S1024x512 .f32 :=
  VO1_3.read (Elt F) (VO1_3.writes (Elt F) VO1_3.junk (kernelRun1_C c i arg2 harg2 arg3 harg3 arg4 harg4 arg5 harg5 arg6 harg6 hc0 hc1 x0 x1 x2 xs0).1)

/-! ## Point by point -/

theorem not3_of_0' {n : ℕ} (h : n % 4 = 0) : ¬ n % 4 = 3 := by omega

/-- THE ACCUMULATOR after position `n`. -/
def accAt1 (c : Dev nD) : (n : ℕ) → n < cfg1.N → Vec F S1024x512 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => not3_of_0' (Nat.zero_mod 4) ((hcond1_1 ⟨0, hn⟩).mp h)) (iblk1 V c 0 ⟨0, hn⟩) (iblk1 V c 1 ⟨0, hn⟩) (iblk1 V c 2 ⟨0, hn⟩)
  | n + 1, hn =>
    if h0 : (n + 1) % 4 = 0 then
      sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => not3_of_0' h0 ((hcond1_1 ⟨n + 1, hn⟩).mp h)) (iblk1 V c 0 ⟨n + 1, hn⟩) (iblk1 V c 1 ⟨n + 1, hn⟩) (iblk1 V c 2 ⟨n + 1, hn⟩)
    else if h1 : (n + 1) % 4 = 3 then
      sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (accAt1 c n (Nat.lt_of_succ_lt hn))
    else
      sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (accAt1 c n (Nat.lt_of_succ_lt hn))

theorem accAt1_A (c : Dev nD) (t : Fin cfg1.N) (h0 : t.val % 4 = 0) :
    accAt1 V c t.val t.isLt = sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => not3_of_0' h0 ((hcond1_1 t).mp h)) (iblk1 V c 0 t) (iblk1 V c 1 t) (iblk1 V c 2 t) := by
  obtain ⟨n, hn⟩ := t
  cases n with
  | zero => exact rfl
  | succ n => exact (dif_pos h0).trans rfl

theorem accAt1_B (c : Dev nD) (t : Fin cfg1.N) (h0 : ¬t.val % 4 = 0) (h1 : ¬t.val % 4 = 3) :
    accAt1 V c t.val t.isLt = sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt1_C (c : Dev nD) (t : Fin cfg1.N) (h0 : ¬t.val % 4 = 0) (h1 : t.val % 4 = 3) :
    accAt1 V c t.val t.isLt = sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

theorem ne0_of_3' {n : ℕ} (h : n % 4 = 3) : ¬ n % 4 = 0 := by omega

/-- THE OUTPUT BLOCK after point `t`: at k = 3 what the case stores from the accumulator of the point before;
    elsewhere the window is idle and this value is never consulted. -/
def outAt1 (c : Dev nD) (t : Fin cfg1.N) : Vec F S1024x512 .f32 :=
  if h1 : t.val % 4 = 3 then
    out1_C c (grid1.coords t) (ms1_0 t) (hs1_0 t) (ms1_1 t) (hs1_1 t) (ms1_2 t) (hs1_2 t) (ms1_3 t) (hs1_3 t) scM1 (Memref.isWhole_whole _) (fun h => ne0_of_3' h1 ((hcond1_0 t).mp h)) ((hcond1_1 t).mpr h1) (iblk1 V c 0 t) (iblk1 V c 1 t) (iblk1 V c 2 t) (accAt1 V c (t.val - 1) (Nat.lt_of_le_of_lt (Nat.sub_le _ _) t.isLt))
  else VO1_3.read (Elt F) VO1_3.junk

theorem outAt1_C (c : Dev nD) (t : Fin cfg1.N) (h1 : t.val % 4 = 3) :
    outAt1 V c t = out1_C c (grid1.coords t) (ms1_0 t) (hs1_0 t) (ms1_1 t) (hs1_1 t) (ms1_2 t) (hs1_2 t) (ms1_3 t) (hs1_3 t) scM1 (Memref.isWhole_whole _) (fun h => ne0_of_3' h1 ((hcond1_0 t).mp h)) ((hcond1_1 t).mpr h1) (iblk1 V c 0 t) (iblk1 V c 1 t) (iblk1 V c 2 t) (accAt1 V c (t.val - 1) (Nat.lt_of_le_of_lt (Nat.sub_le _ _) t.isLt)) :=
  dif_pos h1

/-- The invariant before position `n`: before the first point what the launch hands over; afterwards the
    accumulator at what the point before left, the other scoped buffers and the generator register at anything. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (accAt1 V c n hn) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare (accAt1 V c (n - 1) (by omega)) ∗ others1 c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.KernelIdeal.Frm

end
-- ==== Proof.Mlp2Body.lean ====
/-
  The second kernel's body obligation: at every grid point, from the invariant and the windows' staging buffers at
  what the pipeline's schedule says they hold, the body runs and leaves the invariant of the next point and every
  window's buffer at the proof data's contents. A case split on k = t mod 4, each leaf one of the three runs.
-/
import proofs.«179280_j42734924595240_2_alg».proof.Proof.Mlp2Points

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have h1 : ¬ t.val % 4 = 3 := not3_of_0' h0
    rw [Dat.leavesExact_idle (dat1 V c) 3 t (idleAt1_3 t (fun h => h1 ((hcond1_1 t).mp h))) (noFlush1_3 t (fun h => h1 ((hcond1_1 t).mp h)))]
    rw [accAt1_A V c t h0]
    unfold sout1_A; (try dsimp only)
    by_cases hz : t.val = 0
    · rw [PhiS1_castSucc V c t, PhiS1_zero V c _ _ hz, PhiA1_eq]
      iintro ⟨⟨⟨HS0, Hot⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => not3_of_0' h0 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hot]
      · isplitl [HS0 Hot]
        · isplitl [HS0]
          · unfold owns; iexists _; isplitr
            swap; · iexact HS0
            ipureintro; exact View.read_writes_of_cover _ _ _ _ _ (scover1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => not3_of_0' h0 ((hcond1_1 t).mp h)) (iblk1 V c 0 t) (iblk1 V c 1 t) (iblk1 V c 2 t))
          iexact Hot
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hot⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => not3_of_0' h0 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg Hot]
      · isplitl [HS0 Hot]
        · isplitl [HS0]
          · unfold owns; iexists _; isplitr
            swap; · iexact HS0
            ipureintro; exact View.read_writes_of_cover _ _ _ _ _ (scover1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => not3_of_0' h0 ((hcond1_1 t).mp h)) (iblk1 V c 0 t) (iblk1 V c 1 t) (iblk1 V c 2 t))
          iexact Hot
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [accAt1_C V c t h0 h1, outAt1_C V c t h1]
      unfold out1_C sout1_C; (try dsimp only)
      rw [PhiS1_castSucc V c t, PhiS1_pos V c _ _ hz]
      iintro ⟨⟨⟨HS0, Hot⟩, Hg⟩, Ho, ⟨%d0, H0⟩, ⟨%d1, H1⟩, ⟨%d2, H2⟩, ⟨%d3, H3⟩⟩
      iapply ((kernelRun1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (accAt1 V c (t.val - 1) (Nat.lt_of_le_of_lt (Nat.sub_le _ _) t.isLt))).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg Hot]
      · isplitl [HS0 Hot]
        · isplitl [HS0]
          · unfold owns; iexists _; isplitr
            swap; · iexact HS0
            ipureintro; exact View.read_writes_of_cover _ _ _ _ _ (scover1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) _)
          iexact Hot
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) _)
    · rw [Dat.leavesExact_idle (dat1 V c) 3 t (idleAt1_3 t (fun h => h1 ((hcond1_1 t).mp h))) (noFlush1_3 t (fun h => h1 ((hcond1_1 t).mp h)))]
      rw [accAt1_B V c t h0 h1]
      unfold sout1_B; (try dsimp only)
      rw [PhiS1_castSucc V c t, PhiS1_pos V c _ _ hz]
      iintro ⟨⟨⟨HS0, Hot⟩, Hg⟩, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (accAt1 V c (t.val - 1) (Nat.lt_of_le_of_lt (Nat.sub_le _ _) t.isLt))).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hot]
      · isplitl [HS0 Hot]
        · isplitl [HS0]
          · unfold owns; iexists _; isplitr
            swap; · iexact HS0
            ipureintro; exact View.read_writes_of_cover _ _ _ _ _ (scover1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) _)
          iexact Hot
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HS0, Hot⟩, Hg⟩
  isplitl [HS0 Hot]
  · isplitl [HS0]
    · iexists _; iexact HS0
    iexact Hot
  iexact Hg

end Cert.KernelIdeal.Frm

end
-- ==== Proof.TwoCalls.lean ====
/-
  The whole program as the library's list of segments: five stretches of host operations (the embedding lookup and
  the causal windowing), the two kernel calls, one closing reshape. The buffers' contents at each boundary are a
  fold from the launch memory: a host stretch applies its operations, a call leaves its arrays at what its
  write-backs leave and everything else as entered. Every weakly fair execution terminates with every unscoped
  buffer at the last boundary's contents; the arguments are read back through the fold to the launch memory.
-/
import proofs.«179280_j42734924595240_2_alg».proof.Proof.Mlp1Body
import proofs.«179280_j42734924595240_2_alg».proof.Proof.Mlp2Body
import proofs.«179280_j42734924595240_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the calls' boundaries -/

/-- When the first call is entered: the launch memory after the five host stretches. -/
abbrev W5 : Dev nD → Valuation τ sig (Elt F) := fun c => V5 m c
abbrev E5 : (c : Dev nD) → (b : Ref sig .tc) → Buf (Elt F) ((c : Thread nD τ).loc b) := fun c b => W5 m c b
/-- When the first call is left. -/
def W6 (c : Dev nD) : Valuation τ sig (Elt F) :=
  Pipeline.withArrays spec0 c (W5 m c) fun w => (dat0 (E5 m) c).arrAt w cfg0.N
theorem W6_arr (c : Dev nD) (w : Fin cfg0.W) :
    W6 m c (Proc.devRef .tc (Pipeline.arrRef spec0 w)) = (dat0 (E5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
abbrev E6 : (c : Dev nD) → (b : Ref sig .tc) → Buf (Elt F) ((c : Thread nD τ).loc b) := fun c b => W6 m c b
theorem hF0 (c : Dev nD) (w : Fin cfg0.W) : (dat0 (E5 m) c).arrAt w cfg0.N = E6 m c (Pipeline.arrRef spec0 w) :=
  (W6_arr m c w).symm
theorem hrest0 (c : Dev nD) : ∀ b, b ∉ Finset.univ.image (Pipeline.arrRef spec0) → E6 m c b = E5 m c b :=
  fun b hb => W6_of_ne m c b fun w e => hb (Finset.mem_image.mpr ⟨w, Finset.mem_univ _, e⟩)

/-- When the second call is left (it is entered from `W6`: no host operation stands between the calls). -/
def W7 (c : Dev nD) : Valuation τ sig (Elt F) :=
  Pipeline.withArrays spec1 c (W6 m c) fun w => (dat1 (E6 m) c).arrAt w cfg1.N
theorem W7_arr (c : Dev nD) (w : Fin cfg1.W) :
    W7 m c (Proc.devRef .tc (Pipeline.arrRef spec1 w)) = (dat1 (E6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev E7 : (c : Dev nD) → (b : Ref sig .tc) → Buf (Elt F) ((c : Thread nD τ).loc b) := fun c b => W7 m c b
theorem hF1 (c : Dev nD) (w : Fin cfg1.W) : (dat1 (E6 m) c).arrAt w cfg1.N = E7 m c (Pipeline.arrRef spec1 w) :=
  (W7_arr m c w).symm
theorem hrest1 (c : Dev nD) : ∀ b, b ∉ Finset.univ.image (Pipeline.arrRef spec1) → E7 m c b = E6 m c b :=
  fun b hb => W7_of_ne m c b fun w e => hb (Finset.mem_image.mpr ⟨w, Finset.mem_univ _, e⟩)

/-- At the return: after the closing reshape. -/
abbrev W8 : Dev nD → Valuation τ sig (Elt F) := fun c => StableHlo.after hostOps2 (W7 m c)

/-- `main_arg0` ends as launched: no host operation writes it and no call changes it. -/
theorem W8_main_arg0 (c : Dev nD) : W8 m c main_arg0 = m ((c : Thread nD τ).loc main_arg0) :=
  (StableHlo.after_of_writes_sub hostOps2 (W7 m c) hostOps2_writes (by decide : main_arg0 ∉ hostOps2_W)).trans <|
    (W7_of_ne m c main_arg0 (by decide)).trans <| (W6_of_ne m c main_arg0 (by decide)).trans <|
    (V5_of m c main_arg0 (by decide)).trans <| (V4_of m c main_arg0 (by decide)).trans <| (V3_of m c main_arg0 (by decide)).trans <| (V2_of m c main_arg0 (by decide)).trans <| (V1_of m c main_arg0 (by decide)).trans rfl
/-- `main_arg1` ends as launched: no host operation writes it and no call changes it. -/
theorem W8_main_arg1 (c : Dev nD) : W8 m c main_arg1 = m ((c : Thread nD τ).loc main_arg1) :=
  (StableHlo.after_of_writes_sub hostOps2 (W7 m c) hostOps2_writes (by decide : main_arg1 ∉ hostOps2_W)).trans <|
    (W7_of_ne m c main_arg1 (by decide)).trans <| (W6_of_ne m c main_arg1 (by decide)).trans <|
    (V5_of m c main_arg1 (by decide)).trans <| (V4_of m c main_arg1 (by decide)).trans <| (V3_of m c main_arg1 (by decide)).trans <| (V2_of m c main_arg1 (by decide)).trans <| (V1_of m c main_arg1 (by decide)).trans rfl
/-- `main_arg2` ends as launched: no host operation writes it and no call changes it. -/
theorem W8_main_arg2 (c : Dev nD) : W8 m c main_arg2 = m ((c : Thread nD τ).loc main_arg2) :=
  (StableHlo.after_of_writes_sub hostOps2 (W7 m c) hostOps2_writes (by decide : main_arg2 ∉ hostOps2_W)).trans <|
    (W7_of_ne m c main_arg2 (by decide)).trans <| ((W6_arr m c 1).trans (((dat0 (E5 m) c).arrAt_in 1 rfl _).trans (A_eq0 (E5 m) c 1))).trans <|
    (V5_of m c main_arg2 (by decide)).trans <| (V4_of m c main_arg2 (by decide)).trans <| (V3_of m c main_arg2 (by decide)).trans <| (V2_of m c main_arg2 (by decide)).trans <| (V1_of m c main_arg2 (by decide)).trans rfl
/-- `main_arg3` ends as launched: no host operation writes it and no call changes it. -/
theorem W8_main_arg3 (c : Dev nD) : W8 m c main_arg3 = m ((c : Thread nD τ).loc main_arg3) :=
  (StableHlo.after_of_writes_sub hostOps2 (W7 m c) hostOps2_writes (by decide : main_arg3 ∉ hostOps2_W)).trans <|
    (W7_of_ne m c main_arg3 (by decide)).trans <| (W6_of_ne m c main_arg3 (by decide)).trans <|
    (V5_of m c main_arg3 (by decide)).trans <| (V4_of m c main_arg3 (by decide)).trans <| (V3_of m c main_arg3 (by decide)).trans <| (V2_of m c main_arg3 (by decide)).trans <| (V1_of m c main_arg3 (by decide)).trans rfl
/-- `main_arg4` ends as launched: no host operation writes it and no call changes it. -/
theorem W8_main_arg4 (c : Dev nD) : W8 m c main_arg4 = m ((c : Thread nD τ).loc main_arg4) :=
  (StableHlo.after_of_writes_sub hostOps2 (W7 m c) hostOps2_writes (by decide : main_arg4 ∉ hostOps2_W)).trans <|
    ((W7_arr m c 1).trans (((dat1 (E6 m) c).arrAt_in 1 rfl _).trans (A_eq1 (E6 m) c 1))).trans <| (W6_of_ne m c main_arg4 (by decide)).trans <|
    (V5_of m c main_arg4 (by decide)).trans <| (V4_of m c main_arg4 (by decide)).trans <| (V3_of m c main_arg4 (by decide)).trans <| (V2_of m c main_arg4 (by decide)).trans <| (V1_of m c main_arg4 (by decide)).trans rfl
/-- `main_arg5` ends as launched: no host operation writes it and no call changes it. -/
theorem W8_main_arg5 (c : Dev nD) : W8 m c main_arg5 = m ((c : Thread nD τ).loc main_arg5) :=
  (StableHlo.after_of_writes_sub hostOps2 (W7 m c) hostOps2_writes (by decide : main_arg5 ∉ hostOps2_W)).trans <|
    (W7_of_ne m c main_arg5 (by decide)).trans <| (W6_of_ne m c main_arg5 (by decide)).trans <|
    (V5_of m c main_arg5 (by decide)).trans <| (V4_of m c main_arg5 (by decide)).trans <| (V3_of m c main_arg5 (by decide)).trans <| (V2_of m c main_arg5 (by decide)).trans <| (V1_of m c main_arg5 (by decide)).trans rfl

/-- After the last point of the first call the invariant returns the generator register and the scoped buffers. -/
theorem PhiLast0 (V : (c : Dev nD) → (b : Ref sig .tc) → Buf (Elt F) ((c : Thread nD τ).loc b)) (c : Dev nD) :
    (dat0 V c).Φ (Fin.last cfg0.N) ⊢ iprop((∃ r, prngReg c r) ∗ (BI.emp : sProp 𝕄) ∗ Pipeline.scopedRest (Ix := Unit) (Name := ℕ) (U := UR sig nD τ) (Lvl := ℕ) (Val := Elt F) spec0 c) := by
  have h := hout0 V c
  unfold Pipeline.ΦA at h
  iintro H
  ihave H' := h $$ H
  icases H' with ⟨Hr, Hp⟩
  isplitl [Hp]; · iexact Hp
  isplitr; · iempintro
  iexact Hr
/-- After the last point of the second call the invariant returns the generator register and the scoped buffers. -/
theorem PhiLast1 (V : (c : Dev nD) → (b : Ref sig .tc) → Buf (Elt F) ((c : Thread nD τ).loc b)) (c : Dev nD) :
    (dat1 V c).Φ (Fin.last cfg1.N) ⊢ iprop((∃ r, prngReg c r) ∗ (BI.emp : sProp 𝕄) ∗ Pipeline.scopedRest (Ix := Unit) (Name := ℕ) (U := UR sig nD τ) (Lvl := ℕ) (Val := Elt F) spec1 c) := by
  have h := hout1 V c
  unfold Pipeline.ΦA at h
  iintro H
  ihave H' := h $$ H
  icases H' with ⟨Hr, Hp⟩
  isplitl [Hp]; · iexact Hp
  isplitr; · iempintro
  iexact Hr

/-! ## The proof data family and what rides beside the buffers -/

abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (cfgs p) c
  | ⟨0, _⟩ => fun c => dat0 (E5 m) c
  | ⟨1, _⟩ => fun c => dat1 (E6 m) c
abbrev 𝒱₀ : Variants := Variants.none
abbrev L : GSem nD τ sig → Finset Unit := fun _ => ∅
abbrev lv : GSem nD τ sig → Unit → ℕ := fun _ _ => 0
/-- The core's generator register at some state and its dues, at nothing. -/
abbrev R (c : Dev nD) : sProp 𝕄 := iprop((∃ r, prngReg c r) ∗ ∃ W, owes (c : Thread nD τ) (0 : CellTallies nD τ sig Unit) W)
abbrev Rs : Fin 3 → Dev nD → sProp 𝕄 := fun _ => R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m c) ∗ ∃ r, prngReg c r)

set_option backward.isDefEq.respectTransparency.types false in
/-- The first call as a segment: entered from every unscoped buffer at `W5`, left at `W6`. Its arrays are split
    out of the unscoped buffers and put back at the contents the write-backs leave; the generator register and the
    scoped buffers go into the invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E5 m) c).loose
  hwaits := Pipeline.hwaits_of_owed_zero _ _ _ _ L lv 0 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]; exact PhiLast0 (E5 m) c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E5 m c) (E6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call as a segment: entered from every unscoped buffer at `W6`, left at `W7`. Its arrays are split
    out of the unscoped buffers and put back at the contents the write-backs leave; the generator register and the
    scoped buffers go into the invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (E6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]; exact PhiLast1 (E6 m) c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E6 m c) (E7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The closing reshape as a segment, from the contents the second call leaves. -/
def segLast : Pipeline.HostSeg (Ix := Unit) (Name := ℕ) (U := UR sig nD τ) (Lvl := ℕ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W7 m) R

theorem last_chain (c : Dev nD) :
    iprop(StableHlo.held (c : Thread nD τ) (Pipeline.ucRefs τ sig) (StableHlo.after hostOps2 (W7 m c)) ∗ R (F := F) c)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

/-- The program's eight segments in order. -/
abbrev segs (c : Dev nD) : List (Pipeline.Seg (pcfgs (F := F)) adm (pdats m) () defs₀ 𝒱₀ L lv) :=
  [.host (seg0 m 𝒱₀ L lv Rs), .host (seg1 m 𝒱₀ L lv Rs), .host (seg2 m 𝒱₀ L lv Rs), .host (seg3 m 𝒱₀ L lv Rs), .host (seg4 m 𝒱₀ L lv Rs),
    .region (reg0 m), .region (reg1 m), .host (segLast m)]

set_option backward.isDefEq.respectTransparency.types false in
/-- THE RUN: from any memory with zero counters every weakly fair execution of the program terminates, nothing
    faulting, and in every final memory every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) := by
  refine Pipeline.θ_run_regions_kit_dev (pcfgs (F := F)) adm (pdats m) () cellOf_inj emb₁ defs₀ 𝒱₀ L lv m ρ main
    (segs m)
    (fun c Q => by
      rewrite [main_chain c, Pipeline.Seg.run_eq_chain,
        show (segs m c).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, .rfl, .rfl, last_chain m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c)⟩) (run_all m ρ)

end Cert.KernelIdeal.Frm

end
-- ==== Proof.KMlp1Cases.lean ====
/-
  (The program as printed, before idealization: the same text in that program's namespace, at any value type.)
  The first kernel (the hidden layer) as the pipeline runs it: a 16 × 4 grid, point t = 4·n + k. At k = 0 the
  body zeroes its accumulator, at every k it adds the product of the k-th 2048-column slab of the resident input
  with the (n, k) tile of the weights, and at k = 3 it adds the bias row, applies GELU and stores the output
  block. This module fixes what the three cases (k = 0, k = 1 or 2, k = 3) share: the blocks of the windows, the
  two branch conditions decided over the grid, where the output window is idle, and the invariant's shape.
-/
import proofs.«179280_j42734924595240_2_alg».proof.Proof.Gen.Kernel.Launch
import proofs.«179280_j42734924595240_2_alg».proof.Proof.Gen.Kernel.Skeleton
import proofs.«179280_j42734924595240_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the TensorCore's buffers when the region is entered: a parameter
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or not:
    the body leaves the block in place and the index does not move between two fetches. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, decided over the grid -/

/-- "k = 0", as the body computes it from the second grid coordinate. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- "k = 3". -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Before k = 3 the body stores nothing into the output block and the pipeline does not write it back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S1024x512 .f32 := (Memref.whole cc0_stg3_0 : Memref sig .tc .vmem S1024x512 .f32).view
abbrev ms0_0 (t : Fin cfg0.N) : Memref sig .tc .vmem S1024x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .f32 := win0_3.stage (cfg0.slots t 3)
abbrev hs0_3 (t : Fin cfg0.N) : (ms0_3 t).IsWhole := hstage0_3 ((cfg0.slots t 3).cast nbuf0_3)
/-- The accumulator: a scratch buffer of the kernel's own, carried from point to point. -/
abbrev scM0 : Memref sig .tc .vmem S1024x512 .f32 := Memref.whole cc0_scratch0
abbrev VS0 : View sig .tc .vmem S1024x512 .f32 := scM0.view

/-- The other scoped buffers that are no staging buffer of this call (the second call's), each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the launch hands the body besides the windows: the accumulator at some contents, the other scoped
    buffers, the generator register at some state. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; rfl

end Cert.Kernel.Frm

end
-- ==== Proof.KMlp1First.lean ====
/-
  (The program as printed, before idealization: the same text in that program's namespace, at any value type.)
  The first kernel's body at a point with k = 0: the accumulator, whatever it held, is overwritten with zeros
  and then with zeros plus the product of the first slab; the output block is not touched. Stated on any whole
  staging memrefs: the three input blocks at their contents, the output buffer handed back as found, the
  accumulator left with the pieces the run's two stores wrote.
-/
import proofs.«179280_j42734924595240_2_alg».proof.Proof.KMlp1Cases

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the accumulator at k = 0 (last first), with the proof that the body runs
    to the continuation holding every input as it was, the output buffer untouched and the accumulator with those
    pieces written. -/
noncomputable def kernelRun0_A (c : Dev nD) (i : grid0.Coords) (arg2 : Memref sig .tc .vmem S1024x8192 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond0_0 i) (hc1 : ¬cond0_1 i)
    (x0 : Vec F S1024x8192 .bf16) (x1 : Vec F S512x2048 .f32) (x2 : Vec F S1x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__mlp1_kernel i arg2 harg2 arg3 harg3 arg4 harg4 arg5 harg5 arg6 harg6) K } := by
  refine ⟨[], ?_, fun xi3 E K => ?run⟩
  case run =>
    simp only [cc0__mlp1_kernel_eq_skeleton]; unfold cc0__mlp1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frm

end
-- ==== Proof.KMlp1Middle.lean ====
/-
  (The program as printed, before idealization: the same text in that program's namespace, at any value type.)
  The first kernel's body at a point with k = 1 or 2: the accumulator, at what the point before left, is
  overwritten with itself plus the product of the k-th slab; the output block is not touched.
-/
import proofs.«179280_j42734924595240_2_alg».proof.Proof.KMlp1First

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's one store leaves in the accumulator at k = 1, 2, with the proof that the body runs to the
    continuation holding every input as it was, the output buffer untouched and the accumulator with them written. -/
noncomputable def kernelRun0_B (c : Dev nD) (i : grid0.Coords) (arg2 : Memref sig .tc .vmem S1024x8192 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : ¬cond0_1 i)
    (x0 : Vec F S1024x8192 .bf16) (x1 : Vec F S512x2048 .f32) (x2 : Vec F S1x512 .f32) (xs0 : Vec F S1024x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__mlp1_kernel i arg2 harg2 arg3 harg3 arg4 harg4 arg5 harg5 arg6 harg6) K } := by
  refine ⟨[], ?_, fun xi3 E K => ?run⟩
  case run =>
    simp only [cc0__mlp1_kernel_eq_skeleton]; unfold cc0__mlp1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frm

end
-- ==== Proof.KMlp1Last.lean ====
/-
  (The program as printed, before idealization: the same text in that program's namespace, at any value type.)
  The first kernel's body at a point with k = 3: the accumulator is overwritten with itself plus the product of
  the last slab, and the output block, whatever it held, with GELU of the accumulator plus the bias row.
-/
import proofs.«179280_j42734924595240_2_alg».proof.Proof.KMlp1Middle

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the output block and in the accumulator at k = 3, with the proof that the
    body runs to the continuation holding every input as it was and both buffers with their pieces written. -/
noncomputable def kernelRun0_C (c : Dev nD) (i : grid0.Coords) (arg2 : Memref sig .tc .vmem S1024x8192 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i)
    (x0 : Vec F S1024x8192 .bf16) (x1 : Vec F S512x2048 .f32) (x2 : Vec F S1x512 .f32) (xs0 : Vec F S1024x512 .f32) :
    Σ' (L3 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__mlp1_kernel i arg2 harg2 arg3 harg3 arg4 harg4 arg5 harg5 arg6 harg6) K } := by
  refine ⟨?_, ?_, fun E K => ?run⟩
  case run =>
    simp only [cc0__mlp1_kernel_eq_skeleton]; unfold cc0__mlp1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Frm

end
-- ==== Proof.KMlp1Points.lean ====
/-
  (The program as printed, before idealization: the same text in that program's namespace, at any value type.)
  The first kernel point by point. The accumulator after point t = 4·n + k is, by recursion on t, what the case
  of k leaves in it: at k = 0 from anything, at k = 1, 2, 3 from what point t − 1 left. The output block after a
  point with k = 3 is what that case stores from the accumulator of point t − 1; at the other points the window
  is idle. With these as the pipeline's proof data, the body meets its obligation at every point, and the
  invariant (the accumulator at its named contents) is entered from and returned to the launch's.
-/
import proofs.«179280_j42734924595240_2_alg».proof.Proof.KMlp1Last

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, read back -/

theorem scover0_A (c : Dev nD) (i : grid0.Coords) (arg2 : Memref sig .tc .vmem S1024x8192 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond0_0 i) (hc1 : ¬cond0_1 i)
    (x0 : Vec F S1024x8192 .bf16) (x1 : Vec F S512x2048 .f32) (x2 : Vec F S1x512 .f32) (y : S1024x512.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1024x512.size (by sl_kernel_rfl) y
/-- The accumulator after a point with k = 0. -/
def sout0_A (c : Dev nD) (i : grid0.Coords) (arg2 : Memref sig .tc .vmem S1024x8192 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond0_0 i) (hc1 : ¬cond0_1 i)
    (x0 : Vec F S1024x8192 .bf16) (x1 : Vec F S512x2048 .f32) (x2 : Vec F S1x512 .f32) : Vec F S1024x512 .f32 :=
  VS0.read (Elt F) (VS0.writes (Elt F) VS0.junk (kernelRun0_A c i arg2 harg2 arg3 harg3 arg4 harg4 arg5 harg5 arg6 harg6 hc0 hc1 x0 x1 x2).2.1)

theorem scover0_B (c : Dev nD) (i : grid0.Coords) (arg2 : Memref sig .tc .vmem S1024x8192 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : ¬cond0_1 i)
    (x0 : Vec F S1024x8192 .bf16) (x1 : Vec F S512x2048 .f32) (x2 : Vec F S1x512 .f32) (xs0 : Vec F S1024x512 .f32) (y : S1024x512.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1024x512.size (by sl_kernel_rfl) y
/-- The accumulator after a point with k = 1, 2, from what the point before left. -/
def sout0_B (c : Dev nD) (i : grid0.Coords) (arg2 : Memref sig .tc .vmem S1024x8192 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : ¬cond0_1 i)
    (x0 : Vec F S1024x8192 .bf16) (x1 : Vec F S512x2048 .f32) (x2 : Vec F S1x512 .f32) (xs0 : Vec F S1024x512 .f32) : Vec F S1024x512 .f32 :=
  VS0.read (Elt F) (VS0.writes (Elt F) VS0.junk (kernelRun0_B c i arg2 harg2 arg3 harg3 arg4 harg4 arg5 harg5 arg6 harg6 hc0 hc1 x0 x1 x2 xs0).2.1)

theorem scover0_C (c : Dev nD) (i : grid0.Coords) (arg2 : Memref sig .tc .vmem S1024x8192 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i)
    (x0 : Vec F S1024x8192 .bf16) (x1 : Vec F S512x2048 .f32) (x2 : Vec F S1x512 .f32) (xs0 : Vec F S1024x512 .f32) (y : S1024x512.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1024x512.size (by sl_kernel_rfl) y
/-- The accumulator after a point with k = 3. -/
def sout0_C (c : Dev nD) (i : grid0.Coords) (arg2 : Memref sig .tc .vmem S1024x8192 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i)
    (x0 : Vec F S1024x8192 .bf16) (x1 : Vec F S512x2048 .f32) (x2 : Vec F S1x512 .f32) (xs0 : Vec F S1024x512 .f32) : Vec F S1024x512 .f32 :=
  VS0.read (Elt F) (VS0.writes (Elt F) VS0.junk (kernelRun0_C c i arg2 harg2 arg3 harg3 arg4 harg4 arg5 harg5 arg6 harg6 hc0 hc1 x0 x1 x2 xs0).2.1)
theorem cover0_C (c : Dev nD) (i : grid0.Coords) (arg2 : Memref sig .tc .vmem S1024x8192 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i)
    (x0 : Vec F S1024x8192 .bf16) (x1 : Vec F S512x2048 .f32) (x2 : Vec F S1x512 .f32) (xs0 : Vec F S1024x512 .f32) (y : S1024x512.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1024x512.size (by sl_kernel_rfl) y
/-- The output block after a point with k = 3. -/
def out0_C (c : Dev nD) (i : grid0.Coords) (arg2 : Memref sig .tc .vmem S1024x8192 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i)
    (x0 : Vec F S1024x8192 .bf16) (x1 : Vec F S512x2048 .f32) (x2 : Vec F S1x512 .f32) (xs0 : Vec F S1024x512 .f32) : Vec F S1024x512 .f32 :=
  VO0_3.read (Elt F) (VO0_3.writes (Elt F) VO0_3.junk (kernelRun0_C c i arg2 harg2 arg3 harg3 arg4 harg4 arg5 harg5 arg6 harg6 hc0 hc1 x0 x1 x2 xs0).1)

/-! ## Point by point -/

theorem not3_of_0 {n : ℕ} (h : n % 4 = 0) : ¬ n % 4 = 3 := by omega

/-- THE ACCUMULATOR after position `n`. -/
def accAt0 (c : Dev nD) : (n : ℕ) → n < cfg0.N → Vec F S1024x512 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => not3_of_0 (Nat.zero_mod 4) ((hcond0_1 ⟨0, hn⟩).mp h)) (iblk0 V c 0 ⟨0, hn⟩) (iblk0 V c 1 ⟨0, hn⟩) (iblk0 V c 2 ⟨0, hn⟩)
  | n + 1, hn =>
    if h0 : (n + 1) % 4 = 0 then
      sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => not3_of_0 h0 ((hcond0_1 ⟨n + 1, hn⟩).mp h)) (iblk0 V c 0 ⟨n + 1, hn⟩) (iblk0 V c 1 ⟨n + 1, hn⟩) (iblk0 V c 2 ⟨n + 1, hn⟩)
    else if h1 : (n + 1) % 4 = 3 then
      sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (accAt0 c n (Nat.lt_of_succ_lt hn))
    else
      sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (accAt0 c n (Nat.lt_of_succ_lt hn))

theorem accAt0_A (c : Dev nD) (t : Fin cfg0.N) (h0 : t.val % 4 = 0) :
    accAt0 V c t.val t.isLt = sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => not3_of_0 h0 ((hcond0_1 t).mp h)) (iblk0 V c 0 t) (iblk0 V c 1 t) (iblk0 V c 2 t) := by
  obtain ⟨n, hn⟩ := t
  cases n with
  | zero => exact rfl
  | succ n => exact (dif_pos h0).trans rfl

theorem accAt0_B (c : Dev nD) (t : Fin cfg0.N) (h0 : ¬t.val % 4 = 0) (h1 : ¬t.val % 4 = 3) :
    accAt0 V c t.val t.isLt = sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt0_C (c : Dev nD) (t : Fin cfg0.N) (h0 : ¬t.val % 4 = 0) (h1 : t.val % 4 = 3) :
    accAt0 V c t.val t.isLt = sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

theorem ne0_of_3 {n : ℕ} (h : n % 4 = 3) : ¬ n % 4 = 0 := by omega

/-- THE OUTPUT BLOCK after point `t`: at k = 3 what the case stores from the accumulator of the point before;
    elsewhere the window is idle and this value is never consulted. -/
def outAt0 (c : Dev nD) (t : Fin cfg0.N) : Vec F S1024x512 .f32 :=
  if h1 : t.val % 4 = 3 then
    out0_C c (grid0.coords t) (ms0_0 t) (hs0_0 t) (ms0_1 t) (hs0_1 t) (ms0_2 t) (hs0_2 t) (ms0_3 t) (hs0_3 t) scM0 (Memref.isWhole_whole _) (fun h => ne0_of_3 h1 ((hcond0_0 t).mp h)) ((hcond0_1 t).mpr h1) (iblk0 V c 0 t) (iblk0 V c 1 t) (iblk0 V c 2 t) (accAt0 V c (t.val - 1) (Nat.lt_of_le_of_lt (Nat.sub_le _ _) t.isLt))
  else VO0_3.read (Elt F) VO0_3.junk

theorem outAt0_C (c : Dev nD) (t : Fin cfg0.N) (h1 : t.val % 4 = 3) :
    outAt0 V c t = out0_C c (grid0.coords t) (ms0_0 t) (hs0_0 t) (ms0_1 t) (hs0_1 t) (ms0_2 t) (hs0_2 t) (ms0_3 t) (hs0_3 t) scM0 (Memref.isWhole_whole _) (fun h => ne0_of_3 h1 ((hcond0_0 t).mp h)) ((hcond0_1 t).mpr h1) (iblk0 V c 0 t) (iblk0 V c 1 t) (iblk0 V c 2 t) (accAt0 V c (t.val - 1) (Nat.lt_of_le_of_lt (Nat.sub_le _ _) t.isLt)) :=
  dif_pos h1

/-- The invariant before position `n`: before the first point what the launch hands over; afterwards the
    accumulator at what the point before left, the other scoped buffers and the generator register at anything. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (accAt0 V c n hn) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare (accAt0 V c (n - 1) (by omega)) ∗ others0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.Kernel.Frm

end
-- ==== Proof.KMlp1Body.lean ====
/-
  (The program as printed, before idealization: the same text in that program's namespace, at any value type.)
  The first kernel's body obligation: at every grid point, from the invariant and the windows' staging buffers at
  what the pipeline's schedule says they hold, the body runs and leaves the invariant of the next point and every
  window's buffer at the proof data's contents. A case split on k = t mod 4, each leaf one of the three runs.
-/
import proofs.«179280_j42734924595240_2_alg».proof.Proof.KMlp1Points

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 4 = 0
  · have h1 : ¬ t.val % 4 = 3 := not3_of_0 h0
    rw [Dat.leavesExact_idle (dat0 V c) 3 t (idleAt0_3 t (fun h => h1 ((hcond0_1 t).mp h))) (noFlush0_3 t (fun h => h1 ((hcond0_1 t).mp h)))]
    rw [accAt0_A V c t h0]
    unfold sout0_A; (try dsimp only)
    by_cases hz : t.val = 0
    · rw [PhiS0_castSucc V c t, PhiS0_zero V c _ _ hz, PhiA0_eq]
      iintro ⟨⟨⟨HS0, Hot⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => not3_of_0 h0 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hot]
      · isplitl [HS0 Hot]
        · isplitl [HS0]
          · unfold owns; iexists _; isplitr
            swap; · iexact HS0
            ipureintro; exact View.read_writes_of_cover _ _ _ _ _ (scover0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => not3_of_0 h0 ((hcond0_1 t).mp h)) (iblk0 V c 0 t) (iblk0 V c 1 t) (iblk0 V c 2 t))
          iexact Hot
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hot⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => not3_of_0 h0 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg Hot]
      · isplitl [HS0 Hot]
        · isplitl [HS0]
          · unfold owns; iexists _; isplitr
            swap; · iexact HS0
            ipureintro; exact View.read_writes_of_cover _ _ _ _ _ (scover0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => not3_of_0 h0 ((hcond0_1 t).mp h)) (iblk0 V c 0 t) (iblk0 V c 1 t) (iblk0 V c 2 t))
          iexact Hot
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat0 V c).leavesExact 3 t = owns (c : Thread nD τ) (ms0_3 t) fullShare ((dat0 V c).after 3 t) from by
        unfold Dat.leavesExact; rw [liveAt0_3 t ((hcond0_1 t).mpr h1)], after0_3]
      rw [accAt0_C V c t h0 h1, outAt0_C V c t h1]
      unfold out0_C sout0_C; (try dsimp only)
      rw [PhiS0_castSucc V c t, PhiS0_pos V c _ _ hz]
      iintro ⟨⟨⟨HS0, Hot⟩, Hg⟩, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (accAt0 V c (t.val - 1) (Nat.lt_of_le_of_lt (Nat.sub_le _ _) t.isLt))).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg Hot]
      · isplitl [HS0 Hot]
        · isplitl [HS0]
          · unfold owns; iexists _; isplitr
            swap; · iexact HS0
            ipureintro; exact View.read_writes_of_cover _ _ _ _ _ (scover0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) _)
          iexact Hot
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) _)
    · rw [Dat.leavesExact_idle (dat0 V c) 3 t (idleAt0_3 t (fun h => h1 ((hcond0_1 t).mp h))) (noFlush0_3 t (fun h => h1 ((hcond0_1 t).mp h)))]
      rw [accAt0_B V c t h0 h1]
      unfold sout0_B; (try dsimp only)
      rw [PhiS0_castSucc V c t, PhiS0_pos V c _ _ hz]
      iintro ⟨⟨⟨HS0, Hot⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (accAt0 V c (t.val - 1) (Nat.lt_of_le_of_lt (Nat.sub_le _ _) t.isLt))).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hot]
      · isplitl [HS0 Hot]
        · isplitl [HS0]
          · unfold owns; iexists _; isplitr
            swap; · iexact HS0
            ipureintro; exact View.read_writes_of_cover _ _ _ _ _ (scover0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) _)
          iexact Hot
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS0, Hot⟩, Hg⟩
  isplitl [HS0 Hot]
  · isplitl [HS0]
    · iexists _; iexact HS0
    iexact Hot
  iexact Hg

end Cert.Kernel.Frm

end
-- ==== Proof.KMlp2Cases.lean ====
/-
  (The program as printed, before idealization: the same text in that program's namespace, at any value type.)
  The second kernel (the output layer) as the pipeline runs it: an 8 × 4 grid, point t = 4·n + k. At k = 0 the
  body zeroes its accumulator, at every k it adds the product of the (·, k) block of the hidden layer with the
  (n, k) tile of the weights, and at k = 3 it adds the bias row and stores the output block. This module fixes
  what the three cases share: the blocks of the windows, the two branch conditions decided over the grid, where
  the output window is idle, and the invariant's shape.
-/
import proofs.«179280_j42734924595240_2_alg».proof.Proof.Gen.Kernel.Launch
import proofs.«179280_j42734924595240_2_alg».proof.Proof.Gen.Kernel.Skeleton
import proofs.«179280_j42734924595240_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the TensorCore's buffers when the region is entered: a parameter
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or not:
    the body leaves the block in place and the index does not move between two fetches. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, decided over the grid -/

/-- "k = 0", as the body computes it from the second grid coordinate. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "k = 3". -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Before k = 3 the body stores nothing into the output block and the pipeline does not write it back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S1024x512 .f32 := (Memref.whole cc1_stg3_0 : Memref sig .tc .vmem S1024x512 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .f32 := win1_3.stage (cfg1.slots t 3)
abbrev hs1_3 (t : Fin cfg1.N) : (ms1_3 t).IsWhole := hstage1_3 ((cfg1.slots t 3).cast nbuf1_3)
/-- The accumulator: a scratch buffer of the kernel's own, carried from point to point. -/
abbrev scM1 : Memref sig .tc .vmem S1024x512 .f32 := Memref.whole cc1_scratch0
abbrev VS1 : View sig .tc .vmem S1024x512 .f32 := scM1.view

/-- The other scoped buffers that are no staging buffer of this call (the first call's), each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

theorem PhiA1_open (c : Dev nD) : (Pipeline.ΦA spec1 c : sProp 𝕄) ⊢ iprop(iprop((∃ d, owns (c : Thread nD τ) scM1 fullShare d) ∗ others1 c) ∗ (∃ r, prngReg c r)) := by
  unfold Pipeline.ΦA others1; rw [scopedRest1_eq]; simp only [scM1, owns_whole]
  iintro ⟨⟨B1, B2, B3, B4, B5, B6, B7, B8, HS⟩, Hg⟩
  isplitl [B1 B2 B3 B4 B5 B6 B7 B8 HS]
  · isplitl [HS]; · iexact HS
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  iexact Hg
theorem PhiA1_close (c : Dev nD) : iprop(iprop((∃ d, owns (c : Thread nD τ) scM1 fullShare d) ∗ others1 c) ∗ (∃ r, prngReg c r)) ⊢ (Pipeline.ΦA spec1 c : sProp 𝕄) := by
  unfold Pipeline.ΦA others1; rw [scopedRest1_eq]; simp only [scM1, owns_whole]
  iintro ⟨⟨HS, B1, B2, B3, B4, B5, B6, B7, B8⟩, Hg⟩
  isplitl [B1 B2 B3 B4 B5 B6 B7 B8 HS]
  · isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact HS
  iexact Hg
/-- What the launch hands the body besides the windows: the accumulator at some contents, the other scoped
    buffers, the generator register at some state (the same resources in another order). -/
theorem PhiA1_eq (c : Dev nD) :
    (Pipeline.ΦA spec1 c : sProp 𝕄) = iprop(iprop((∃ d, owns (c : Thread nD τ) scM1 fullShare d) ∗ others1 c) ∗ (∃ r, prngReg c r)) :=
  BI.equiv_iff.mp ⟨PhiA1_open c, PhiA1_close c⟩

end Cert.Kernel.Frm

end
-- ==== Proof.KMlp2First.lean ====
/-
  (The program as printed, before idealization: the same text in that program's namespace, at any value type.)
  The second kernel's body at a point with k = 0: the accumulator, whatever it held, is overwritten with zeros
  and then with zeros plus the product of the first block; the output block is not touched. Stated on any whole
  staging memrefs: the three input blocks at their contents, the output buffer handed back as found, the
  accumulator left with the pieces the run's two stores wrote.
-/
import proofs.«179280_j42734924595240_2_alg».proof.Proof.KMlp2Cases

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the accumulator at k = 0 (last first), with the proof that the body runs
    to the continuation holding every input as it was, the output buffer untouched and the accumulator with those
    pieces written. -/
noncomputable def kernelRun1_A (c : Dev nD) (i : grid1.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond1_0 i) (hc1 : ¬cond1_1 i)
    (x0 : Vec F S1024x2048 .f32) (x1 : Vec F S512x2048 .f32) (x2 : Vec F S1x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__mlp2_kernel i arg2 harg2 arg3 harg3 arg4 harg4 arg5 harg5 arg6 harg6) K } := by
  refine ⟨[], ?_, fun xi3 E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frm

end
-- ==== Proof.KMlp2Middle.lean ====
/-
  (The program as printed, before idealization: the same text in that program's namespace, at any value type.)
  The second kernel's body at a point with k = 1 or 2: the accumulator, at what the point before left, is
  overwritten with itself plus the product of the k-th block; the output block is not touched.
-/
import proofs.«179280_j42734924595240_2_alg».proof.Proof.KMlp2First

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's one store leaves in the accumulator at k = 1, 2, with the proof that the body runs to the
    continuation holding every input as it was, the output buffer untouched and the accumulator with them written. -/
noncomputable def kernelRun1_B (c : Dev nD) (i : grid1.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : ¬cond1_1 i)
    (x0 : Vec F S1024x2048 .f32) (x1 : Vec F S512x2048 .f32) (x2 : Vec F S1x512 .f32) (xs0 : Vec F S1024x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__mlp2_kernel i arg2 harg2 arg3 harg3 arg4 harg4 arg5 harg5 arg6 harg6) K } := by
  refine ⟨[], ?_, fun xi3 E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frm

end
-- ==== Proof.KMlp2Last.lean ====
/-
  (The program as printed, before idealization: the same text in that program's namespace, at any value type.)
  The second kernel's body at a point with k = 3: the accumulator is overwritten with itself plus the product of
  the last block, and the output block, whatever it held, with the accumulator plus the bias row.
-/
import proofs.«179280_j42734924595240_2_alg».proof.Proof.KMlp2Middle

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the output block and in the accumulator at k = 3, with the proof that the
    body runs to the continuation holding every input as it was and both buffers with their pieces written. -/
noncomputable def kernelRun1_C (c : Dev nD) (i : grid1.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : cond1_1 i)
    (x0 : Vec F S1024x2048 .f32) (x1 : Vec F S512x2048 .f32) (x2 : Vec F S1x512 .f32) (xs0 : Vec F S1024x512 .f32) :
    Σ' (L3 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__mlp2_kernel i arg2 harg2 arg3 harg3 arg4 harg4 arg5 harg5 arg6 harg6) K } := by
  refine ⟨?_, ?_, fun E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Frm

end
-- ==== Proof.KMlp2Points.lean ====
/-
  (The program as printed, before idealization: the same text in that program's namespace, at any value type.)
  The second kernel point by point. The accumulator after point t = 4·n + k is, by recursion on t, what the case
  of k leaves in it: at k = 0 from anything, at k = 1, 2, 3 from what point t − 1 left. The output block after a
  point with k = 3 is what that case stores from the accumulator of point t − 1; at the other points the window
  is idle. With these as the pipeline's proof data, the body meets its obligation at every point, and the
  invariant (the accumulator at its named contents) is entered from and returned to the launch's.
-/
import proofs.«179280_j42734924595240_2_alg».proof.Proof.KMlp2Last

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, read back -/

theorem scover1_A (c : Dev nD) (i : grid1.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond1_0 i) (hc1 : ¬cond1_1 i)
    (x0 : Vec F S1024x2048 .f32) (x1 : Vec F S512x2048 .f32) (x2 : Vec F S1x512 .f32) (y : S1024x512.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x512.size (by sl_kernel_rfl) y
/-- The accumulator after a point with k = 0. -/
def sout1_A (c : Dev nD) (i : grid1.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond1_0 i) (hc1 : ¬cond1_1 i)
    (x0 : Vec F S1024x2048 .f32) (x1 : Vec F S512x2048 .f32) (x2 : Vec F S1x512 .f32) : Vec F S1024x512 .f32 :=
  VS1.read (Elt F) (VS1.writes (Elt F) VS1.junk (kernelRun1_A c i arg2 harg2 arg3 harg3 arg4 harg4 arg5 harg5 arg6 harg6 hc0 hc1 x0 x1 x2).2.1)

theorem scover1_B (c : Dev nD) (i : grid1.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : ¬cond1_1 i)
    (x0 : Vec F S1024x2048 .f32) (x1 : Vec F S512x2048 .f32) (x2 : Vec F S1x512 .f32) (xs0 : Vec F S1024x512 .f32) (y : S1024x512.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x512.size (by sl_kernel_rfl) y
/-- The accumulator after a point with k = 1, 2, from what the point before left. -/
def sout1_B (c : Dev nD) (i : grid1.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : ¬cond1_1 i)
    (x0 : Vec F S1024x2048 .f32) (x1 : Vec F S512x2048 .f32) (x2 : Vec F S1x512 .f32) (xs0 : Vec F S1024x512 .f32) : Vec F S1024x512 .f32 :=
  VS1.read (Elt F) (VS1.writes (Elt F) VS1.junk (kernelRun1_B c i arg2 harg2 arg3 harg3 arg4 harg4 arg5 harg5 arg6 harg6 hc0 hc1 x0 x1 x2 xs0).2.1)

theorem scover1_C (c : Dev nD) (i : grid1.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : cond1_1 i)
    (x0 : Vec F S1024x2048 .f32) (x1 : Vec F S512x2048 .f32) (x2 : Vec F S1x512 .f32) (xs0 : Vec F S1024x512 .f32) (y : S1024x512.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x512.size (by sl_kernel_rfl) y
/-- The accumulator after a point with k = 3. -/
def sout1_C (c : Dev nD) (i : grid1.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : cond1_1 i)
    (x0 : Vec F S1024x2048 .f32) (x1 : Vec F S512x2048 .f32) (x2 : Vec F S1x512 .f32) (xs0 : Vec F S1024x512 .f32) : Vec F S1024x512 .f32 :=
  VS1.read (Elt F) (VS1.writes (Elt F) VS1.junk (kernelRun1_C c i arg2 harg2 arg3 harg3 arg4 harg4 arg5 harg5 arg6 harg6 hc0 hc1 x0 x1 x2 xs0).2.1)
theorem cover1_C (c : Dev nD) (i : grid1.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : cond1_1 i)
    (x0 : Vec F S1024x2048 .f32) (x1 : Vec F S512x2048 .f32) (x2 : Vec F S1x512 .f32) (xs0 : Vec F S1024x512 .f32) (y : S1024x512.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x512.size (by sl_kernel_rfl) y
/-- The output block after a point with k = 3. -/
def out1_C (c : Dev nD) (i : grid1.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : cond1_1 i)
    (x0 : Vec F S1024x2048 .f32) (x1 : Vec F S512x2048 .f32) (x2 : Vec F S1x512 .f32) (xs0 : Vec F S1024x512 .f32) : Vec F S1024x512 .f32 :=
  VO1_3.read (Elt F) (VO1_3.writes (Elt F) VO1_3.junk (kernelRun1_C c i arg2 harg2 arg3 harg3 arg4 harg4 arg5 harg5 arg6 harg6 hc0 hc1 x0 x1 x2 xs0).1)

/-! ## Point by point -/

theorem not3_of_0' {n : ℕ} (h : n % 4 = 0) : ¬ n % 4 = 3 := by omega

/-- THE ACCUMULATOR after position `n`. -/
def accAt1 (c : Dev nD) : (n : ℕ) → n < cfg1.N → Vec F S1024x512 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => not3_of_0' (Nat.zero_mod 4) ((hcond1_1 ⟨0, hn⟩).mp h)) (iblk1 V c 0 ⟨0, hn⟩) (iblk1 V c 1 ⟨0, hn⟩) (iblk1 V c 2 ⟨0, hn⟩)
  | n + 1, hn =>
    if h0 : (n + 1) % 4 = 0 then
      sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => not3_of_0' h0 ((hcond1_1 ⟨n + 1, hn⟩).mp h)) (iblk1 V c 0 ⟨n + 1, hn⟩) (iblk1 V c 1 ⟨n + 1, hn⟩) (iblk1 V c 2 ⟨n + 1, hn⟩)
    else if h1 : (n + 1) % 4 = 3 then
      sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (accAt1 c n (Nat.lt_of_succ_lt hn))
    else
      sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (accAt1 c n (Nat.lt_of_succ_lt hn))

theorem accAt1_A (c : Dev nD) (t : Fin cfg1.N) (h0 : t.val % 4 = 0) :
    accAt1 V c t.val t.isLt = sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => not3_of_0' h0 ((hcond1_1 t).mp h)) (iblk1 V c 0 t) (iblk1 V c 1 t) (iblk1 V c 2 t) := by
  obtain ⟨n, hn⟩ := t
  cases n with
  | zero => exact rfl
  | succ n => exact (dif_pos h0).trans rfl

theorem accAt1_B (c : Dev nD) (t : Fin cfg1.N) (h0 : ¬t.val % 4 = 0) (h1 : ¬t.val % 4 = 3) :
    accAt1 V c t.val t.isLt = sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt1_C (c : Dev nD) (t : Fin cfg1.N) (h0 : ¬t.val % 4 = 0) (h1 : t.val % 4 = 3) :
    accAt1 V c t.val t.isLt = sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

theorem ne0_of_3' {n : ℕ} (h : n % 4 = 3) : ¬ n % 4 = 0 := by omega

/-- THE OUTPUT BLOCK after point `t`: at k = 3 what the case stores from the accumulator of the point before;
    elsewhere the window is idle and this value is never consulted. -/
def outAt1 (c : Dev nD) (t : Fin cfg1.N) : Vec F S1024x512 .f32 :=
  if h1 : t.val % 4 = 3 then
    out1_C c (grid1.coords t) (ms1_0 t) (hs1_0 t) (ms1_1 t) (hs1_1 t) (ms1_2 t) (hs1_2 t) (ms1_3 t) (hs1_3 t) scM1 (Memref.isWhole_whole _) (fun h => ne0_of_3' h1 ((hcond1_0 t).mp h)) ((hcond1_1 t).mpr h1) (iblk1 V c 0 t) (iblk1 V c 1 t) (iblk1 V c 2 t) (accAt1 V c (t.val - 1) (Nat.lt_of_le_of_lt (Nat.sub_le _ _) t.isLt))
  else VO1_3.read (Elt F) VO1_3.junk

theorem outAt1_C (c : Dev nD) (t : Fin cfg1.N) (h1 : t.val % 4 = 3) :
    outAt1 V c t = out1_C c (grid1.coords t) (ms1_0 t) (hs1_0 t) (ms1_1 t) (hs1_1 t) (ms1_2 t) (hs1_2 t) (ms1_3 t) (hs1_3 t) scM1 (Memref.isWhole_whole _) (fun h => ne0_of_3' h1 ((hcond1_0 t).mp h)) ((hcond1_1 t).mpr h1) (iblk1 V c 0 t) (iblk1 V c 1 t) (iblk1 V c 2 t) (accAt1 V c (t.val - 1) (Nat.lt_of_le_of_lt (Nat.sub_le _ _) t.isLt)) :=
  dif_pos h1

/-- The invariant before position `n`: before the first point what the launch hands over; afterwards the
    accumulator at what the point before left, the other scoped buffers and the generator register at anything. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (accAt1 V c n hn) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare (accAt1 V c (n - 1) (by omega)) ∗ others1 c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.Kernel.Frm

end
-- ==== Proof.KMlp2Body.lean ====
/-
  (The program as printed, before idealization: the same text in that program's namespace, at any value type.)
  The second kernel's body obligation: at every grid point, from the invariant and the windows' staging buffers at
  what the pipeline's schedule says they hold, the body runs and leaves the invariant of the next point and every
  window's buffer at the proof data's contents. A case split on k = t mod 4, each leaf one of the three runs.
-/
import proofs.«179280_j42734924595240_2_alg».proof.Proof.KMlp2Points

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have h1 : ¬ t.val % 4 = 3 := not3_of_0' h0
    rw [Dat.leavesExact_idle (dat1 V c) 3 t (idleAt1_3 t (fun h => h1 ((hcond1_1 t).mp h))) (noFlush1_3 t (fun h => h1 ((hcond1_1 t).mp h)))]
    rw [accAt1_A V c t h0]
    unfold sout1_A; (try dsimp only)
    by_cases hz : t.val = 0
    · rw [PhiS1_castSucc V c t, PhiS1_zero V c _ _ hz, PhiA1_eq]
      iintro ⟨⟨⟨HS0, Hot⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => not3_of_0' h0 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hot]
      · isplitl [HS0 Hot]
        · isplitl [HS0]
          · unfold owns; iexists _; isplitr
            swap; · iexact HS0
            ipureintro; exact View.read_writes_of_cover _ _ _ _ _ (scover1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => not3_of_0' h0 ((hcond1_1 t).mp h)) (iblk1 V c 0 t) (iblk1 V c 1 t) (iblk1 V c 2 t))
          iexact Hot
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hot⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => not3_of_0' h0 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg Hot]
      · isplitl [HS0 Hot]
        · isplitl [HS0]
          · unfold owns; iexists _; isplitr
            swap; · iexact HS0
            ipureintro; exact View.read_writes_of_cover _ _ _ _ _ (scover1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => not3_of_0' h0 ((hcond1_1 t).mp h)) (iblk1 V c 0 t) (iblk1 V c 1 t) (iblk1 V c 2 t))
          iexact Hot
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [accAt1_C V c t h0 h1, outAt1_C V c t h1]
      unfold out1_C sout1_C; (try dsimp only)
      rw [PhiS1_castSucc V c t, PhiS1_pos V c _ _ hz]
      iintro ⟨⟨⟨HS0, Hot⟩, Hg⟩, Ho, ⟨%d0, H0⟩, ⟨%d1, H1⟩, ⟨%d2, H2⟩, ⟨%d3, H3⟩⟩
      iapply ((kernelRun1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (accAt1 V c (t.val - 1) (Nat.lt_of_le_of_lt (Nat.sub_le _ _) t.isLt))).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg Hot]
      · isplitl [HS0 Hot]
        · isplitl [HS0]
          · unfold owns; iexists _; isplitr
            swap; · iexact HS0
            ipureintro; exact View.read_writes_of_cover _ _ _ _ _ (scover1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) _)
          iexact Hot
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) _)
    · rw [Dat.leavesExact_idle (dat1 V c) 3 t (idleAt1_3 t (fun h => h1 ((hcond1_1 t).mp h))) (noFlush1_3 t (fun h => h1 ((hcond1_1 t).mp h)))]
      rw [accAt1_B V c t h0 h1]
      unfold sout1_B; (try dsimp only)
      rw [PhiS1_castSucc V c t, PhiS1_pos V c _ _ hz]
      iintro ⟨⟨⟨HS0, Hot⟩, Hg⟩, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (accAt1 V c (t.val - 1) (Nat.lt_of_le_of_lt (Nat.sub_le _ _) t.isLt))).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hot]
      · isplitl [HS0 Hot]
        · isplitl [HS0]
          · unfold owns; iexists _; isplitr
            swap; · iexact HS0
            ipureintro; exact View.read_writes_of_cover _ _ _ _ _ (scover1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) _)
          iexact Hot
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HS0, Hot⟩, Hg⟩
  isplitl [HS0 Hot]
  · isplitl [HS0]
    · iexists _; iexact HS0
    iexact Hot
  iexact Hg

end Cert.Kernel.Frm

end
-- ==== Proof.KTwoCalls.lean ====
/-
  (The program as printed, before idealization: the same text in that program's namespace, at any value type.)
  The whole program as the library's list of segments: five stretches of host operations (the embedding lookup and
  the causal windowing), the two kernel calls, one closing reshape. The buffers' contents at each boundary are a
  fold from the launch memory: a host stretch applies its operations, a call leaves its arrays at what its
  write-backs leave and everything else as entered. Every weakly fair execution terminates with every unscoped
  buffer at the last boundary's contents; the arguments are read back through the fold to the launch memory.
-/
import proofs.«179280_j42734924595240_2_alg».proof.Proof.KMlp1Body
import proofs.«179280_j42734924595240_2_alg».proof.Proof.KMlp2Body
import proofs.«179280_j42734924595240_2_alg».proof.Proof.Gen.Kernel.Regions
import Idealize.ShloMosaic.Lib.Pipeline.RegionsLoop
import Idealize.ShloMosaic.Lib.Pipeline.FrameSuffix

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the calls' boundaries -/

/-- When the first call is entered: the launch memory after the five host stretches. -/
abbrev W5 : Dev nD → Valuation τ sig (Elt F) := fun c => V5 m c
abbrev E5 : (c : Dev nD) → (b : Ref sig .tc) → Buf (Elt F) ((c : Thread nD τ).loc b) := fun c b => W5 m c b
/-- When the first call is left. -/
def W6 (c : Dev nD) : Valuation τ sig (Elt F) :=
  Pipeline.withArrays spec0 c (W5 m c) fun w => (dat0 (E5 m) c).arrAt w cfg0.N
theorem W6_arr (c : Dev nD) (w : Fin cfg0.W) :
    W6 m c (Proc.devRef .tc (Pipeline.arrRef spec0 w)) = (dat0 (E5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
abbrev E6 : (c : Dev nD) → (b : Ref sig .tc) → Buf (Elt F) ((c : Thread nD τ).loc b) := fun c b => W6 m c b
theorem hF0 (c : Dev nD) (w : Fin cfg0.W) : (dat0 (E5 m) c).arrAt w cfg0.N = E6 m c (Pipeline.arrRef spec0 w) :=
  (W6_arr m c w).symm
theorem hrest0 (c : Dev nD) : ∀ b, b ∉ Finset.univ.image (Pipeline.arrRef spec0) → E6 m c b = E5 m c b :=
  fun b hb => W6_of_ne m c b fun w e => hb (Finset.mem_image.mpr ⟨w, Finset.mem_univ _, e⟩)

/-- When the second call is left (it is entered from `W6`: no host operation stands between the calls). -/
def W7 (c : Dev nD) : Valuation τ sig (Elt F) :=
  Pipeline.withArrays spec1 c (W6 m c) fun w => (dat1 (E6 m) c).arrAt w cfg1.N
theorem W7_arr (c : Dev nD) (w : Fin cfg1.W) :
    W7 m c (Proc.devRef .tc (Pipeline.arrRef spec1 w)) = (dat1 (E6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev E7 : (c : Dev nD) → (b : Ref sig .tc) → Buf (Elt F) ((c : Thread nD τ).loc b) := fun c b => W7 m c b
theorem hF1 (c : Dev nD) (w : Fin cfg1.W) : (dat1 (E6 m) c).arrAt w cfg1.N = E7 m c (Pipeline.arrRef spec1 w) :=
  (W7_arr m c w).symm
theorem hrest1 (c : Dev nD) : ∀ b, b ∉ Finset.univ.image (Pipeline.arrRef spec1) → E7 m c b = E6 m c b :=
  fun b hb => W7_of_ne m c b fun w e => hb (Finset.mem_image.mpr ⟨w, Finset.mem_univ _, e⟩)

/-- At the return: after the closing reshape. -/
abbrev W8 : Dev nD → Valuation τ sig (Elt F) := fun c => StableHlo.after hostOps2 (W7 m c)

/-- `main_arg0` ends as launched: no host operation writes it and no call changes it. -/
theorem W8_main_arg0 (c : Dev nD) : W8 m c main_arg0 = m ((c : Thread nD τ).loc main_arg0) :=
  (StableHlo.after_of_writes_sub hostOps2 (W7 m c) hostOps2_writes (by decide : main_arg0 ∉ hostOps2_W)).trans <|
    (W7_of_ne m c main_arg0 (by decide)).trans <| (W6_of_ne m c main_arg0 (by decide)).trans <|
    (V5_of m c main_arg0 (by decide)).trans <| (V4_of m c main_arg0 (by decide)).trans <| (V3_of m c main_arg0 (by decide)).trans <| (V2_of m c main_arg0 (by decide)).trans <| (V1_of m c main_arg0 (by decide)).trans rfl
/-- `main_arg1` ends as launched: no host operation writes it and no call changes it. -/
theorem W8_main_arg1 (c : Dev nD) : W8 m c main_arg1 = m ((c : Thread nD τ).loc main_arg1) :=
  (StableHlo.after_of_writes_sub hostOps2 (W7 m c) hostOps2_writes (by decide : main_arg1 ∉ hostOps2_W)).trans <|
    (W7_of_ne m c main_arg1 (by decide)).trans <| (W6_of_ne m c main_arg1 (by decide)).trans <|
    (V5_of m c main_arg1 (by decide)).trans <| (V4_of m c main_arg1 (by decide)).trans <| (V3_of m c main_arg1 (by decide)).trans <| (V2_of m c main_arg1 (by decide)).trans <| (V1_of m c main_arg1 (by decide)).trans rfl
/-- `main_arg2` ends as launched: no host operation writes it and no call changes it. -/
theorem W8_main_arg2 (c : Dev nD) : W8 m c main_arg2 = m ((c : Thread nD τ).loc main_arg2) :=
  (StableHlo.after_of_writes_sub hostOps2 (W7 m c) hostOps2_writes (by decide : main_arg2 ∉ hostOps2_W)).trans <|
    (W7_of_ne m c main_arg2 (by decide)).trans <| ((W6_arr m c 1).trans (((dat0 (E5 m) c).arrAt_in 1 rfl _).trans (A_eq0 (E5 m) c 1))).trans <|
    (V5_of m c main_arg2 (by decide)).trans <| (V4_of m c main_arg2 (by decide)).trans <| (V3_of m c main_arg2 (by decide)).trans <| (V2_of m c main_arg2 (by decide)).trans <| (V1_of m c main_arg2 (by decide)).trans rfl
/-- `main_arg3` ends as launched: no host operation writes it and no call changes it. -/
theorem W8_main_arg3 (c : Dev nD) : W8 m c main_arg3 = m ((c : Thread nD τ).loc main_arg3) :=
  (StableHlo.after_of_writes_sub hostOps2 (W7 m c) hostOps2_writes (by decide : main_arg3 ∉ hostOps2_W)).trans <|
    (W7_of_ne m c main_arg3 (by decide)).trans <| (W6_of_ne m c main_arg3 (by decide)).trans <|
    (V5_of m c main_arg3 (by decide)).trans <| (V4_of m c main_arg3 (by decide)).trans <| (V3_of m c main_arg3 (by decide)).trans <| (V2_of m c main_arg3 (by decide)).trans <| (V1_of m c main_arg3 (by decide)).trans rfl
/-- `main_arg4` ends as launched: no host operation writes it and no call changes it. -/
theorem W8_main_arg4 (c : Dev nD) : W8 m c main_arg4 = m ((c : Thread nD τ).loc main_arg4) :=
  (StableHlo.after_of_writes_sub hostOps2 (W7 m c) hostOps2_writes (by decide : main_arg4 ∉ hostOps2_W)).trans <|
    ((W7_arr m c 1).trans (((dat1 (E6 m) c).arrAt_in 1 rfl _).trans (A_eq1 (E6 m) c 1))).trans <| (W6_of_ne m c main_arg4 (by decide)).trans <|
    (V5_of m c main_arg4 (by decide)).trans <| (V4_of m c main_arg4 (by decide)).trans <| (V3_of m c main_arg4 (by decide)).trans <| (V2_of m c main_arg4 (by decide)).trans <| (V1_of m c main_arg4 (by decide)).trans rfl
/-- `main_arg5` ends as launched: no host operation writes it and no call changes it. -/
theorem W8_main_arg5 (c : Dev nD) : W8 m c main_arg5 = m ((c : Thread nD τ).loc main_arg5) :=
  (StableHlo.after_of_writes_sub hostOps2 (W7 m c) hostOps2_writes (by decide : main_arg5 ∉ hostOps2_W)).trans <|
    (W7_of_ne m c main_arg5 (by decide)).trans <| (W6_of_ne m c main_arg5 (by decide)).trans <|
    (V5_of m c main_arg5 (by decide)).trans <| (V4_of m c main_arg5 (by decide)).trans <| (V3_of m c main_arg5 (by decide)).trans <| (V2_of m c main_arg5 (by decide)).trans <| (V1_of m c main_arg5 (by decide)).trans rfl

/-- After the last point of the first call the invariant returns the generator register and the scoped buffers. -/
theorem PhiLast0 (V : (c : Dev nD) → (b : Ref sig .tc) → Buf (Elt F) ((c : Thread nD τ).loc b)) (c : Dev nD) :
    (dat0 V c).Φ (Fin.last cfg0.N) ⊢ iprop((∃ r, prngReg c r) ∗ (BI.emp : sProp 𝕄) ∗ Pipeline.scopedRest (Ix := Unit) (Name := ℕ) (U := UR sig nD τ) (Lvl := ℕ) (Val := Elt F) spec0 c) := by
  have h := hout0 V c
  unfold Pipeline.ΦA at h
  iintro H
  ihave H' := h $$ H
  icases H' with ⟨Hr, Hp⟩
  isplitl [Hp]; · iexact Hp
  isplitr; · iempintro
  iexact Hr
/-- After the last point of the second call the invariant returns the generator register and the scoped buffers. -/
theorem PhiLast1 (V : (c : Dev nD) → (b : Ref sig .tc) → Buf (Elt F) ((c : Thread nD τ).loc b)) (c : Dev nD) :
    (dat1 V c).Φ (Fin.last cfg1.N) ⊢ iprop((∃ r, prngReg c r) ∗ (BI.emp : sProp 𝕄) ∗ Pipeline.scopedRest (Ix := Unit) (Name := ℕ) (U := UR sig nD τ) (Lvl := ℕ) (Val := Elt F) spec1 c) := by
  have h := hout1 V c
  unfold Pipeline.ΦA at h
  iintro H
  ihave H' := h $$ H
  icases H' with ⟨Hr, Hp⟩
  isplitl [Hp]; · iexact Hp
  isplitr; · iempintro
  iexact Hr

/-! ## The proof data family and what rides beside the buffers -/

abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (cfgs p) c
  | ⟨0, _⟩ => fun c => dat0 (E5 m) c
  | ⟨1, _⟩ => fun c => dat1 (E6 m) c
abbrev 𝒱₀ : Variants := Variants.none
abbrev L : GSem nD τ sig → Finset Unit := fun _ => ∅
abbrev lv : GSem nD τ sig → Unit → ℕ := fun _ _ => 0
/-- The core's generator register at some state and its dues, at nothing. -/
abbrev R (c : Dev nD) : sProp 𝕄 := iprop((∃ r, prngReg c r) ∗ ∃ W, owes (c : Thread nD τ) (0 : CellTallies nD τ sig Unit) W)
abbrev Rs : Fin 3 → Dev nD → sProp 𝕄 := fun _ => R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m c) ∗ ∃ r, prngReg c r)

set_option backward.isDefEq.respectTransparency.types false in
/-- The first call as a segment: entered from every unscoped buffer at `W5`, left at `W6`. Its arrays are split
    out of the unscoped buffers and put back at the contents the write-backs leave; the generator register and the
    scoped buffers go into the invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E5 m) c).loose
  hwaits := Pipeline.hwaits_of_owed_zero _ _ _ _ L lv 0 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]; exact PhiLast0 (E5 m) c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E5 m c) (E6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call as a segment: entered from every unscoped buffer at `W6`, left at `W7`. Its arrays are split
    out of the unscoped buffers and put back at the contents the write-backs leave; the generator register and the
    scoped buffers go into the invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (E6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]; exact PhiLast1 (E6 m) c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E6 m c) (E7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The closing reshape as a segment, from the contents the second call leaves. -/
def segLast : Pipeline.HostSeg (Ix := Unit) (Name := ℕ) (U := UR sig nD τ) (Lvl := ℕ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W7 m) R

theorem last_chain (c : Dev nD) :
    iprop(StableHlo.held (c : Thread nD τ) (Pipeline.ucRefs τ sig) (StableHlo.after hostOps2 (W7 m c)) ∗ R (F := F) c)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

/-- The program's eight segments in order. -/
abbrev segs (c : Dev nD) : List (Pipeline.Seg (pcfgs (F := F)) adm (pdats m) () defs₀ 𝒱₀ L lv) :=
  [.host (seg0 m 𝒱₀ L lv Rs), .host (seg1 m 𝒱₀ L lv Rs), .host (seg2 m 𝒱₀ L lv Rs), .host (seg3 m 𝒱₀ L lv Rs), .host (seg4 m 𝒱₀ L lv Rs),
    .region (reg0 m), .region (reg1 m), .host (segLast m)]

set_option backward.isDefEq.respectTransparency.types false in
/-- THE RUN: from any memory with zero counters every weakly fair execution of the program terminates, nothing
    faulting, and in every final memory every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) := by
  refine Pipeline.θ_run_regions_kit_dev (pcfgs (F := F)) adm (pdats m) () cellOf_inj emb₁ defs₀ 𝒱₀ L lv m ρ main
    (segs m)
    (fun c Q => by
      rewrite [main_chain c, Pipeline.Seg.run_eq_chain,
        show (segs m c).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, .rfl, .rfl, last_chain m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c)⟩) (run_all m ρ)

end Cert.Kernel.Frm

end
-- ==== Proof.Spec.lean ====
/-
  The two-layer perceptron the program computes, as functions on the extended reals, index by index.
  A row of the input matrix X (1024 rows: one per (batch, time) pair, 8192 features) is multiplied with
  the rows of W1 (x · W1ᵀ), the bias b1 is added and the tanh-GELU applied; the hidden row is multiplied
  with the rows of W2 (h · W2ᵀ) and b2 is added. No finiteness is used: only sums and products appear.
-/
import Idealize.ShloMosaic.PureOps.Ideal
import Idealize.ShloMosaic.Lib.ValueIdx

noncomputable section

namespace Cert.MlpSpec

open Idealize.ShloMosaic Idealize.ShloMosaic.ValueIdx

/-- The tanh form of GELU with the program's four literals (1/2, 1, sqrt(2/pi) and 0.044715 as their
    binary32 values): (1/2 · u) · (1 + tanh (c · (u + a · (u · (u · u))))). -/
def gelu (u : EReal) : EReal :=
  (Ideal.ofBits .f32 0x3F000000#32 * u) *
    (Ideal.ofBits .f32 0x3F800000#32 +
      Ideal.tanh (Ideal.ofBits .f32 0x3F4C422A#32 * (u + Ideal.ofBits .f32 0x3D372713#32 * (u * (u * u)))))

/-- The flattened input: row 128·b + t, feature 64·p + e is entry (b, t, p, e) of the windowed embedding. -/
def rows (sel : (⟨4, ![8, 128, 128, 64]⟩ : Shape).Idx → EReal) : (⟨2, ![1024, 8192]⟩ : Shape).Idx → EReal :=
  fun i => sel (ix4 (⟨(i 0).val / 128, by have h : (i 0).val < 1024 := (i 0).isLt; show _ < 8; omega⟩ : Fin 8)
    (⟨(i 0).val % 128, Nat.mod_lt _ (by norm_num)⟩ : Fin 128)
    (⟨(i 1).val / 64, by have h : (i 1).val < 8192 := (i 1).isLt; show _ < 128; omega⟩ : Fin 128)
    (⟨(i 1).val % 64, Nat.mod_lt _ (by norm_num)⟩ : Fin 64))

/-- Entry (r, g) of the hidden layer: gelu (Σ_f X(r, f) · W1(g, f) + b1(g)). -/
def hiddenAt (X : (⟨2, ![1024, 8192]⟩ : Shape).Idx → EReal) (W1 : (⟨2, ![8192, 8192]⟩ : Shape).Idx → EReal)
    (b1 : (⟨1, ![8192]⟩ : Shape).Idx → EReal) (r : Fin 1024) (g : Fin 8192) : EReal :=
  gelu ((∑ f : Fin 8192, X (ix2 r f) * W1 (ix2 g f)) + b1 (ix1 g))

/-- The hidden layer as a 1024 × 8192 array. -/
def hidden (X : (⟨2, ![1024, 8192]⟩ : Shape).Idx → EReal) (W1 : (⟨2, ![8192, 8192]⟩ : Shape).Idx → EReal)
    (b1 : (⟨1, ![8192]⟩ : Shape).Idx → EReal) : (⟨2, ![1024, 8192]⟩ : Shape).Idx → EReal :=
  fun i => hiddenAt X W1 b1 (i 0) (i 1)

/-- Entry (r, v) of the output layer: Σ_g H(r, g) · W2(v, g) + b2(v). -/
def logitAt (H : (⟨2, ![1024, 8192]⟩ : Shape).Idx → EReal) (W2 : (⟨2, ![4096, 8192]⟩ : Shape).Idx → EReal)
    (b2 : (⟨1, ![4096]⟩ : Shape).Idx → EReal) (r : Fin 1024) (v : Fin 4096) : EReal :=
  (∑ g : Fin 8192, H (ix2 r g) * W2 (ix2 v g)) + b2 (ix1 v)

/-- The output layer as a 1024 × 4096 array. -/
def logits (H : (⟨2, ![1024, 8192]⟩ : Shape).Idx → EReal) (W2 : (⟨2, ![4096, 8192]⟩ : Shape).Idx → EReal)
    (b2 : (⟨1, ![4096]⟩ : Shape).Idx → EReal) : (⟨2, ![1024, 4096]⟩ : Shape).Idx → EReal :=
  fun i => logitAt H W2 b2 (i 0) (i 1)

/-- The whole result as an 8 × 128 × 4096 array: entry (b, t, v) is row 128·b + t, column v of the output layer
    of the hidden layer of the flattened windowed embedding. -/
def result (sel : (⟨4, ![8, 128, 128, 64]⟩ : Shape).Idx → EReal) (W1 : (⟨2, ![8192, 8192]⟩ : Shape).Idx → EReal)
    (b1 : (⟨1, ![8192]⟩ : Shape).Idx → EReal) (W2 : (⟨2, ![4096, 8192]⟩ : Shape).Idx → EReal)
    (b2 : (⟨1, ![4096]⟩ : Shape).Idx → EReal) : (⟨3, ![8, 128, 4096]⟩ : Shape).Idx → EReal :=
  fun i => logitAt (hidden (rows sel) W1 b1) W2 b2
    (⟨128 * (i 0).val + (i 1).val, by have h0 : (i 0).val < 8 := (i 0).isLt; have h1 : (i 1).val < 128 := (i 1).isLt; show _ < 1024; omega⟩ : Fin 1024) (i 2)

end Cert.MlpSpec

end
-- ==== Proof.RefHidden.lean ====
/-
  The reference program's hidden layer, entry by entry, as the specification's.
  The program flattens the windowed embedding (8 × 128 × 128 × 64) to 8 × 128 × 8192 by a row-major
  reshape, contracts its last axis with the last axis of W1, adds b1 along the last axis, and applies
  the tanh form of GELU written out operation by operation. Read at the index (b, t, g) this is
  gelu (Σ_f X(128·b + t, f) · W1(g, f) + b1(g)) with X the flattened input of the specification:
  the reshape's index arithmetic is the division of 128·b + t by 128 and of f by 64, and the
  program's cube (u·u)·u is the specification's u·(u·u) by commutativity of the product.
-/
import proofs.«179280_j42734924595240_2_alg».proof.Proof.Gen.ReferenceIdeal.Read
import proofs.«179280_j42734924595240_2_alg».proof.Proof.Spec
import Idealize.ShloMosaic.Lib.ValueIdx
import Idealize.ShloMosaic.PureOps.Ideal

noncomputable section

namespace Cert.RefSide

open Idealize.ShloMosaic Idealize.ShloMosaic.ValueIdx Cert.ReferenceIdeal Cert.ReferenceIdeal.Read Cert.MlpSpec

/-- The row of the flattened input that holds batch `b`, time `t`: 128·b + t. -/
abbrev row (b : Fin 8) (t : Fin 128) : Fin 1024 :=
  ⟨128 * b.val + t.val, by have hb := b.isLt; have ht := t.isLt; omega⟩

variable (x0 : (⟨S8x128, .i32⟩ : BufTy).Contents (Elt Ideal)) (x1 : (⟨S4096x64, .f32⟩ : BufTy).Contents (Elt Ideal))
  (x2 : (⟨S8192x8192, .f32⟩ : BufTy).Contents (Elt Ideal)) (x3 : (⟨S8192, .f32⟩ : BufTy).Contents (Elt Ideal))

/-- The reshaped array at (b, t, k) is the flattened input at row 128·b + t, feature k: the row-major
    position ((128·b + t)·8192 + k) splits as batch (128·b + t)/128, time (128·b + t)%128, slot k/64, lane k%64. -/
theorem v28_at (b : Fin 8) (t : Fin 128) (g k : Fin 8192) :
    val_main_v28 (F := Ideal) x0 x1 (lidx_main_v29 (ix3 b t g) k)
      = rows (val_main_v27 (F := Ideal) x0 x1) (ix2 (row b t) k) := by
  rw [val_main_v28_apply]
  show val_main_v27 (F := Ideal) x0 x1 _ = val_main_v27 (F := Ideal) x0 x1 _
  congr 1
  funext a
  have hb : b.val < 8 := b.isLt
  have ht : t.val < 128 := t.isLt
  have hk : k.val < 8192 := k.isLt
  match a with
  | ⟨0, _⟩ => exact Fin.ext (by
      show ((b.val * 128 + t.val) * 8192 + k.val) / 1048576 = (128 * b.val + t.val) / 128; omega)
  | ⟨1, _⟩ => exact Fin.ext (by
      show ((b.val * 128 + t.val) * 8192 + k.val) / 8192 % 128 = (128 * b.val + t.val) % 128; omega)
  | ⟨2, _⟩ => exact Fin.ext (by
      show ((b.val * 128 + t.val) * 8192 + k.val) / 64 % 128 = k.val / 64; omega)
  | ⟨3, _⟩ => exact Fin.ext (by
      show ((b.val * 128 + t.val) * 8192 + k.val) % 64 = k.val % 64; omega)

/-- The first layer before the activation, at (b, t, g): Σ_f X(128·b + t, f) · W1(g, f) + b1(g). -/
theorem v32_at (b : Fin 8) (t : Fin 128) (g : Fin 8192) :
    val_main_v32 (F := Ideal) x0 x1 x2 x3 (ix3 b t g)
      = (∑ f : Fin 8192, rows (val_main_v27 (F := Ideal) x0 x1) (ix2 (row b t) f) * x2 (ix2 g f)) + x3 (ix1 g) := by
  have hr : ∀ k : Fin 8192, ridx_main_v29 (ix3 b t g) k = ix2 g k := fun k =>
    funext fun a => match a with
      | ⟨0, _⟩ => rfl
      | ⟨1, _⟩ => rfl
  have hbias : idx_main_v30 (idx_main_v31 (ix3 b t g)) = ix1 g :=
    funext fun a => match a with
      | ⟨0, _⟩ => rfl
  rw [val_main_v32_apply, Ideal.addf_def, val_main_v29_apply, val_main_v31_apply, val_main_v30_apply, hbias]
  refine congrArg (· + x3 (ix1 g)) (Finset.sum_congr rfl fun k _ => ?_)
  rw [v28_at, hr]

/-- The activation the program spells out, operation by operation, is the specification's `gelu` of the
    first layer's entry, at every index: with u that entry, the program computes
    (1/2 · u) · (1 + tanh (c · (u + a · ((u · u) · u)))), and (u · u) · u = u · (u · u). -/
theorem v45_gelu (i : S8x128x8192.Idx) :
    val_main_v45 (F := Ideal) x0 x1 x2 x3 i = gelu (val_main_v32 (F := Ideal) x0 x1 x2 x3 i) := by
  rw [val_main_v45_apply, val_main_v34_apply, val_main_v44_apply, val_main_v42_apply, val_main_v41_apply,
    val_main_v39_apply, val_main_v38_apply, val_main_v36_apply, val_main_v35_apply, val_main_v33_apply,
    val_main_v43_apply, val_main_v40_apply, val_main_v37_apply, val_main_cst_7_apply, val_main_cst_10_apply,
    val_main_cst_9_apply, val_main_cst_8_apply]
  generalize val_main_v32 (F := Ideal) x0 x1 x2 x3 i = u
  show (Ideal.ofBits .f32 0x3F000000#32 * u) *
      (Ideal.ofBits .f32 0x3F800000#32 +
        Ideal.tanh (Ideal.ofBits .f32 0x3F4C422A#32 * (u + Ideal.ofBits .f32 0x3D372713#32 * ((u * u) * u)))) = gelu u
  unfold gelu
  rw [mul_comm (u * u) u]

/-- The hidden layer at (b, t, g) is the specification's, at row 128·b + t and column g. -/
theorem v45_at (b : Fin 8) (t : Fin 128) (g : Fin 8192) :
    val_main_v45 (F := Ideal) x0 x1 x2 x3 (ix3 b t g)
      = hidden (rows (val_main_v27 (F := Ideal) x0 x1)) x2 x3 (ix2 (row b t) g) := by
  rw [v45_gelu, v32_at]
  rfl

end Cert.RefSide

end
-- ==== Proof.RefValue.lean ====
/-
  The reference program's result is the specification's.
  After the hidden layer the program contracts the last axis of the hidden array (8 × 128 × 8192) with
  the last axis of W2 and adds b2 along the last axis. Read at the index (b, t, v) this is
  Σ_g H(128·b + t, g) · W2(v, g) + b2(v), H the specification's hidden layer of the flattened windowed
  embedding: entry (b, t, v) of the specification's result. The windowed embedding itself (the two
  gathers and the select) is left as it stands: both sides are functions of it.
-/
import proofs.«179280_j42734924595240_2_alg».proof.Proof.Gen.ReferenceIdeal.Read
import proofs.«179280_j42734924595240_2_alg».proof.Proof.Spec
import proofs.«179280_j42734924595240_2_alg».proof.Proof.RefHidden
import Idealize.ShloMosaic.Lib.ValueIdx
import Idealize.ShloMosaic.PureOps.Ideal

noncomputable section

namespace Cert.RefSide

open Idealize.ShloMosaic Idealize.ShloMosaic.ValueIdx Cert.ReferenceIdeal Cert.ReferenceIdeal.Read Cert.MlpSpec

/-- The reference's value, as a function of its six arguments (token ids, embedding table, W1, b1, W2, b2),
    is the two-layer perceptron of the specification applied to the windowed embedding the program builds. -/
theorem ref_result (x0 : (⟨Cert.ReferenceIdeal.S8x128, .i32⟩ : BufTy).Contents (Elt Ideal)) (x1 : (⟨Cert.ReferenceIdeal.S4096x64, .f32⟩ : BufTy).Contents (Elt Ideal)) (x2 : (⟨Cert.ReferenceIdeal.S8192x8192, .f32⟩ : BufTy).Contents (Elt Ideal)) (x3 : (⟨Cert.ReferenceIdeal.S8192, .f32⟩ : BufTy).Contents (Elt Ideal)) (x4 : (⟨Cert.ReferenceIdeal.S4096x8192, .f32⟩ : BufTy).Contents (Elt Ideal)) (x5 : (⟨Cert.ReferenceIdeal.S4096, .f32⟩ : BufTy).Contents (Elt Ideal)) :
    Cert.ReferenceIdeal.Read.val_main_v49 (F := Ideal) x0 x1 x2 x3 x4 x5 = Cert.MlpSpec.result (Cert.ReferenceIdeal.Read.val_main_v27 (F := Ideal) x0 x1) x2 x3 x4 x5 := by
  funext i
  obtain ⟨b, t, v, rfl⟩ : ∃ (b : Fin 8) (t : Fin 128) (v : Fin 4096), i = ix3 b t v := ⟨i 0, i 1, i 2, eq_ix3 i⟩
  -- the bias is read at v, whatever b and t are
  have hbias : idx_main_v47 (idx_main_v48 (ix3 b t v)) = ix1 v :=
    funext fun a => match a with
      | ⟨0, _⟩ => rfl
  rw [val_main_v49_apply, Ideal.addf_def, val_main_v46_apply, val_main_v48_apply, val_main_v47_apply, hbias]
  show _ = (∑ g : Fin 8192, hidden (rows (val_main_v27 (F := Ideal) x0 x1)) x2 x3 (ix2 (row b t) g) * x4 (ix2 v g)) + x5 (ix1 v)
  refine congrArg (· + x5 (ix1 v)) (Finset.sum_congr rfl fun k _ => ?_)
  -- the contraction reads the hidden array at (b, t, k) and W2 at (v, k)
  have hl : lidx_main_v46 (ix3 b t v) k = ix3 b t k :=
    funext fun a => match a with
      | ⟨0, _⟩ => rfl
      | ⟨1, _⟩ => rfl
      | ⟨2, _⟩ => rfl
  have hr : ridx_main_v46 (ix3 b t v) k = ix2 v k :=
    funext fun a => match a with
      | ⟨0, _⟩ => rfl
      | ⟨1, _⟩ => rfl
  rw [hl, hr, v45_at]

end Cert.RefSide

end
-- ==== Proof.Mlp1Pieces.lean ====
/-
  What the first kernel's body leaves in the accumulator and in the output block, case by case, as the body's
  arithmetic applied to what it loaded: at k = 0 the zero block plus the product of the first slab of the input with
  the weights' tile; at k = 1, 2, 3 the accumulator plus the product of the k-th slab; and at k = 3 the output block
  at GELU of that new accumulator plus the bias row. Every store overwrites its whole buffer, so what a buffer holds
  after the body is its last store's payload, and a load of a buffer just stored reads that payload back. The slab
  is the one load that does not read a whole buffer: 2048 of the resident input's 8192 columns.
-/
import proofs.«179280_j42734924595240_2_alg».proof.Proof.Mlp1Points
import Idealize.ShloMosaic.Lib.Pipeline.Value
import Idealize.ShloMosaic.Lib.Tactic

set_option maxRecDepth 16384

noncomputable section

namespace Cert.KernelIdeal.Frm1Value

open Idealize.ShloMosaic Idealize.ShloMosaic.TcCoe Idealize.ShloMosaic.Tactic
open Idealize.SL Idealize.SL.Sem
open Idealize.ShloMosaic.Pipeline (Dat)
open Cert.KernelIdeal Cert.KernelIdeal.Gen Cert.KernelIdeal.Frm

variable {F : FTy → Type} [FloatOps F]

/-- The zero offsets of a whole-buffer access. -/
theorem hz : (![0, 0] : Fin 2 → Nat) = fun _ => 0 := funext fun a => by fin_cases a <;> rfl

/-- The 2048 columns of the resident input the body loads at grid point `i`: columns
    2048·k … 2048·k + 2047, `k` the second grid coordinate. -/
abbrev slab (i : grid0.Coords) (x0 : Vec F S1024x8192 .bf16) : Vec F S1024x2048 .bf16 :=
  View.ld x0 (Rect.unit (s := S1024x8192) (k0_off1 i) S1024x2048.size (k0_off1_inb i))

/-- At k = 1, 2 the accumulator is left at itself plus the product of the slab with the weights' tile. -/
theorem soutB_eq (c : Dev nD) (i : grid0.Coords) (arg2 : Memref sig .tc .vmem S1024x8192 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : ¬cond0_1 i)
    (x0 : Vec F S1024x8192 .bf16) (x1 : Vec F S512x2048 .f32) (x2 : Vec F S1x512 .f32) (xs0 : Vec F S1024x512 .f32) :
    sout0_B c i arg2 harg2 arg3 harg3 arg4 harg4 arg5 harg5 arg6 harg6 hc0 hc1 x0 x1 x2 xs0 = k0_pay2 (slab i x0) x1 xs0 := by
  unfold sout0_B
  rw [View.read_writes_eq_canon _ _ _ (scover0_B c i arg2 harg2 arg3 harg3 arg4 harg4 arg5 harg5 arg6 harg6 hc0 hc1 x0 x1 x2 xs0)]
  unfold kernelRun0_B
  dsimp only
  rw [View.canon_unit_zero hz]
  simp only [View.readAt_eq_ld, harg2.read_unread, harg3.read_unread, harg6.read_unread, View.ld_unit_zero (S := S512x2048) hz, View.ld_unit_zero (S := S1024x512) hz]

/-- At k = 0 the accumulator is first zeroed, then left at the zero block plus the product of the first slab. -/
theorem soutA_eq (c : Dev nD) (i : grid0.Coords) (arg2 : Memref sig .tc .vmem S1024x8192 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond0_0 i) (hc1 : ¬cond0_1 i)
    (x0 : Vec F S1024x8192 .bf16) (x1 : Vec F S512x2048 .f32) (x2 : Vec F S1x512 .f32) :
    sout0_A c i arg2 harg2 arg3 harg3 arg4 harg4 arg5 harg5 arg6 harg6 hc0 hc1 x0 x1 x2 = k0_pay2 (slab i x0) x1 (k0_pay1 (F := F)) := by
  unfold sout0_A
  rw [View.read_writes_eq_canon _ _ _ (scover0_A c i arg2 harg2 arg3 harg3 arg4 harg4 arg5 harg5 arg6 harg6 hc0 hc1 x0 x1 x2)]
  unfold kernelRun0_A
  dsimp only
  sl_unfold_words
  rw [View.canon_cons_unit_zero (S := S1024x512) hz, View.readCov_unit_zero (S := S1024x512) _ hz]
  simp only [View.readAt_eq_ld, harg2.read_unread, harg3.read_unread, View.ld_unit_zero (S := S512x2048) hz]
  rfl

/-- At k = 3 the accumulator is left at itself plus the product of the last slab … -/
theorem soutC_eq (c : Dev nD) (i : grid0.Coords) (arg2 : Memref sig .tc .vmem S1024x8192 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i)
    (x0 : Vec F S1024x8192 .bf16) (x1 : Vec F S512x2048 .f32) (x2 : Vec F S1x512 .f32) (xs0 : Vec F S1024x512 .f32) :
    sout0_C c i arg2 harg2 arg3 harg3 arg4 harg4 arg5 harg5 arg6 harg6 hc0 hc1 x0 x1 x2 xs0 = k0_pay2 (slab i x0) x1 xs0 := by
  unfold sout0_C
  rw [View.read_writes_eq_canon _ _ _ (scover0_C c i arg2 harg2 arg3 harg3 arg4 harg4 arg5 harg5 arg6 harg6 hc0 hc1 x0 x1 x2 xs0)]
  unfold kernelRun0_C
  dsimp only
  sl_unfold_words
  rw [View.canon_unit_zero (S := S1024x512) hz]
  simp only [View.readAt_eq_ld, harg2.read_unread, harg3.read_unread, harg6.read_unread, View.ld_unit_zero (S := S512x2048) hz, View.ld_unit_zero (S := S1024x512) hz]
  rfl

/-- … and the output block at GELU of that new accumulator plus the bias row. -/
theorem outC_eq (c : Dev nD) (i : grid0.Coords) (arg2 : Memref sig .tc .vmem S1024x8192 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i)
    (x0 : Vec F S1024x8192 .bf16) (x1 : Vec F S512x2048 .f32) (x2 : Vec F S1x512 .f32) (xs0 : Vec F S1024x512 .f32) :
    out0_C c i arg2 harg2 arg3 harg3 arg4 harg4 arg5 harg5 arg6 harg6 hc0 hc1 x0 x1 x2 xs0 = k0_pay3 (k0_pay2 (slab i x0) x1 xs0) x2 := by
  unfold out0_C
  rw [View.read_writes_eq_canon _ _ _ (cover0_C c i arg2 harg2 arg3 harg3 arg4 harg4 arg5 harg5 arg6 harg6 hc0 hc1 x0 x1 x2 xs0)]
  unfold kernelRun0_C
  dsimp only
  sl_unfold_words
  rw [View.canon_unit_zero (S := S1024x512) hz, View.readCov_unit_zero (S := S1024x512) _ hz]
  simp only [View.readAt_eq_ld, harg2.read_unread, harg3.read_unread, harg4.read_unread, harg6.read_unread, View.ld_unit_zero (S := S512x2048) hz, View.ld_unit_zero (S := S1024x512) hz, View.ld_unit_zero (S := S1x512) hz]
  rfl

end Cert.KernelIdeal.Frm1Value

end
-- ==== Proof.Mlp1Blocks.lean ====
/-
  Where the first kernel's blocks sit in their arrays. The grid is 16 × 4, point t = 4·n + k. The input's block is the
  whole 1024 × 8192 input at every point; the weights' block is rows 512·n … 512·n + 511 and columns
  2048·k … 2048·k + 2047 of the weights; the bias row's block is columns 512·n … of the row, and the output's block
  the same columns of the output; the slab the body loads from the resident input is its columns 2048·k …. An
  element of a block sits in the array, on each axis, at the block's index times the block's size plus its own
  coordinate; the indices are decided once over the 64 points.
-/
import proofs.«179280_j42734924595240_2_alg».proof.Proof.Mlp1Pieces
import Idealize.ShloMosaic.Lib.ValueIdx

set_option maxRecDepth 16384

noncomputable section

namespace Cert.KernelIdeal.Frm1Value

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Frm

variable {F : FTy → Type} [FloatOps F]
variable (V : (c : Dev nD) → (b : Ref sig .tc) → Buf (Elt F) ((c : Thread nD τ).loc b))

/-- Where the blocks sit at point t = 4·n + k of the 16 × 4 grid: the input's block is the whole array; the weights'
    is block (n, k); the bias row's and the output's are block (0, n); the slab the body loads starts at column 2048·k. -/
theorem idx_facts : ∀ t : Fin cfg0.N,
    (win0_0.index t (0 : Fin 2) = 0 ∧ win0_0.index t (1 : Fin 2) = 0) ∧
    (win0_1.index t (0 : Fin 2) = t.val / 4 ∧ win0_1.index t (1 : Fin 2) = t.val % 4) ∧
    (win0_2.index t (0 : Fin 2) = 0 ∧ win0_2.index t (1 : Fin 2) = t.val / 4) ∧
    (win0_3.index t (0 : Fin 2) = 0 ∧ win0_3.index t (1 : Fin 2) = t.val / 4) ∧
    (k0_off1 (grid0.coords t) (0 : Fin 2) = 0 ∧ k0_off1 (grid0.coords t) (1 : Fin 2) = 2048 * (t.val % 4)) :=
  (by decide +kernel : ∀ t : Fin grid0.N,
    (win0_0.index t (0 : Fin 2) = 0 ∧ win0_0.index t (1 : Fin 2) = 0) ∧
    (win0_1.index t (0 : Fin 2) = t.val / 4 ∧ win0_1.index t (1 : Fin 2) = t.val % 4) ∧
    (win0_2.index t (0 : Fin 2) = 0 ∧ win0_2.index t (1 : Fin 2) = t.val / 4) ∧
    (win0_3.index t (0 : Fin 2) = 0 ∧ win0_3.index t (1 : Fin 2) = t.val / 4) ∧
    (k0_off1 (grid0.coords t) (0 : Fin 2) = 0 ∧ k0_off1 (grid0.coords t) (1 : Fin 2) = 2048 * (t.val % 4)))

/-- The input's block at any point is the whole input. -/
theorem iblk_x_apply (c : Dev nD) (t : Fin cfg0.N) (r : Fin 1024) (f : Fin 8192) :
    (iblk0 V c 0 t : Vec F S1024x8192 .bf16) (ix2 r f) = (V c main_v30 : S1024x8192.Idx → Elt F .bf16) (ix2 r f) := by
  unfold iblk0
  rw [View.read_apply]
  show V c main_v30 _ = V c main_v30 _
  congr 1
  funext a
  apply Fin.ext
  match a with
  | ⟨0, _⟩ => show win0_0.index t 0 * 1024 + 1 * r.val = r.val; rw [(idx_facts t).1.1]; omega
  | ⟨1, _⟩ => show win0_0.index t 1 * 8192 + 1 * f.val = f.val; rw [(idx_facts t).1.2]; omega

/-- The weights' block at point 4·n + k is rows 512·n …, columns 2048·k … of the weights. -/
theorem iblk_w_apply (c : Dev nD) (t : Fin cfg0.N) (q : Fin 512) (j : Fin 2048) (g f : Fin 8192)
    (hg : g.val = 512 * (t.val / 4) + q.val) (hf : f.val = 2048 * (t.val % 4) + j.val) :
    (iblk0 V c 1 t : Vec F S512x2048 .f32) (ix2 q j) = (V c main_arg2 : S8192x8192.Idx → Elt F .f32) (ix2 g f) := by
  unfold iblk0
  rw [View.read_apply]
  show V c main_arg2 _ = V c main_arg2 _
  congr 1
  funext a
  apply Fin.ext
  match a with
  | ⟨0, _⟩ => show win0_1.index t 0 * 512 + 1 * q.val = g.val; rw [(idx_facts t).2.1.1, hg]; omega
  | ⟨1, _⟩ => show win0_1.index t 1 * 2048 + 1 * j.val = f.val; rw [(idx_facts t).2.1.2, hf]; omega

/-- The bias row's block at point 4·n + k is columns 512·n … of the row. -/
theorem iblk_b_apply (c : Dev nD) (t : Fin cfg0.N) (q : Fin 512) (g : Fin 8192)
    (hg : g.val = 512 * (t.val / 4) + q.val) :
    (iblk0 V c 2 t : Vec F S1x512 .f32) (ix2 (0 : Fin 1) q) = (V c main_v31 : S1x8192.Idx → Elt F .f32) (ix2 (0 : Fin 1) g) := by
  unfold iblk0
  rw [View.read_apply]
  show V c main_v31 _ = V c main_v31 _
  congr 1
  funext a
  apply Fin.ext
  match a with
  | ⟨0, _⟩ => show win0_2.index t 0 * 1 + 1 * 0 = 0; rw [(idx_facts t).2.2.1.1]
  | ⟨1, _⟩ => show win0_2.index t 1 * 512 + 1 * q.val = g.val; rw [(idx_facts t).2.2.1.2, hg]; omega

/-- The slab the body loads at point 4·n + k is columns 2048·k … of the resident input. -/
theorem slab_apply (t : Fin cfg0.N) (x0 : Vec F S1024x8192 .bf16) (r : Fin 1024) (j : Fin 2048) (f : Fin 8192)
    (hf : f.val = 2048 * (t.val % 4) + j.val) :
    slab (grid0.coords t) x0 (ix2 r j) = x0 (ix2 r f) := by
  show x0 _ = x0 _
  congr 1
  funext a
  apply Fin.ext
  match a with
  | ⟨0, _⟩ => show k0_off1 (grid0.coords t) 0 + 1 * r.val = r.val; rw [(idx_facts t).2.2.2.2.1]; omega
  | ⟨1, _⟩ => show k0_off1 (grid0.coords t) 1 + 1 * j.val = f.val; rw [(idx_facts t).2.2.2.2.2, hf]; omega

end Cert.KernelIdeal.Frm1Value

end
-- ==== Proof.LibTransposedDot.lean ====
/-
  A matrix product whose right operand is contracted on its LAST axis, M×K by N×K (the left operand times the transpose
  of the right), at the ideal values, read at an index as the sum over the contracted coordinate of the products of the
  operands' entries: (x · wᵀ)(r, c) = Σ_k x(r, k) · w(c, k) — for the vector unit's matmul into the zero accumulator and
  for the host's dot_general alike. The contraction has one axis, of extent K: its index is that one coordinate; the left
  operand's index at (r, c) and k is (r, k), the right operand's is (c, k).
-/
import Idealize.ShloMosaic.PureOps.Ideal.Laws
import Idealize.ShloMosaic.Lib.ValueIdx

noncomputable section

open scoped BigOperators

namespace Idealize.ShloMosaic.TransposedDot

open Idealize.ShloMosaic Idealize.ShloMosaic.ValueIdx

variable {M K N : Nat}

/-- The one-axis contraction index of the product is its coordinate. -/
def contrE (M K N : Nat) : (DotDims.transposedRhs M K N).contr.Idx ≃ Fin K :=
  contrEquiv1 (DotDims.transposedRhs M K N) K rfl rfl

theorem contrE_symm_val (k : Fin K) :
    ((contrE M K N).symm k ⟨0, by have h : (DotDims.transposedRhs M K N).contr.rank = 1 := rfl; omega⟩ : ℕ) = k.val :=
  contrEquiv1_symm_val (DotDims.transposedRhs M K N) K rfl rfl k

/-- The left operand is read at (row of the result, contracted coordinate). -/
theorem lhsIdx_eq (r : Fin M) (c : Fin N) (k : Fin K) :
    (DotDims.transposedRhs M K N).lhsIdx (ix2 r c) ((contrE M K N).symm k) = ix2 r k := by
  funext a
  apply Fin.ext
  match a with
  | ⟨0, _⟩ => rfl
  | ⟨1, _⟩ => exact ((DotDims.transposedRhs M K N).lhsIdx_val_of_single (cl := 1) rfl (ix2 r c) _).trans (contrE_symm_val k)

/-- The right operand is read at (column of the result, contracted coordinate). -/
theorem rhsIdx_eq (r : Fin M) (c : Fin N) (k : Fin K) :
    (DotDims.transposedRhs M K N).rhsIdx (ix2 r c) ((contrE M K N).symm k) = ix2 c k := by
  funext a
  apply Fin.ext
  match a with
  | ⟨0, _⟩ => rfl
  | ⟨1, _⟩ => exact ((DotDims.transposedRhs M K N).rhsIdx_val_of_single (cr := 1) rfl (ix2 r c) _).trans (contrE_symm_val k)

/-- The sum over the contraction index, re-indexed by the contracted coordinate. -/
theorem sum_contr (f : (⟨2, ![M, K]⟩ : Shape).Idx → EReal) (g : (⟨2, ![N, K]⟩ : Shape).Idx → EReal) (r : Fin M) (c : Fin N) :
    (∑ k : (DotDims.transposedRhs M K N).contr.Idx,
        f ((DotDims.transposedRhs M K N).lhsIdx (ix2 r c) k) * g ((DotDims.transposedRhs M K N).rhsIdx (ix2 r c) k))
      = ∑ k : Fin K, f (ix2 r k) * g (ix2 c k) := by
  rw [← Equiv.sum_comp (contrE M K N).symm]
  exact Finset.sum_congr rfl fun k _ => by rw [lhsIdx_eq, rhsIdx_eq]

/-- The vector unit's matmul into the zero accumulator, at (r, c). -/
theorem matmul_zero_apply {φ₁ φ₂ : FTy} (prec : Option ContractPrecision)
    (x : FVec Ideal ⟨2, ![M, K]⟩ φ₁) (w : FVec Ideal ⟨2, ![N, K]⟩ φ₂) (r : Fin M) (c : Fin N) :
    FloatOps.matmul (DotDims.transposedRhs M K N) prec x w (constant (⟨2, ![M, N]⟩ : Shape) .f32 0x00000000#32) (ix2 r c)
      = ∑ k : Fin K, x (ix2 r k) * w (ix2 c k) :=
  (Ideal.matmul_constant_zero_apply (DotDims.transposedRhs M K N) prec x w (ix2 r c)).trans (sum_contr x w r c)

/-- The host's dot_general, at (r, c). -/
theorem dotGeneral_apply {φ₁ φ₂ : FTy} (prec : Option ContractPrecision) (sched : HostSchedule)
    (x : FVec Ideal ⟨2, ![M, K]⟩ φ₁) (w : FVec Ideal ⟨2, ![N, K]⟩ φ₂) (r : Fin M) (c : Fin N) :
    FloatOps.dotGeneral (DotDims.transposedRhs M K N) prec sched x w (ix2 r c) = ∑ k : Fin K, x (ix2 r k) * w (ix2 c k) :=
  (Ideal.dotGeneral_apply (DotDims.transposedRhs M K N) prec sched x w (ix2 r c)).trans (sum_contr x w r c)

end Idealize.ShloMosaic.TransposedDot

end
-- ==== Proof.Payload.lean ====
/-
  The two kernel functions' stored blocks, read entry by entry at the ideal values.

  Each function stores three blocks: a zero block (the accumulator's reset); the accumulator plus the product of the
  loaded 1024 × 2048 block with the transpose of the loaded 512 × 2048 block (entry (r, c) is the sum over the 2048
  shared coordinates j of x(r, j) · w(c, j); a rounding to a narrower format is the identity at the ideal values); and
  the accumulator plus the bias row repeated over the 1024 rows — with the tanh form of GELU applied on top in the first
  function. A shape cast between equal shapes is the identity.
-/
import proofs.«179280_j42734924595240_2_alg».proof.Proof.Gen.KernelIdeal.Skeleton
import proofs.«179280_j42734924595240_2_alg».proof.Proof.Spec
import proofs.«179280_j42734924595240_2_alg».proof.Proof.LibTransposedDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayloadAt

open Idealize.ShloMosaic Idealize.ShloMosaic.ValueIdx Cert.KernelIdeal Cert.KernelIdeal.Gen

/-- The program's dimension numbers for its two products are those of "M × K by N × K, both contracted on the last
    axis", at M = 1024, K = 2048, N = 512. -/
theorem dot_eq :
    dot_S1024x2048_S512x2048_S1024x512_1_1_0_0_n_n = DotDims.transposedRhs 1024 2048 512 := rfl

/-- The product into the zero accumulator, with the right operand rounded to a narrower format first: entry (r, c) is
    Σ_j x(r, j) · w(c, j). -/
theorem matmul_trunc_apply {φ : FTy} (x : FVec Ideal S1024x2048 φ) (w : FVec Ideal S512x2048 .f32)
    (r : Fin 1024) (c : Fin 512) :
    matmul dot_S1024x2048_S512x2048_S1024x512_1_1_0_0_n_n none x (truncf .bf16 w bitsLt_bf16_f32)
        (constant S1024x512 .f32 0x00000000#32) (ix2 r c)
      = ∑ j : Fin 2048, x (ix2 r j) * w (ix2 c j) :=
  TransposedDot.matmul_zero_apply none x (truncf .bf16 w bitsLt_bf16_f32) r c

/-- The bias row, cast to its own shape and repeated over the rows: entry (r, c) is the row's entry c. -/
theorem bias_rows_apply (b : Vec Ideal S1x512 .f32) (r : Fin 1024) (c : Fin 512) :
    broadcastTo S1024x512 (shapeCast S1x512 b shapeCasts_S1x512_S1x512) broadcasts_S1x512_S1024x512 (ix2 r c)
      = b (ix2 (0 : Fin 1) c) := by
  rw [shapeCast_self]
  exact broadcastTo_1b_ab_apply b broadcasts_S1x512_S1024x512 r c

/-! ## The first function -/

/-- The reset block is zero everywhere. -/
theorem k0_pay1_apply (r : Fin 1024) (c : Fin 512) : k0_pay1 (F := Ideal) (ix2 r c) = 0 := by
  unfold k0_pay1
  rw [shapeCast_self]
  exact Ideal.ofBits_zero_f32

/-- The accumulated block: the accumulator plus Σ_j x(r, j) · w(c, j). -/
theorem k0_pay2_apply (v6 : Vec Ideal S1024x2048 .bf16) (v8 : Vec Ideal S512x2048 .f32) (v10 : Vec Ideal S1024x512 .f32)
    (r : Fin 1024) (c : Fin 512) :
    k0_pay2 v6 v8 v10 (ix2 r c) = v10 (ix2 r c) + ∑ j : Fin 2048, v6 (ix2 r j) * v8 (ix2 c j) := by
  unfold k0_pay2
  rw [shapeCast_self, shapeCast_self, addf_apply]
  exact congrArg (v10 (ix2 r c) + ·) (matmul_trunc_apply v6 v8 r c)

/-- The finished block: GELU of the accumulator plus the bias. -/
theorem k0_pay3_apply (v19 : Vec Ideal S1024x512 .f32) (v20 : Vec Ideal S1x512 .f32) (r : Fin 1024) (c : Fin 512) :
    k0_pay3 v19 v20 (ix2 r c) = Cert.MlpSpec.gelu (v19 (ix2 r c) + v20 (ix2 (0 : Fin 1) c)) := by
  have h : k0_pay3 v19 v20 (ix2 r c)
      = Cert.MlpSpec.gelu (v19 (ix2 r c)
          + broadcastTo S1024x512 (shapeCast S1x512 v20 shapeCasts_S1x512_S1x512) broadcasts_S1x512_S1024x512 (ix2 r c)) := rfl
  rw [h, bias_rows_apply]

/-! ## The second function -/

/-- The reset block is zero everywhere. -/
theorem k1_pay1_apply (r : Fin 1024) (c : Fin 512) : k1_pay1 (F := Ideal) (ix2 r c) = 0 := by
  unfold k1_pay1
  rw [shapeCast_self]
  exact Ideal.ofBits_zero_f32

/-- The accumulated block: the accumulator plus Σ_j h(r, j) · w(c, j). -/
theorem k1_pay2_apply (v3 : Vec Ideal S1024x2048 .f32) (v6 : Vec Ideal S512x2048 .f32) (v8 : Vec Ideal S1024x512 .f32)
    (r : Fin 1024) (c : Fin 512) :
    k1_pay2 v3 v6 v8 (ix2 r c) = v8 (ix2 r c) + ∑ j : Fin 2048, v3 (ix2 r j) * v6 (ix2 c j) := by
  unfold k1_pay2
  rw [shapeCast_self, shapeCast_self, addf_apply]
  exact congrArg (v8 (ix2 r c) + ·) (matmul_trunc_apply (truncf .bf16 v3 bitsLt_bf16_f32) v6 r c)

/-- The finished block: the accumulator plus the bias. -/
theorem k1_pay3_apply (v17 : Vec Ideal S1024x512 .f32) (v18 : Vec Ideal S1x512 .f32) (r : Fin 1024) (c : Fin 512) :
    k1_pay3 v17 v18 (ix2 r c) = v17 (ix2 r c) + v18 (ix2 (0 : Fin 1) c) := by
  unfold k1_pay3
  rw [addf_apply, bias_rows_apply]

end Cert.KernelIdeal.PayloadAt

end
-- ==== Proof.BlockSum.lean ====
/-
  A sum over 8192 consecutive indices, cut into four consecutive blocks of 2048 and accumulated
  block by block from zero. Only associativity and commutativity of the addition are used, so the
  law holds in every additive commutative monoid (the extended reals among them).
-/
import Mathlib.Algebra.BigOperators.Fin

namespace Cert.BlockSum

open scoped BigOperators

/-- A sum over `a + b` consecutive indices is the sum over the first `a` of them plus the sum over
    the last `b`, the latter read at `a + j`. -/
theorem sum_split {M : Type*} [AddCommMonoid M] (a b : ℕ) (F : Fin (a + b) → M) :
    ∑ f : Fin (a + b), F f
      = (∑ i : Fin a, F ⟨i.val, by omega⟩) + ∑ j : Fin b, F ⟨a + j.val, by omega⟩ := by
  rw [Fin.sum_univ_add]
  rfl

/-- 8192 = 2048 + 2048 + 2048 + 2048: the whole sum is the four block sums added, in order, onto zero. -/
theorem sum_four_blocks {M : Type*} [AddCommMonoid M] (F : Fin 8192 → M) :
    ∑ f : Fin 8192, F f
      = (((0 + ∑ j : Fin 2048, F ⟨j.val, by omega⟩) + ∑ j : Fin 2048, F ⟨2048 + j.val, by omega⟩)
          + ∑ j : Fin 2048, F ⟨4096 + j.val, by omega⟩) + ∑ j : Fin 2048, F ⟨6144 + j.val, by omega⟩ := by
  -- the last block off the whole, then the third off the first 6144, then the second off the first 4096
  have e1 : ∑ f : Fin 8192, F f
      = (∑ i : Fin 6144, F ⟨i.val, by omega⟩) + ∑ j : Fin 2048, F ⟨6144 + j.val, by omega⟩ :=
    sum_split 6144 2048 F
  have e2 : ∑ i : Fin 6144, F ⟨i.val, by omega⟩
      = (∑ i : Fin 4096, F ⟨i.val, by omega⟩) + ∑ j : Fin 2048, F ⟨4096 + j.val, by omega⟩ :=
    sum_split 4096 2048 (fun i : Fin 6144 => F ⟨i.val, by omega⟩)
  have e3 : ∑ i : Fin 4096, F ⟨i.val, by omega⟩
      = (∑ i : Fin 2048, F ⟨i.val, by omega⟩) + ∑ j : Fin 2048, F ⟨2048 + j.val, by omega⟩ :=
    sum_split 2048 2048 (fun i : Fin 4096 => F ⟨i.val, by omega⟩)
  rw [e1, e2, e3, zero_add]

end Cert.BlockSum
-- ==== Proof.Mlp1Acc.lean ====
/-
  The first kernel's accumulator in closed form, at the ideal values. Fix a row r of the input X and a row g of the
  weights W. Their dot product over 8192 columns is cut into four blocks of 2048 columns,
  Q_k = Σ_{j < 2048} X(r, 2048·k + j) · W(g, 2048·k + j). At point t = 4·n + k the body adds, at entry (r, q) of the
  accumulator, the block Q_k of the rows r and g = 512·n + q — onto zero at k = 0, onto what the point before left at
  k = 1, 2, 3 —, so after point t the accumulator holds ((0 + Q₀) + … ) + Q_k, by induction on the point; and the four
  blocks added in this order are the whole dot product, since addition of extended reals is associative.
-/
import proofs.«179280_j42734924595240_2_alg».proof.Proof.Mlp1Blocks
import proofs.«179280_j42734924595240_2_alg».proof.Proof.Payload
import proofs.«179280_j42734924595240_2_alg».proof.Proof.BlockSum
import Idealize.ShloMosaic.Lib.ValueIdx

set_option maxRecDepth 16384

noncomputable section

open scoped BigOperators

namespace Cert.KernelIdeal.Frm1Value

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Frm

variable (V : (c : Dev nD) → (b : Ref sig .tc) → Buf (Elt Ideal) ((c : Thread nD τ).loc b))

/-! ## The partial dot products -/

/-- Column 2048·k + j of an array with 8192 columns (the reduction modulo 8192 is idle for k < 4: it makes the column
    a function of every k). -/
def col (k : ℕ) (j : Fin 2048) : Fin 8192 := ⟨(2048 * k + j.val) % 8192, Nat.mod_lt _ (by norm_num)⟩

theorem col_val (k : ℕ) (hk : k < 4) (j : Fin 2048) : (col k j).val = 2048 * k + j.val := by
  show (2048 * k + j.val) % 8192 = _
  have := j.isLt
  omega

/-- The k-th block of the dot product of row r of X with row g of W: Σ_{j < 2048} X(r, 2048k + j) · W(g, 2048k + j). -/
def blockDot (X : (⟨2, ![1024, 8192]⟩ : Shape).Idx → EReal) (W : (⟨2, ![8192, 8192]⟩ : Shape).Idx → EReal)
    (r : Fin 1024) (g : Fin 8192) (k : ℕ) : EReal :=
  ∑ j : Fin 2048, X (ix2 r (col k j)) * W (ix2 g (col k j))

/-- The blocks 0 … k added in order onto zero: ((0 + Q₀) + Q₁) + … + Q_k. -/
def accSpec (X : (⟨2, ![1024, 8192]⟩ : Shape).Idx → EReal) (W : (⟨2, ![8192, 8192]⟩ : Shape).Idx → EReal)
    (r : Fin 1024) (g : Fin 8192) : ℕ → EReal
  | 0 => 0 + blockDot X W r g 0
  | k + 1 => accSpec X W r g k + blockDot X W r g (k + 1)

theorem accSpec_zero (X : (⟨2, ![1024, 8192]⟩ : Shape).Idx → EReal) (W : (⟨2, ![8192, 8192]⟩ : Shape).Idx → EReal)
    (r : Fin 1024) (g : Fin 8192) : accSpec X W r g 0 = 0 + blockDot X W r g 0 := rfl
theorem accSpec_succ (X : (⟨2, ![1024, 8192]⟩ : Shape).Idx → EReal) (W : (⟨2, ![8192, 8192]⟩ : Shape).Idx → EReal)
    (r : Fin 1024) (g : Fin 8192) (k : ℕ) : accSpec X W r g (k + 1) = accSpec X W r g k + blockDot X W r g (k + 1) := rfl

/-- The four blocks added in order are the whole dot product. -/
theorem accSpec_three (X : (⟨2, ![1024, 8192]⟩ : Shape).Idx → EReal) (W : (⟨2, ![8192, 8192]⟩ : Shape).Idx → EReal)
    (r : Fin 1024) (g : Fin 8192) : accSpec X W r g 3 = ∑ f : Fin 8192, X (ix2 r f) * W (ix2 g f) := by
  have e0 : ∀ j : Fin 2048, col 0 j = ⟨j.val, by omega⟩ := fun j => Fin.ext ((col_val 0 (by norm_num) j).trans (by show 2048 * 0 + j.val = j.val; omega))
  have e1 : ∀ j : Fin 2048, col 1 j = ⟨2048 + j.val, by omega⟩ := fun j => Fin.ext ((col_val 1 (by norm_num) j).trans (by show 2048 * 1 + j.val = 2048 + j.val; omega))
  have e2 : ∀ j : Fin 2048, col 2 j = ⟨4096 + j.val, by omega⟩ := fun j => Fin.ext ((col_val 2 (by norm_num) j).trans (by show 2048 * 2 + j.val = 4096 + j.val; omega))
  have e3 : ∀ j : Fin 2048, col 3 j = ⟨6144 + j.val, by omega⟩ := fun j => Fin.ext ((col_val 3 (by norm_num) j).trans (by show 2048 * 3 + j.val = 6144 + j.val; omega))
  rw [Cert.BlockSum.sum_four_blocks (fun f => X (ix2 r f) * W (ix2 g f))]
  show (((0 + blockDot X W r g 0) + blockDot X W r g 1) + blockDot X W r g 2) + blockDot X W r g 3 = _
  unfold blockDot
  simp only [e0, e1, e2, e3]

/-! ## The accumulator, point by point -/

/-- One accumulation step at point t = 4·n + k, at entry (r, q) of the block: the accumulator's entry plus the k-th
    block of the dot product of row r of the input with row 512·n + q of the weights. -/
theorem pay2_at (c : Dev nD) (t : Fin cfg0.N) (acc : Vec Ideal S1024x512 .f32) (r : Fin 1024) (q : Fin 512) (g : Fin 8192)
    (hg : g.val = 512 * (t.val / 4) + q.val) :
    k0_pay2 (slab (grid0.coords t) (iblk0 V c 0 t)) (iblk0 V c 1 t) acc (ix2 r q)
      = acc (ix2 r q) + blockDot (V c main_v30) (V c main_arg2) r g (t.val % 4) := by
  refine (PayloadAt.k0_pay2_apply (slab (grid0.coords t) (iblk0 V c 0 t)) (iblk0 V c 1 t) acc r q).trans ?_
  refine congrArg (acc (ix2 r q) + ·) (Finset.sum_congr rfl fun j _ => ?_)
  have hf : (col (t.val % 4) j).val = 2048 * (t.val % 4) + j.val := col_val (t.val % 4) (Nat.mod_lt _ (by norm_num)) j
  exact congrArg₂ (· * ·)
    ((slab_apply t (iblk0 V c 0 t) r j (col (t.val % 4) j) hf).trans (iblk_x_apply V c t r (col (t.val % 4) j)))
    (iblk_w_apply V c t q j g (col (t.val % 4) j) hg hf)

/-- After a point with k = 0: the zero block plus the first block of the dot product. -/
theorem acc_first (c : Dev nD) (t : Fin cfg0.N) (h0 : t.val % 4 = 0) (r : Fin 1024) (q : Fin 512) (g : Fin 8192)
    (hg : g.val = 512 * (t.val / 4) + q.val) :
    accAt0 V c t.val t.isLt (ix2 r q) = accSpec (V c main_v30) (V c main_arg2) r g (t.val % 4) := by
  refine (congrFun (accAt0_A V c t h0) (ix2 r q)).trans ?_
  refine (congrFun (soutA_eq c (grid0.coords t) (ms0_0 t) (hs0_0 t) (ms0_1 t) (hs0_1 t) (ms0_2 t) (hs0_2 t) (ms0_3 t) (hs0_3 t)
    scM0 (Memref.isWhole_whole _) ((hcond0_0 t).mpr h0) (fun h => not3_of_0 h0 ((hcond0_1 t).mp h))
    (iblk0 V c 0 t) (iblk0 V c 1 t) (iblk0 V c 2 t)) (ix2 r q)).trans ?_
  refine (pay2_at V c t (k0_pay1 (F := Ideal)) r q g hg).trans ?_
  rw [h0, accSpec_zero, PayloadAt.k0_pay1_apply]

/-- After a point with k = 1, 2, 3: what the point before left plus the k-th block of the dot product. -/
theorem acc_next (c : Dev nD) (t : Fin cfg0.N) (h0 : ¬t.val % 4 = 0) (r : Fin 1024) (q : Fin 512) (g : Fin 8192)
    (hg : g.val = 512 * (t.val / 4) + q.val)
    (ih : accAt0 V c (t.val - 1) (Nat.lt_of_le_of_lt (Nat.sub_le _ _) t.isLt) (ix2 r q)
      = accSpec (V c main_v30) (V c main_arg2) r g ((t.val - 1) % 4)) :
    accAt0 V c t.val t.isLt (ix2 r q) = accSpec (V c main_v30) (V c main_arg2) r g (t.val % 4) := by
  have e : t.val % 4 = (t.val - 1) % 4 + 1 := by omega
  have step : accAt0 V c t.val t.isLt (ix2 r q)
      = k0_pay2 (slab (grid0.coords t) (iblk0 V c 0 t)) (iblk0 V c 1 t)
          (accAt0 V c (t.val - 1) (Nat.lt_of_le_of_lt (Nat.sub_le _ _) t.isLt)) (ix2 r q) := by
    by_cases h1 : t.val % 4 = 3
    · refine (congrFun (accAt0_C V c t h0 h1) (ix2 r q)).trans ?_
      exact congrFun (soutC_eq c (grid0.coords t) (ms0_0 t) (hs0_0 t) (ms0_1 t) (hs0_1 t) (ms0_2 t) (hs0_2 t) (ms0_3 t) (hs0_3 t)
        scM0 (Memref.isWhole_whole _) (fun h => h0 ((hcond0_0 t).mp h)) ((hcond0_1 t).mpr h1)
        (iblk0 V c 0 t) (iblk0 V c 1 t) (iblk0 V c 2 t) (accAt0 V c (t.val - 1) (Nat.lt_of_le_of_lt (Nat.sub_le _ _) t.isLt))) (ix2 r q)
    · refine (congrFun (accAt0_B V c t h0 h1) (ix2 r q)).trans ?_
      exact congrFun (soutB_eq c (grid0.coords t) (ms0_0 t) (hs0_0 t) (ms0_1 t) (hs0_1 t) (ms0_2 t) (hs0_2 t) (ms0_3 t) (hs0_3 t)
        scM0 (Memref.isWhole_whole _) (fun h => h0 ((hcond0_0 t).mp h)) (fun h => h1 ((hcond0_1 t).mp h))
        (iblk0 V c 0 t) (iblk0 V c 1 t) (iblk0 V c 2 t) (accAt0 V c (t.val - 1) (Nat.lt_of_le_of_lt (Nat.sub_le _ _) t.isLt))) (ix2 r q)
  refine step.trans ?_
  refine (pay2_at V c t (accAt0 V c (t.val - 1) (Nat.lt_of_le_of_lt (Nat.sub_le _ _) t.isLt)) r q g hg).trans ?_
  rw [ih, e]
  exact (accSpec_succ (V c main_v30) (V c main_arg2) r g ((t.val - 1) % 4)).symm

/-- THE ACCUMULATOR after point t = 4·n + k, at entry (r, q): the blocks 0 … k of the dot product of row r of the input
    with row 512·n + q of the weights, added in order onto zero — by induction on the point. -/
theorem acc_eq (c : Dev nD) : ∀ (n : ℕ) (hn : n < cfg0.N) (r : Fin 1024) (q : Fin 512) (g : Fin 8192),
    g.val = 512 * (n / 4) + q.val →
    accAt0 V c n hn (ix2 r q) = accSpec (V c main_v30) (V c main_arg2) r g (n % 4)
  | 0, hn, r, q, g, hg => acc_first V c ⟨0, hn⟩ rfl r q g hg
  | n + 1, hn, r, q, g, hg => by
    by_cases h0 : (n + 1) % 4 = 0
    · exact acc_first V c ⟨n + 1, hn⟩ h0 r q g hg
    · exact acc_next V c ⟨n + 1, hn⟩ h0 r q g hg
        (acc_eq c n (Nat.lt_of_succ_lt hn) r q g (by omega))

end Cert.KernelIdeal.Frm1Value

end
-- ==== Proof.Mlp1Value.lean ====
/-
  The first kernel's output array after its 64 points is the hidden layer. At a point t = 4·n + 3 the body stores, at
  entry (r, q) of the output block, GELU of the new accumulator plus the bias: the accumulator there is the four blocks
  of the dot product of row r of the input with row g = 512·n + q of the weights added in order, that is the whole dot
  product, and the bias block's entry q is entry g of the bias row — so the stored entry is entry (r, g) of the hidden
  layer. The output's block at that point is columns 512·n … 512·n + 511 of the output, it is written back exactly at
  the points with k = 3, and the 16 blocks cover the 8192 columns: column g lies in the block of n = g / 512.
-/
import proofs.«179280_j42734924595240_2_alg».proof.Proof.Mlp1Acc
import proofs.«179280_j42734924595240_2_alg».proof.Proof.Spec
import Idealize.ShloMosaic.Lib.Pipeline.Value

set_option maxRecDepth 16384

noncomputable section

open scoped BigOperators

namespace Cert.KernelIdeal.Frm1Value

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Frm

variable (V : (c : Dev nD) → (b : Ref sig .tc) → Buf (Elt Ideal) ((c : Thread nD τ).loc b))

/-- The hidden layer of the arrays the region finds: the input X, the weights W1, the bias row read as a vector. -/
abbrev hiddenOf (c : Dev nD) : (⟨2, ![1024, 8192]⟩ : Shape).Idx → EReal :=
  Cert.MlpSpec.hidden (V c main_v30) (V c main_arg2) (fun g => V c main_v31 (ix2 (0 : Fin 1) (g 0)))

/-- An array with the output's shape read through the output's block at point 4·n + k: columns 512·n …. -/
theorem read_out_blk (G : (⟨2, ![1024, 8192]⟩ : Shape).Idx → EReal) (t : Fin cfg0.N) (r : Fin 1024) (q : Fin 512) (g : Fin 8192)
    (hg : g.val = 512 * (t.val / 4) + q.val) :
    (((cfg0.win 3).blk t).view.read (Elt Ideal) G : S1024x512.Idx → EReal) (ix2 r q) = G (ix2 r g) := by
  rw [View.read_apply]
  show G _ = G _
  congr 1
  funext a
  apply Fin.ext
  match a with
  | ⟨0, _⟩ => show win0_3.index t 0 * 1024 + 1 * r.val = r.val; rw [(idx_facts t).2.2.2.1.1]; omega
  | ⟨1, _⟩ => show win0_3.index t 1 * 512 + 1 * q.val = g.val; rw [(idx_facts t).2.2.2.1.2, hg]; omega

/-- What the body stores into the output block at a point with k = 3, at entry (r, q): entry (r, 512·n + q) of the
    hidden layer. -/
theorem out_at (c : Dev nD) (t : Fin cfg0.N) (h3 : t.val % 4 = 3) (r : Fin 1024) (q : Fin 512) (g : Fin 8192)
    (hg : g.val = 512 * (t.val / 4) + q.val) :
    outAt0 V c t (ix2 r q) = hiddenOf V c (ix2 r g) := by
  have h0 : ¬t.val % 4 = 0 := ne0_of_3 h3
  refine (congrFun (outAt0_C V c t h3) (ix2 r q)).trans ?_
  refine (congrFun (outC_eq c (grid0.coords t) (ms0_0 t) (hs0_0 t) (ms0_1 t) (hs0_1 t) (ms0_2 t) (hs0_2 t) (ms0_3 t) (hs0_3 t)
    scM0 (Memref.isWhole_whole _) (fun h => ne0_of_3 h3 ((hcond0_0 t).mp h)) ((hcond0_1 t).mpr h3)
    (iblk0 V c 0 t) (iblk0 V c 1 t) (iblk0 V c 2 t) (accAt0 V c (t.val - 1) (Nat.lt_of_le_of_lt (Nat.sub_le _ _) t.isLt))) (ix2 r q)).trans ?_
  refine (PayloadAt.k0_pay3_apply
    (k0_pay2 (slab (grid0.coords t) (iblk0 V c 0 t)) (iblk0 V c 1 t) (accAt0 V c (t.val - 1) (Nat.lt_of_le_of_lt (Nat.sub_le _ _) t.isLt)))
    (iblk0 V c 2 t) r q).trans ?_
  show _ = Cert.MlpSpec.hiddenAt (V c main_v30) (V c main_arg2) (fun g => V c main_v31 (ix2 (0 : Fin 1) (g 0))) r g
  unfold Cert.MlpSpec.hiddenAt
  refine congrArg Cert.MlpSpec.gelu (congrArg₂ (· + ·) ?_ (iblk_b_apply V c t q g hg))
  refine (pay2_at V c t (accAt0 V c (t.val - 1) (Nat.lt_of_le_of_lt (Nat.sub_le _ _) t.isLt)) r q g hg).trans ?_
  rw [acc_eq V c (t.val - 1) (Nat.lt_of_le_of_lt (Nat.sub_le _ _) t.isLt) r q g (by omega),
    show (t.val - 1) % 4 = 2 from by omega, h3]
  exact accSpec_three (V c main_v30) (V c main_arg2) r g

/-- What a point with k = 3 writes back is its block of the hidden layer. -/
theorem flushed_eq (c : Dev nD) (t : Fin cfg0.N) (hf : (cfg0.win 3).flush t = true) :
    (dat0 V c).flushed 3 t = ((cfg0.win 3).blk t).view.read (Elt Ideal) (hiddenOf V c) := by
  have h3 : t.val % 4 = 3 := (flush0_3 t).mp hf
  have hN : cfg0.N = 64 := N_0
  show (cfg0.win 3).cut (grid0.coords t) ((dat0 V c).after 3 t) = _
  rw [after0_3]
  funext y
  obtain ⟨r, q, rfl⟩ : ∃ (r : Fin 1024) (q : Fin 512), y = ix2 r q := ⟨y 0, y 1, eq_ix2 y⟩
  have ht : t.val < 64 := hN ▸ t.isLt
  have hg : (⟨512 * (t.val / 4) + q.val, by have := q.isLt; omega⟩ : Fin 8192).val = 512 * (t.val / 4) + q.val := rfl
  refine Eq.trans ?_ (read_out_blk (hiddenOf V c) t r q _ hg).symm
  exact out_at V c t h3 r q _ hg

/-- Every entry (r, g) of the output lies in the block written back at point 4·(g / 512) + 3. -/
theorem covered (c : Dev nD) (i : ((cfg0.win 3).arr.view.loc (c.tc : Thread nD τ)).2.ty.Idx) :
    ∃ t : Fin cfg0.N, (cfg0.win 3).flush t = true ∧ i ∈ ((cfg0.win 3).blk t).view.set := by
  have hN : cfg0.N = 64 := N_0
  have h0 : (i 0 : Nat) < 1024 := (i 0).isLt
  have h1 : (i 1 : Nat) < 8192 := (i 1).isLt
  have ht : 4 * ((i 1).val / 512) + 3 < cfg0.N := by rw [hN]; omega
  refine ⟨⟨4 * ((i 1).val / 512) + 3, ht⟩, (flush0_3 _).mpr (by show (4 * ((i 1).val / 512) + 3) % 4 = 3; omega), ?_⟩
  show i ∈ ((View.whole main_v33).slice (win0_3.rect ⟨4 * ((i 1).val / 512) + 3, ht⟩)).set
  rw [View.set_slice_whole, Rect.mem_set_unit]
  intro a
  match a with
  | ⟨0, _⟩ =>
    show win0_3.index ⟨4 * ((i 1).val / 512) + 3, ht⟩ 0 * 1024 ≤ (i 0 : Nat)
      ∧ (i 0 : Nat) < win0_3.index ⟨4 * ((i 1).val / 512) + 3, ht⟩ 0 * 1024 + 1024
    rw [(idx_facts ⟨4 * ((i 1).val / 512) + 3, ht⟩).2.2.2.1.1]; omega
  | ⟨1, _⟩ =>
    show win0_3.index ⟨4 * ((i 1).val / 512) + 3, ht⟩ 1 * 512 ≤ (i 1 : Nat)
      ∧ (i 1 : Nat) < win0_3.index ⟨4 * ((i 1).val / 512) + 3, ht⟩ 1 * 512 + 512
    rw [(idx_facts ⟨4 * ((i 1).val / 512) + 3, ht⟩).2.2.2.1.2]
    show (4 * ((i 1).val / 512) + 3) / 4 * 512 ≤ (i 1 : Nat) ∧ (i 1 : Nat) < (4 * ((i 1).val / 512) + 3) / 4 * 512 + 512
    omega

/-- THE OUTPUT ARRAY after the last point is the hidden layer of the input, the weights and the bias row. -/
theorem hidden_final (V : (c : Dev nD) → (b : Ref sig .tc) → Buf (Elt Ideal) ((c : Thread nD τ).loc b)) (c : Dev nD) :
    (Cert.KernelIdeal.Frm.dat0 (F := Ideal) V c).arrAt 3 cfg0.N
      = Cert.MlpSpec.hidden (V c main_v30) (V c main_arg2) (fun g => V c main_v31 (ValueIdx.ix2 (0 : Fin 1) (g 0))) :=
  (dat0 V c).arrAt_eq_of_cover 3 (hiddenOf V c) (flushed_eq V c) (covered c)

end Cert.KernelIdeal.Frm1Value

end
-- ==== Proof.Mlp2Pieces.lean ====
/-
  What the second kernel's body leaves in the accumulator and in the output block, case by case, as the body's
  arithmetic applied to what it loaded: at k = 0 the zero block plus the product of the hidden layer's block with
  the weights' tile; at k = 1, 2, 3 the accumulator plus that product; and at k = 3 the output block at that new
  accumulator plus the bias row. Every store overwrites its whole buffer, so what a buffer holds after the body is
  its last store's payload, and a load of a buffer just stored reads that payload back.
-/
import proofs.«179280_j42734924595240_2_alg».proof.Proof.Mlp2Points
import Idealize.ShloMosaic.Lib.Pipeline.Value
import Idealize.ShloMosaic.Lib.Tactic

set_option maxRecDepth 16384

noncomputable section

namespace Cert.KernelIdeal.Frm2Value

open Idealize.ShloMosaic Idealize.ShloMosaic.TcCoe Idealize.ShloMosaic.Tactic
open Idealize.SL Idealize.SL.Sem
open Idealize.ShloMosaic.Pipeline (Dat)
open Cert.KernelIdeal Cert.KernelIdeal.Gen Cert.KernelIdeal.Frm

variable {F : FTy → Type} [FloatOps F]

/-- The zero offsets of a whole-buffer access. -/
theorem hz : (![0, 0] : Fin 2 → Nat) = fun _ => 0 := funext fun a => by fin_cases a <;> rfl

/-- At k = 1, 2 the accumulator is left at itself plus the product of the block with the weights' tile. -/
theorem soutB_eq (c : Dev nD) (i : grid1.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : ¬cond1_1 i)
    (x0 : Vec F S1024x2048 .f32) (x1 : Vec F S512x2048 .f32) (x2 : Vec F S1x512 .f32) (xs0 : Vec F S1024x512 .f32) :
    sout1_B c i arg2 harg2 arg3 harg3 arg4 harg4 arg5 harg5 arg6 harg6 hc0 hc1 x0 x1 x2 xs0 = k1_pay2 x0 x1 xs0 := by
  unfold sout1_B
  rw [View.read_writes_eq_canon _ _ _ (scover1_B c i arg2 harg2 arg3 harg3 arg4 harg4 arg5 harg5 arg6 harg6 hc0 hc1 x0 x1 x2 xs0)]
  unfold kernelRun1_B
  dsimp only
  rw [View.canon_unit_zero hz]
  simp only [View.readAt_eq_ld, harg2.read_unread, harg3.read_unread, harg6.read_unread, View.ld_unit_zero (S := S1024x2048) hz, View.ld_unit_zero (S := S512x2048) hz, View.ld_unit_zero (S := S1024x512) hz]

/-- At k = 0 the accumulator is first zeroed, then left at the zero block plus the product of the first block. -/
theorem soutA_eq (c : Dev nD) (i : grid1.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond1_0 i) (hc1 : ¬cond1_1 i)
    (x0 : Vec F S1024x2048 .f32) (x1 : Vec F S512x2048 .f32) (x2 : Vec F S1x512 .f32) :
    sout1_A c i arg2 harg2 arg3 harg3 arg4 harg4 arg5 harg5 arg6 harg6 hc0 hc1 x0 x1 x2 = k1_pay2 x0 x1 (k1_pay1 (F := F)) := by
  unfold sout1_A
  rw [View.read_writes_eq_canon _ _ _ (scover1_A c i arg2 harg2 arg3 harg3 arg4 harg4 arg5 harg5 arg6 harg6 hc0 hc1 x0 x1 x2)]
  unfold kernelRun1_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x2048) hz, View.ld_unit_zero (S := S512x2048) hz]

/-- At k = 3 the accumulator is left at itself plus the product of the last block … -/
theorem soutC_eq (c : Dev nD) (i : grid1.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : cond1_1 i)
    (x0 : Vec F S1024x2048 .f32) (x1 : Vec F S512x2048 .f32) (x2 : Vec F S1x512 .f32) (xs0 : Vec F S1024x512 .f32) :
    sout1_C c i arg2 harg2 arg3 harg3 arg4 harg4 arg5 harg5 arg6 harg6 hc0 hc1 x0 x1 x2 xs0 = k1_pay2 x0 x1 xs0 := by
  unfold sout1_C
  rw [View.read_writes_eq_canon _ _ _ (scover1_C c i arg2 harg2 arg3 harg3 arg4 harg4 arg5 harg5 arg6 harg6 hc0 hc1 x0 x1 x2 xs0)]
  unfold kernelRun1_C
  dsimp only
  sl_unfold_words
  rw [View.canon_unit_zero (S := S1024x512) hz]
  simp only [View.readAt_eq_ld, harg2.read_unread, harg3.read_unread, harg6.read_unread, View.ld_unit_zero (S := S1024x2048) hz, View.ld_unit_zero (S := S512x2048) hz, View.ld_unit_zero (S := S1024x512) hz]

/-- … and the output block at that new accumulator plus the bias row. -/
theorem outC_eq (c : Dev nD) (i : grid1.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : cond1_1 i)
    (x0 : Vec F S1024x2048 .f32) (x1 : Vec F S512x2048 .f32) (x2 : Vec F S1x512 .f32) (xs0 : Vec F S1024x512 .f32) :
    out1_C c i arg2 harg2 arg3 harg3 arg4 harg4 arg5 harg5 arg6 harg6 hc0 hc1 x0 x1 x2 xs0 = k1_pay3 (k1_pay2 x0 x1 xs0) x2 := by
  unfold out1_C
  rw [View.read_writes_eq_canon _ _ _ (cover1_C c i arg2 harg2 arg3 harg3 arg4 harg4 arg5 harg5 arg6 harg6 hc0 hc1 x0 x1 x2 xs0)]
  unfold kernelRun1_C
  dsimp only
  sl_unfold_words
  rw [View.canon_unit_zero (S := S1024x512) hz, View.readCov_unit_zero (S := S1024x512) _ hz]
  simp only [View.readAt_eq_ld, harg2.read_unread, harg3.read_unread, harg4.read_unread, harg6.read_unread, View.ld_unit_zero (S := S1024x2048) hz, View.ld_unit_zero (S := S512x2048) hz, View.ld_unit_zero (S := S1024x512) hz, View.ld_unit_zero (S := S1x512) hz]

end Cert.KernelIdeal.Frm2Value

end
-- ==== Proof.Mlp2Blocks.lean ====
/-
  Where the second kernel's blocks sit in their arrays. The grid is 8 × 4, point t = 4·n + k. The hidden layer's
  block is all 1024 rows and columns 2048·k … 2048·k + 2047; the weights' block is rows 512·n … 512·n + 511 and
  the same columns of the weights; the bias row's block is columns 512·n … of the row, and the output's block the
  same columns of the output. An element of a block sits in the array, on each axis, at the block's index times the
  block's size plus its own coordinate; the indices are decided once over the 32 points.
-/
import proofs.«179280_j42734924595240_2_alg».proof.Proof.Mlp2Pieces
import Idealize.ShloMosaic.Lib.ValueIdx

set_option maxRecDepth 16384

noncomputable section

namespace Cert.KernelIdeal.Frm2Value

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Frm

variable {F : FTy → Type} [FloatOps F]
variable (V : (c : Dev nD) → (b : Ref sig .tc) → Buf (Elt F) ((c : Thread nD τ).loc b))

/-- Where the blocks sit at point t = 4·n + k of the 8 × 4 grid: the hidden layer's is block (0, k); the weights'
    is block (n, k); the bias row's and the output's are block (0, n). -/
theorem idx_facts : ∀ t : Fin cfg1.N,
    (win1_0.index t (0 : Fin 2) = 0 ∧ win1_0.index t (1 : Fin 2) = t.val % 4) ∧
    (win1_1.index t (0 : Fin 2) = t.val / 4 ∧ win1_1.index t (1 : Fin 2) = t.val % 4) ∧
    (win1_2.index t (0 : Fin 2) = 0 ∧ win1_2.index t (1 : Fin 2) = t.val / 4) ∧
    (win1_3.index t (0 : Fin 2) = 0 ∧ win1_3.index t (1 : Fin 2) = t.val / 4) :=
  (by decide +kernel : ∀ t : Fin grid1.N,
    (win1_0.index t (0 : Fin 2) = 0 ∧ win1_0.index t (1 : Fin 2) = t.val % 4) ∧
    (win1_1.index t (0 : Fin 2) = t.val / 4 ∧ win1_1.index t (1 : Fin 2) = t.val % 4) ∧
    (win1_2.index t (0 : Fin 2) = 0 ∧ win1_2.index t (1 : Fin 2) = t.val / 4) ∧
    (win1_3.index t (0 : Fin 2) = 0 ∧ win1_3.index t (1 : Fin 2) = t.val / 4))

/-- The hidden layer's block at point 4·n + k is its columns 2048·k …. -/
theorem iblk_h_apply (c : Dev nD) (t : Fin cfg1.N) (r : Fin 1024) (j : Fin 2048) (f : Fin 8192)
    (hf : f.val = 2048 * (t.val % 4) + j.val) :
    (iblk1 V c 0 t : Vec F S1024x2048 .f32) (ix2 r j) = (V c main_v33 : S1024x8192.Idx → Elt F .f32) (ix2 r f) := by
  unfold iblk1
  rw [View.read_apply]
  show V c main_v33 _ = V c main_v33 _
  congr 1
  funext a
  apply Fin.ext
  match a with
  | ⟨0, _⟩ => show win1_0.index t 0 * 1024 + 1 * r.val = r.val; rw [(idx_facts t).1.1]; omega
  | ⟨1, _⟩ => show win1_0.index t 1 * 2048 + 1 * j.val = f.val; rw [(idx_facts t).1.2, hf]; omega

/-- The weights' block at point 4·n + k is rows 512·n …, columns 2048·k … of the weights. -/
theorem iblk_w_apply (c : Dev nD) (t : Fin cfg1.N) (q : Fin 512) (j : Fin 2048) (v : Fin 4096) (f : Fin 8192)
    (hv : v.val = 512 * (t.val / 4) + q.val) (hf : f.val = 2048 * (t.val % 4) + j.val) :
    (iblk1 V c 1 t : Vec F S512x2048 .f32) (ix2 q j) = (V c main_arg4 : S4096x8192.Idx → Elt F .f32) (ix2 v f) := by
  unfold iblk1
  rw [View.read_apply]
  show V c main_arg4 _ = V c main_arg4 _
  congr 1
  funext a
  apply Fin.ext
  match a with
  | ⟨0, _⟩ => show win1_1.index t 0 * 512 + 1 * q.val = v.val; rw [(idx_facts t).2.1.1, hv]; omega
  | ⟨1, _⟩ => show win1_1.index t 1 * 2048 + 1 * j.val = f.val; rw [(idx_facts t).2.1.2, hf]; omega

/-- The bias row's block at point 4·n + k is columns 512·n … of the row. -/
theorem iblk_b_apply (c : Dev nD) (t : Fin cfg1.N) (q : Fin 512) (v : Fin 4096)
    (hv : v.val = 512 * (t.val / 4) + q.val) :
    (iblk1 V c 2 t : Vec F S1x512 .f32) (ix2 (0 : Fin 1) q) = (V c main_v32 : S1x4096.Idx → Elt F .f32) (ix2 (0 : Fin 1) v) := by
  unfold iblk1
  rw [View.read_apply]
  show V c main_v32 _ = V c main_v32 _
  congr 1
  funext a
  apply Fin.ext
  match a with
  | ⟨0, _⟩ => show win1_2.index t 0 * 1 + 1 * 0 = 0; rw [(idx_facts t).2.2.1.1]
  | ⟨1, _⟩ => show win1_2.index t 1 * 512 + 1 * q.val = v.val; rw [(idx_facts t).2.2.1.2, hv]; omega

end Cert.KernelIdeal.Frm2Value

end
-- ==== Proof.Mlp2Acc.lean ====
/-
  The second kernel's accumulator in closed form, at the ideal values. Fix a row r of the hidden layer H and a row v
  of the weights W. Their dot product over 8192 columns is cut into four blocks of 2048 columns,
  Q_k = Σ_{j < 2048} H(r, 2048·k + j) · W(v, 2048·k + j). At point t = 4·n + k the body adds, at entry (r, q) of the
  accumulator, the block Q_k of the rows r and v = 512·n + q — onto zero at k = 0, onto what the point before left at
  k = 1, 2, 3 —, so after point t the accumulator holds ((0 + Q₀) + … ) + Q_k, by induction on the point; and the four
  blocks added in this order are the whole dot product, since addition of extended reals is associative.
-/
import proofs.«179280_j42734924595240_2_alg».proof.Proof.Mlp2Blocks
import proofs.«179280_j42734924595240_2_alg».proof.Proof.Payload
import proofs.«179280_j42734924595240_2_alg».proof.Proof.BlockSum
import Idealize.ShloMosaic.Lib.ValueIdx

set_option maxRecDepth 16384

noncomputable section

open scoped BigOperators

namespace Cert.KernelIdeal.Frm2Value

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Frm

variable (V : (c : Dev nD) → (b : Ref sig .tc) → Buf (Elt Ideal) ((c : Thread nD τ).loc b))

/-! ## The partial dot products -/

/-- Column 2048·k + j of an array with 8192 columns (the reduction modulo 8192 is idle for k < 4: it makes the column
    a function of every k). -/
def col (k : ℕ) (j : Fin 2048) : Fin 8192 := ⟨(2048 * k + j.val) % 8192, Nat.mod_lt _ (by norm_num)⟩

theorem col_val (k : ℕ) (hk : k < 4) (j : Fin 2048) : (col k j).val = 2048 * k + j.val := by
  show (2048 * k + j.val) % 8192 = _
  have := j.isLt
  omega

/-- The k-th block of the dot product of row r of X with row g of W: Σ_{j < 2048} X(r, 2048k + j) · W(g, 2048k + j). -/
def blockDot (X : (⟨2, ![1024, 8192]⟩ : Shape).Idx → EReal) (W : (⟨2, ![4096, 8192]⟩ : Shape).Idx → EReal)
    (r : Fin 1024) (g : Fin 4096) (k : ℕ) : EReal :=
  ∑ j : Fin 2048, X (ix2 r (col k j)) * W (ix2 g (col k j))

/-- The blocks 0 … k added in order onto zero: ((0 + Q₀) + Q₁) + … + Q_k. -/
def accSpec (X : (⟨2, ![1024, 8192]⟩ : Shape).Idx → EReal) (W : (⟨2, ![4096, 8192]⟩ : Shape).Idx → EReal)
    (r : Fin 1024) (g : Fin 4096) : ℕ → EReal
  | 0 => 0 + blockDot X W r g 0
  | k + 1 => accSpec X W r g k + blockDot X W r g (k + 1)

theorem accSpec_zero (X : (⟨2, ![1024, 8192]⟩ : Shape).Idx → EReal) (W : (⟨2, ![4096, 8192]⟩ : Shape).Idx → EReal)
    (r : Fin 1024) (g : Fin 4096) : accSpec X W r g 0 = 0 + blockDot X W r g 0 := rfl
theorem accSpec_succ (X : (⟨2, ![1024, 8192]⟩ : Shape).Idx → EReal) (W : (⟨2, ![4096, 8192]⟩ : Shape).Idx → EReal)
    (r : Fin 1024) (g : Fin 4096) (k : ℕ) : accSpec X W r g (k + 1) = accSpec X W r g k + blockDot X W r g (k + 1) := rfl

/-- The four blocks added in order are the whole dot product. -/
theorem accSpec_three (X : (⟨2, ![1024, 8192]⟩ : Shape).Idx → EReal) (W : (⟨2, ![4096, 8192]⟩ : Shape).Idx → EReal)
    (r : Fin 1024) (g : Fin 4096) : accSpec X W r g 3 = ∑ f : Fin 8192, X (ix2 r f) * W (ix2 g f) := by
  have e0 : ∀ j : Fin 2048, col 0 j = ⟨j.val, by omega⟩ := fun j => Fin.ext ((col_val 0 (by norm_num) j).trans (by show 2048 * 0 + j.val = j.val; omega))
  have e1 : ∀ j : Fin 2048, col 1 j = ⟨2048 + j.val, by omega⟩ := fun j => Fin.ext ((col_val 1 (by norm_num) j).trans (by show 2048 * 1 + j.val = 2048 + j.val; omega))
  have e2 : ∀ j : Fin 2048, col 2 j = ⟨4096 + j.val, by omega⟩ := fun j => Fin.ext ((col_val 2 (by norm_num) j).trans (by show 2048 * 2 + j.val = 4096 + j.val; omega))
  have e3 : ∀ j : Fin 2048, col 3 j = ⟨6144 + j.val, by omega⟩ := fun j => Fin.ext ((col_val 3 (by norm_num) j).trans (by show 2048 * 3 + j.val = 6144 + j.val; omega))
  rw [Cert.BlockSum.sum_four_blocks (fun f => X (ix2 r f) * W (ix2 g f))]
  show (((0 + blockDot X W r g 0) + blockDot X W r g 1) + blockDot X W r g 2) + blockDot X W r g 3 = _
  unfold blockDot
  simp only [e0, e1, e2, e3]

/-! ## The accumulator, point by point -/

/-- One accumulation step at point t = 4·n + k, at entry (r, q) of the block: the accumulator's entry plus the k-th
    block of the dot product of row r of the hidden layer with row 512·n + q of the weights. -/
theorem pay2_at (c : Dev nD) (t : Fin cfg1.N) (acc : Vec Ideal S1024x512 .f32) (r : Fin 1024) (q : Fin 512) (g : Fin 4096)
    (hg : g.val = 512 * (t.val / 4) + q.val) :
    k1_pay2 (iblk1 V c 0 t) (iblk1 V c 1 t) acc (ix2 r q)
      = acc (ix2 r q) + blockDot (V c main_v33) (V c main_arg4) r g (t.val % 4) := by
  refine (PayloadAt.k1_pay2_apply (iblk1 V c 0 t) (iblk1 V c 1 t) acc r q).trans ?_
  refine congrArg (acc (ix2 r q) + ·) (Finset.sum_congr rfl fun j _ => ?_)
  have hf : (col (t.val % 4) j).val = 2048 * (t.val % 4) + j.val := col_val (t.val % 4) (Nat.mod_lt _ (by norm_num)) j
  exact congrArg₂ (· * ·)
    (iblk_h_apply V c t r j (col (t.val % 4) j) hf)
    (iblk_w_apply V c t q j g (col (t.val % 4) j) hg hf)

/-- After a point with k = 0: the zero block plus the first block of the dot product. -/
theorem acc_first (c : Dev nD) (t : Fin cfg1.N) (h0 : t.val % 4 = 0) (r : Fin 1024) (q : Fin 512) (g : Fin 4096)
    (hg : g.val = 512 * (t.val / 4) + q.val) :
    accAt1 V c t.val t.isLt (ix2 r q) = accSpec (V c main_v33) (V c main_arg4) r g (t.val % 4) := by
  refine (congrFun (accAt1_A V c t h0) (ix2 r q)).trans ?_
  refine (congrFun (soutA_eq c (grid1.coords t) (ms1_0 t) (hs1_0 t) (ms1_1 t) (hs1_1 t) (ms1_2 t) (hs1_2 t) (ms1_3 t) (hs1_3 t)
    scM1 (Memref.isWhole_whole _) ((hcond1_0 t).mpr h0) (fun h => not3_of_0' h0 ((hcond1_1 t).mp h))
    (iblk1 V c 0 t) (iblk1 V c 1 t) (iblk1 V c 2 t)) (ix2 r q)).trans ?_
  refine (pay2_at V c t (k1_pay1 (F := Ideal)) r q g hg).trans ?_
  rw [h0, accSpec_zero, PayloadAt.k1_pay1_apply]

/-- After a point with k = 1, 2, 3: what the point before left plus the k-th block of the dot product. -/
theorem acc_next (c : Dev nD) (t : Fin cfg1.N) (h0 : ¬t.val % 4 = 0) (r : Fin 1024) (q : Fin 512) (g : Fin 4096)
    (hg : g.val = 512 * (t.val / 4) + q.val)
    (ih : accAt1 V c (t.val - 1) (Nat.lt_of_le_of_lt (Nat.sub_le _ _) t.isLt) (ix2 r q)
      = accSpec (V c main_v33) (V c main_arg4) r g ((t.val - 1) % 4)) :
    accAt1 V c t.val t.isLt (ix2 r q) = accSpec (V c main_v33) (V c main_arg4) r g (t.val % 4) := by
  have e : t.val % 4 = (t.val - 1) % 4 + 1 := by omega
  have step : accAt1 V c t.val t.isLt (ix2 r q)
      = k1_pay2 (iblk1 V c 0 t) (iblk1 V c 1 t)
          (accAt1 V c (t.val - 1) (Nat.lt_of_le_of_lt (Nat.sub_le _ _) t.isLt)) (ix2 r q) := by
    by_cases h1 : t.val % 4 = 3
    · refine (congrFun (accAt1_C V c t h0 h1) (ix2 r q)).trans ?_
      exact congrFun (soutC_eq c (grid1.coords t) (ms1_0 t) (hs1_0 t) (ms1_1 t) (hs1_1 t) (ms1_2 t) (hs1_2 t) (ms1_3 t) (hs1_3 t)
        scM1 (Memref.isWhole_whole _) (fun h => h0 ((hcond1_0 t).mp h)) ((hcond1_1 t).mpr h1)
        (iblk1 V c 0 t) (iblk1 V c 1 t) (iblk1 V c 2 t) (accAt1 V c (t.val - 1) (Nat.lt_of_le_of_lt (Nat.sub_le _ _) t.isLt))) (ix2 r q)
    · refine (congrFun (accAt1_B V c t h0 h1) (ix2 r q)).trans ?_
      exact congrFun (soutB_eq c (grid1.coords t) (ms1_0 t) (hs1_0 t) (ms1_1 t) (hs1_1 t) (ms1_2 t) (hs1_2 t) (ms1_3 t) (hs1_3 t)
        scM1 (Memref.isWhole_whole _) (fun h => h0 ((hcond1_0 t).mp h)) (fun h => h1 ((hcond1_1 t).mp h))
        (iblk1 V c 0 t) (iblk1 V c 1 t) (iblk1 V c 2 t) (accAt1 V c (t.val - 1) (Nat.lt_of_le_of_lt (Nat.sub_le _ _) t.isLt))) (ix2 r q)
  refine step.trans ?_
  refine (pay2_at V c t (accAt1 V c (t.val - 1) (Nat.lt_of_le_of_lt (Nat.sub_le _ _) t.isLt)) r q g hg).trans ?_
  rw [ih, e]
  exact (accSpec_succ (V c main_v33) (V c main_arg4) r g ((t.val - 1) % 4)).symm

/-- THE ACCUMULATOR after point t = 4·n + k, at entry (r, q): the blocks 0 … k of the dot product of row r of the hidden layer
    with row 512·n + q of the weights, added in order onto zero — by induction on the point. -/
theorem acc_eq (c : Dev nD) : ∀ (n : ℕ) (hn : n < cfg1.N) (r : Fin 1024) (q : Fin 512) (g : Fin 4096),
    g.val = 512 * (n / 4) + q.val →
    accAt1 V c n hn (ix2 r q) = accSpec (V c main_v33) (V c main_arg4) r g (n % 4)
  | 0, hn, r, q, g, hg => acc_first V c ⟨0, hn⟩ rfl r q g hg
  | n + 1, hn, r, q, g, hg => by
    by_cases h0 : (n + 1) % 4 = 0
    · exact acc_first V c ⟨n + 1, hn⟩ h0 r q g hg
    · exact acc_next V c ⟨n + 1, hn⟩ h0 r q g hg
        (acc_eq c n (Nat.lt_of_succ_lt hn) r q g (by omega))

end Cert.KernelIdeal.Frm2Value

end
-- ==== Proof.Mlp2Value.lean ====
/-
  The second kernel's output array after its 32 points is the output layer. At a point t = 4·n + 3 the body stores, at
  entry (r, q) of the output block, the new accumulator plus the bias: the accumulator there is the four blocks of the
  dot product of row r of the hidden layer with row v = 512·n + q of the weights added in order, that is the whole
  dot product, and the bias block's entry q is entry v of the bias row — so the stored entry is entry (r, v) of the
  output layer. The output's block at that point is columns 512·n … 512·n + 511 of the output, it is written back
  exactly at the points with k = 3, and the 8 blocks cover the 4096 columns: column v lies in the block of n = v / 512.
-/
import proofs.«179280_j42734924595240_2_alg».proof.Proof.Mlp2Acc
import proofs.«179280_j42734924595240_2_alg».proof.Proof.Spec
import Idealize.ShloMosaic.Lib.Pipeline.Value

set_option maxRecDepth 16384

noncomputable section

open scoped BigOperators

namespace Cert.KernelIdeal.Frm2Value

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Frm

variable (V : (c : Dev nD) → (b : Ref sig .tc) → Buf (Elt Ideal) ((c : Thread nD τ).loc b))

/-- The output layer of the arrays the region finds: the hidden layer H, the weights W2, the bias row read as a vector. -/
abbrev logitsOf (c : Dev nD) : (⟨2, ![1024, 4096]⟩ : Shape).Idx → EReal :=
  Cert.MlpSpec.logits (V c main_v33) (V c main_arg4) (fun g => V c main_v32 (ix2 (0 : Fin 1) (g 0)))

/-- An array with the output's shape read through the output's block at point 4·n + k: columns 512·n …. -/
theorem read_out_blk (G : (⟨2, ![1024, 4096]⟩ : Shape).Idx → EReal) (t : Fin cfg1.N) (r : Fin 1024) (q : Fin 512) (g : Fin 4096)
    (hg : g.val = 512 * (t.val / 4) + q.val) :
    (((cfg1.win 3).blk t).view.read (Elt Ideal) G : S1024x512.Idx → EReal) (ix2 r q) = G (ix2 r g) := by
  rw [View.read_apply]
  show G _ = G _
  congr 1
  funext a
  apply Fin.ext
  match a with
  | ⟨0, _⟩ => show win1_3.index t 0 * 1024 + 1 * r.val = r.val; rw [(idx_facts t).2.2.2.1]; omega
  | ⟨1, _⟩ => show win1_3.index t 1 * 512 + 1 * q.val = g.val; rw [(idx_facts t).2.2.2.2, hg]; omega

/-- What the body stores into the output block at a point with k = 3, at entry (r, q): entry (r, 512·n + q) of the
    output layer. -/
theorem out_at (c : Dev nD) (t : Fin cfg1.N) (h3 : t.val % 4 = 3) (r : Fin 1024) (q : Fin 512) (g : Fin 4096)
    (hg : g.val = 512 * (t.val / 4) + q.val) :
    outAt1 V c t (ix2 r q) = logitsOf V c (ix2 r g) := by
  have h0 : ¬t.val % 4 = 0 := ne0_of_3' h3
  refine (congrFun (outAt1_C V c t h3) (ix2 r q)).trans ?_
  refine (congrFun (outC_eq c (grid1.coords t) (ms1_0 t) (hs1_0 t) (ms1_1 t) (hs1_1 t) (ms1_2 t) (hs1_2 t) (ms1_3 t) (hs1_3 t)
    scM1 (Memref.isWhole_whole _) (fun h => ne0_of_3' h3 ((hcond1_0 t).mp h)) ((hcond1_1 t).mpr h3)
    (iblk1 V c 0 t) (iblk1 V c 1 t) (iblk1 V c 2 t) (accAt1 V c (t.val - 1) (Nat.lt_of_le_of_lt (Nat.sub_le _ _) t.isLt))) (ix2 r q)).trans ?_
  refine (PayloadAt.k1_pay3_apply
    (k1_pay2 (iblk1 V c 0 t) (iblk1 V c 1 t) (accAt1 V c (t.val - 1) (Nat.lt_of_le_of_lt (Nat.sub_le _ _) t.isLt)))
    (iblk1 V c 2 t) r q).trans ?_
  show _ = Cert.MlpSpec.logitAt (V c main_v33) (V c main_arg4) (fun g => V c main_v32 (ix2 (0 : Fin 1) (g 0))) r g
  unfold Cert.MlpSpec.logitAt
  refine congrArg₂ (· + ·) ?_ (iblk_b_apply V c t q g hg)
  refine (pay2_at V c t (accAt1 V c (t.val - 1) (Nat.lt_of_le_of_lt (Nat.sub_le _ _) t.isLt)) r q g hg).trans ?_
  rw [acc_eq V c (t.val - 1) (Nat.lt_of_le_of_lt (Nat.sub_le _ _) t.isLt) r q g (by omega),
    show (t.val - 1) % 4 = 2 from by omega, h3]
  exact accSpec_three (V c main_v33) (V c main_arg4) r g

/-- What a point with k = 3 writes back is its block of the output layer. -/
theorem flushed_eq (c : Dev nD) (t : Fin cfg1.N) (hf : (cfg1.win 3).flush t = true) :
    (dat1 V c).flushed 3 t = ((cfg1.win 3).blk t).view.read (Elt Ideal) (logitsOf V c) := by
  have h3 : t.val % 4 = 3 := (flush1_3 t).mp hf
  have hN : cfg1.N = 32 := N_1
  show (cfg1.win 3).cut (grid1.coords t) ((dat1 V c).after 3 t) = _
  rw [after1_3]
  funext y
  obtain ⟨r, q, rfl⟩ : ∃ (r : Fin 1024) (q : Fin 512), y = ix2 r q := ⟨y 0, y 1, eq_ix2 y⟩
  have ht : t.val < 32 := hN ▸ t.isLt
  have hg : (⟨512 * (t.val / 4) + q.val, by have := q.isLt; omega⟩ : Fin 4096).val = 512 * (t.val / 4) + q.val := rfl
  refine Eq.trans ?_ (read_out_blk (logitsOf V c) t r q _ hg).symm
  exact out_at V c t h3 r q _ hg

/-- Every entry (r, g) of the output lies in the block written back at point 4·(g / 512) + 3. -/
theorem covered (c : Dev nD) (i : ((cfg1.win 3).arr.view.loc (c.tc : Thread nD τ)).2.ty.Idx) :
    ∃ t : Fin cfg1.N, (cfg1.win 3).flush t = true ∧ i ∈ ((cfg1.win 3).blk t).view.set := by
  have hN : cfg1.N = 32 := N_1
  have h0 : (i 0 : Nat) < 1024 := (i 0).isLt
  have h1 : (i 1 : Nat) < 4096 := (i 1).isLt
  have ht : 4 * ((i 1).val / 512) + 3 < cfg1.N := by rw [hN]; omega
  refine ⟨⟨4 * ((i 1).val / 512) + 3, ht⟩, (flush1_3 _).mpr (by show (4 * ((i 1).val / 512) + 3) % 4 = 3; omega), ?_⟩
  show i ∈ ((View.whole main_v34).slice (win1_3.rect ⟨4 * ((i 1).val / 512) + 3, ht⟩)).set
  rw [View.set_slice_whole, Rect.mem_set_unit]
  intro a
  match a with
  | ⟨0, _⟩ =>
    show win1_3.index ⟨4 * ((i 1).val / 512) + 3, ht⟩ 0 * 1024 ≤ (i 0 : Nat)
      ∧ (i 0 : Nat) < win1_3.index ⟨4 * ((i 1).val / 512) + 3, ht⟩ 0 * 1024 + 1024
    rw [(idx_facts ⟨4 * ((i 1).val / 512) + 3, ht⟩).2.2.2.1]; omega
  | ⟨1, _⟩ =>
    show win1_3.index ⟨4 * ((i 1).val / 512) + 3, ht⟩ 1 * 512 ≤ (i 1 : Nat)
      ∧ (i 1 : Nat) < win1_3.index ⟨4 * ((i 1).val / 512) + 3, ht⟩ 1 * 512 + 512
    rw [(idx_facts ⟨4 * ((i 1).val / 512) + 3, ht⟩).2.2.2.2]
    show (4 * ((i 1).val / 512) + 3) / 4 * 512 ≤ (i 1 : Nat) ∧ (i 1 : Nat) < (4 * ((i 1).val / 512) + 3) / 4 * 512 + 512
    omega

/-- THE OUTPUT ARRAY after the last point is the output layer of the hidden layer, the weights and the bias row. -/
theorem logits_final (V : (c : Dev nD) → (b : Ref sig .tc) → Buf (Elt Ideal) ((c : Thread nD τ).loc b)) (c : Dev nD) :
    (Cert.KernelIdeal.Frm.dat1 (F := Ideal) V c).arrAt 3 cfg1.N
      = Cert.MlpSpec.logits (V c main_v33) (V c main_arg4) (fun g => V c main_v32 (ValueIdx.ix2 (0 : Fin 1) (g 0))) :=
  (dat1 V c).arrAt_eq_of_cover 3 (logitsOf V c) (flushed_eq V c) (covered c)

end Cert.KernelIdeal.Frm2Value

end
-- ==== Proof.PrefixStretches.lean ====
/-
  The host operations the program runs before its first kernel, stretch by stretch, over ANY contents of the
  buffers they start from. The program embeds the tokens (a gather from the embedding table), changes the format
  of the result to bf16, builds for each (time, slot) pair the source position slot − 127 + time, its clamp to
  [0, 127] and the mask "source position ≥ 0", gathers the window of embedded tokens at the clamped positions,
  puts zero where the mask fails, and reshapes the 8 × 128 × 128 × 64 result twice, to 8 × 128 × 8192 and to
  1024 × 8192; the two biases are reshaped to rows. These are the reference program's operations in the
  reference's order, so each stretch's result is stated as the reference's value of the same operation, given
  that the buffers the stretch reads hold the reference's values. Two points are not syntactic: on extended reals
  a change of format is the identity, and the bf16 zero and the binary32 zero both denote 0. The gathers are never
  opened: both programs apply the same gather to the same operands.
-/
import proofs.«179280_j42734924595240_2_alg».proof.Proof.Gen.KernelIdeal.Regions
import proofs.«179280_j42734924595240_2_alg».proof.Proof.Gen.ReferenceIdeal.Read
import proofs.«179280_j42734924595240_2_alg».proof.Proof.Spec
import Idealize.ShloMosaic.Lib.StableHlo.Run
import Idealize.ShloMosaic.Lib.Pipeline.Value
import Idealize.ShloMosaic.Lib.ValueIdx
import Idealize.ShloMosaic.Lib.IdealHost

noncomputable section

namespace Cert.PrefixSide

open Idealize.ShloMosaic Idealize.ShloMosaic.TcCoe Idealize.ShloMosaic.StableHlo Cert.KernelIdeal Cert.KernelIdeal.Gen
open Cert.ReferenceIdeal.Read (val_main_v6 val_main_v15 val_main_v17 val_main_c_3 val_main_c_4 val_main_v18 val_main_v25 val_main_v26 val_main_cst val_main_v27)

variable (W : Valuation τ sig (Elt Ideal))

/-- The clamp of the source positions to [0, 127] (the called function's six operations), given the two bounds
    and the positions it is applied to. -/
theorem clip_stretch
    (h3 : (W (Proc.devRef .tc main_c_3) : S_.Idx → BitVec 32) = val_main_c_3 (F := Ideal))
    (h4 : (W (Proc.devRef .tc main_c_4) : S_.Idx → BitVec 32) = val_main_c_4 (F := Ideal))
    (h16 : (W (Proc.devRef .tc main_v16) : S128x128.Idx → BitVec 32) = val_main_v15 (F := Ideal)) :
    (after hostOps0_1 W (Proc.devRef .tc main_v19) : S128x128.Idx → BitVec 32) = val_main_v18 (F := Ideal) := by
  after_results
  show minsi (broadcastInDim S128x128 ![] bcast_S_S128x128 (id (W (Proc.devRef .tc main_c_4))))
      (maxsi (broadcastInDim S128x128 ![] bcast_S_S128x128 (id (W (Proc.devRef .tc main_c_3)))) (W (Proc.devRef .tc main_v16))) = _
  rw [h3, h4, h16]
  rfl

/-- The select of the called function: the gathered window where the mask holds, the zero elsewhere. -/
theorem where_stretch (x0 : (⟨Cert.ReferenceIdeal.S8x128, .i32⟩ : BufTy).Contents (Elt Ideal)) (x1 : (⟨Cert.ReferenceIdeal.S4096x64, .f32⟩ : BufTy).Contents (Elt Ideal))
    (h26 : (W (Proc.devRef .tc main_v26) : S8x128x128x64.Idx → EReal) = val_main_v25 (F := Ideal) x0 x1)
    (h27 : (W (Proc.devRef .tc main_v27) : S1x128x128x1.Idx → BitVec 1) = val_main_v26 (F := Ideal))
    (hc : (W (Proc.devRef .tc main_cst) : S_.Idx → EReal) = val_main_cst (F := Ideal)) :
    (after hostOps0_3 W (Proc.devRef .tc main_v28) : S8x128x128x64.Idx → EReal) = val_main_v27 (F := Ideal) x0 x1 := by
  after_results
  show select (broadcastInDim S8x128x128x64 ![0, 1, 2, 3] bcast_S1x128x128x1_S8x128x128x64_0_1_2_3 (W (Proc.devRef .tc main_v27)))
      (W (Proc.devRef .tc main_v26)) (broadcastInDim S8x128x128x64 ![] bcast_S_S8x128x128x64 (W (Proc.devRef .tc main_cst))) = _
  rw [h26, h27, hc]
  rfl

/-- The two reshapes of the windowed embedding and the reshapes of the two biases. -/
theorem reshape_rows :
    (after hostOps0_4 W (Proc.devRef .tc main_v30) : S1024x8192.Idx → EReal)
      = shapeCast S1024x8192 (shapeCast S8x128x8192 (W (Proc.devRef .tc main_v28) : S8x128x128x64.Idx → EReal) shapeCasts_S8x128x128x64_S8x128x8192) shapeCasts_S8x128x8192_S1024x8192 := by
  after_results
  rfl
theorem reshape_bias1 :
    (after hostOps0_4 W (Proc.devRef .tc main_v31) : S1x8192.Idx → EReal)
      = shapeCast S1x8192 (W (Proc.devRef .tc main_arg3) : S8192.Idx → EReal) shapeCasts_S8192_S1x8192 := by
  after_results
  rfl
theorem reshape_bias2 :
    (after hostOps0_4 W (Proc.devRef .tc main_v32) : S1x4096.Idx → EReal)
      = shapeCast S1x4096 (W (Proc.devRef .tc main_arg5) : S4096.Idx → EReal) shapeCasts_S4096_S1x4096 := by
  after_results
  rfl

/-- The second gather's stretch: the window of each (time, slot) pair gathered from the embedded tokens at the
    clamped source positions, the mask's broadcast, and the zero (the bf16 zero and the binary32 zero are both
    the extended real 0). -/
theorem window_stretch (x0 : (⟨Cert.ReferenceIdeal.S8x128, .i32⟩ : BufTy).Contents (Elt Ideal)) (x1 : (⟨Cert.ReferenceIdeal.S4096x64, .f32⟩ : BufTy).Contents (Elt Ideal))
    (h7 : (W (Proc.devRef .tc main_v7) : S8x128x64.Idx → EReal) = val_main_v6 (F := Ideal) x0 x1)
    (h19 : (W (Proc.devRef .tc main_v19) : S128x128.Idx → BitVec 32) = val_main_v18 (F := Ideal)) :
    (after hostOps0_2 W (Proc.devRef .tc main_v26) : S8x128x128x64.Idx → EReal) = val_main_v25 (F := Ideal) x0 x1 := by
  after_results
  rw [h7, h19]
  rfl
theorem mask_stretch
    (h18 : (W (Proc.devRef .tc main_v18) : S128x128.Idx → BitVec 1) = val_main_v17 (F := Ideal)) :
    (after hostOps0_2 W (Proc.devRef .tc main_v27) : S1x128x128x1.Idx → BitVec 1) = val_main_v26 (F := Ideal) := by
  after_results
  rw [h18]
  rfl
theorem zero_stretch :
    (after hostOps0_2 W (Proc.devRef .tc main_cst) : S_.Idx → EReal) = val_main_cst (F := Ideal) := by
  after_results
  funext i
  show Ideal.ofBits .bf16 0x0000#16 = Ideal.ofBits .f32 0x00000000#32
  rw [Ideal.ofBits_zero_bf16, Ideal.ofBits_zero_f32]

/-- The first stretch: the embedded tokens (the first gather; its change of format to bf16 is the identity on
    extended reals), the source positions slot − 127 + time, the mask "source position ≥ 0", and the two clamp bounds. -/
theorem head_tokens :
    (after hostOps0 W (Proc.devRef .tc main_v7) : S8x128x64.Idx → EReal)
      = val_main_v6 (F := Ideal) (W (Proc.devRef .tc main_arg0)) (W (Proc.devRef .tc main_arg1)) := by
  after_results
  rfl
theorem head_positions :
    (after hostOps0 W (Proc.devRef .tc main_v16) : S128x128.Idx → BitVec 32) = val_main_v15 (F := Ideal) := by
  after_results
  rfl
theorem head_mask :
    (after hostOps0 W (Proc.devRef .tc main_v18) : S128x128.Idx → BitVec 1) = val_main_v17 (F := Ideal) := by
  after_results
  rfl
theorem head_lo :
    (after hostOps0 W (Proc.devRef .tc main_c_3) : S_.Idx → BitVec 32) = val_main_c_3 (F := Ideal) := by
  after_results
  rfl
theorem head_hi :
    (after hostOps0 W (Proc.devRef .tc main_c_4) : S_.Idx → BitVec 32) = val_main_c_4 (F := Ideal) := by
  after_results
  rfl
/-! ## The two reshapes are the specification's flattening -/

/-- Reshaping 8 × 128 × 128 × 64 to 8 × 128 × 8192 and then to 1024 × 8192, both row-major, reads entry (r, k) at
    batch r / 128, time r % 128, slot k / 64, lane k % 64: the specification's `rows`. -/
theorem rows_of_casts (sel : S8x128x128x64.Idx → EReal) :
    shapeCast S1024x8192 (shapeCast S8x128x8192 sel shapeCasts_S8x128x128x64_S8x128x8192) shapeCasts_S8x128x8192_S1024x8192
      = Cert.MlpSpec.rows sel := by
  funext i
  have h0 : (i 0).val < 1024 := (i 0).isLt
  have h1 : (i 1).val < 8192 := (i 1).isLt
  rw [shapeCast_apply _ shapeCasts_S8x128x8192_S1024x8192 i
    (ValueIdx.ix3 (⟨(i 0).val / 128, by omega⟩ : Fin 8) (⟨(i 0).val % 128, by omega⟩ : Fin 128) (⟨(i 1).val, h1⟩ : Fin 8192))
    (by rw [Shape.rowMajor_val_three, Shape.rowMajor_val_two]
        show ((i 0).val / 128 * 128 + (i 0).val % 128) * 8192 + (i 1).val = (i 0).val * 8192 + (i 1).val
        omega)]
  rw [shapeCast_apply _ shapeCasts_S8x128x128x64_S8x128x8192 _
    (ValueIdx.ix4 (⟨(i 0).val / 128, by omega⟩ : Fin 8) (⟨(i 0).val % 128, by omega⟩ : Fin 128)
      (⟨(i 1).val / 64, by omega⟩ : Fin 128) (⟨(i 1).val % 64, by omega⟩ : Fin 64))
    (by rw [Shape.rowMajor_val_four, Shape.rowMajor_val_three]
        show (((i 0).val / 128 * 128 + (i 0).val % 128) * 128 + (i 1).val / 64) * 64 + (i 1).val % 64
          = ((i 0).val / 128 * 128 + (i 0).val % 128) * 8192 + (i 1).val
        omega)]
  rfl

end Cert.PrefixSide

end
-- ==== Proof.Prefix.lean ====
/-
  What the buffers hold when the first kernel is entered, and the reshape after the second.
  Running the stretches in order from the launch memory — each stretch's results feeding the next, a buffer no
  stretch writes keeping its contents — the windowed embedding the program builds on the host is the reference's,
  as whole arrays; its two row-major reshapes are the specification's flattening (row 128·b + t, feature 64·p + e
  is entry (b, t, p, e)); each bias reaches its kernel as a row whose entry (0, g) is the bias at g; and the final
  reshape 1024 × 4096 → 8 × 128 × 4096 reads entry (b, t, v) at row 128·b + t, column v.
-/
import proofs.«179280_j42734924595240_2_alg».proof.Proof.Gen.KernelIdeal.Regions
import proofs.«179280_j42734924595240_2_alg».proof.Proof.Gen.ReferenceIdeal.Read
import proofs.«179280_j42734924595240_2_alg».proof.Proof.Spec
import proofs.«179280_j42734924595240_2_alg».proof.Proof.PrefixStretches
import Idealize.ShloMosaic.Lib.StableHlo.Run
import Idealize.ShloMosaic.Lib.Pipeline.Value
import Idealize.ShloMosaic.Lib.ValueIdx
import Idealize.ShloMosaic.Lib.IdealHost

noncomputable section

namespace Cert.PrefixSide

open Idealize.ShloMosaic Idealize.ShloMosaic.TcCoe Idealize.ShloMosaic.StableHlo Cert.KernelIdeal Cert.KernelIdeal.Gen
open Cert.ReferenceIdeal.Read (val_main_v6 val_main_v15 val_main_v17 val_main_c_3 val_main_c_4 val_main_v18 val_main_v25 val_main_v26 val_main_cst val_main_v27)

/-! ## The buffers when the first kernel is entered -/

variable (m : (ℓ : Loc nD τ sig) → Buf (Elt Ideal) ℓ) (c : Dev nD)

/-- The windowed embedding the kernel's program builds on the host is the reference's, as whole arrays. -/
theorem sel_eq :
    (V4 m c main_v28 : S8x128x128x64.Idx → EReal)
      = val_main_v27 (F := Ideal) (m ((c : Thread nD τ).loc main_arg0)) (m ((c : Thread nD τ).loc main_arg1)) := by
  -- the first stretch, from the launch memory
  have t7 : (V1 m c main_v7 : S8x128x64.Idx → EReal)
      = val_main_v6 (F := Ideal) (m ((c : Thread nD τ).loc main_arg0)) (m ((c : Thread nD τ).loc main_arg1)) := head_tokens (V0 m c)
  have t16 : (V1 m c main_v16 : S128x128.Idx → BitVec 32) = val_main_v15 (F := Ideal) := head_positions (V0 m c)
  have t18 : (V1 m c main_v18 : S128x128.Idx → BitVec 1) = val_main_v17 (F := Ideal) := head_mask (V0 m c)
  have t3 : (V1 m c main_c_3 : S_.Idx → BitVec 32) = val_main_c_3 (F := Ideal) := head_lo (V0 m c)
  have t4 : (V1 m c main_c_4 : S_.Idx → BitVec 32) = val_main_c_4 (F := Ideal) := head_hi (V0 m c)
  -- the clamp; it writes neither the embedded tokens nor the mask
  have u19 : (V2 m c main_v19 : S128x128.Idx → BitVec 32) = val_main_v18 (F := Ideal) := clip_stretch (V1 m c) t3 t4 t16
  have u7 : (V2 m c main_v7 : S8x128x64.Idx → EReal)
      = val_main_v6 (F := Ideal) (m ((c : Thread nD τ).loc main_arg0)) (m ((c : Thread nD τ).loc main_arg1)) :=
    (V2_of m c main_v7 (by decide)).trans t7
  have u18 : (V2 m c main_v18 : S128x128.Idx → BitVec 1) = val_main_v17 (F := Ideal) := (V2_of m c main_v18 (by decide)).trans t18
  -- the window, the mask's broadcast, the zero
  have w26 := window_stretch (V2 m c) _ _ u7 u19
  have w27 := mask_stretch (V2 m c) u18
  have wc := zero_stretch (V2 m c)
  -- the select
  exact where_stretch (V3 m c) _ _ w26 w27 wc

/-- The first kernel's input rows are the specification's flattening of the reference's windowed embedding. -/
theorem entry_rows :
    (V5 m c main_v30 : S1024x8192.Idx → EReal)
      = Cert.MlpSpec.rows (Cert.ReferenceIdeal.Read.val_main_v27 (F := Ideal) (m ((c : Thread nD τ).loc main_arg0)) (m ((c : Thread nD τ).loc main_arg1))) := by
  refine (reshape_rows (V4 m c)).trans ?_
  rw [sel_eq m c]
  exact rows_of_casts _

/-- The first bias reaches the first kernel as a row: entry (0, g) is b1(g). -/
theorem entry_bias1 (g : Fin 8192) :
    V5 m c main_v31 (ValueIdx.ix2 (0 : Fin 1) g) = m ((c : Thread nD τ).loc main_arg3) (ValueIdx.ix1 g) := by
  have hc : (V4 m c main_arg3 : S8192.Idx → EReal) = m ((c : Thread nD τ).loc main_arg3) :=
    (V4_of m c main_arg3 (by decide)).trans ((V3_of m c main_arg3 (by decide)).trans
      ((V2_of m c main_arg3 (by decide)).trans (V1_of m c main_arg3 (by decide))))
  refine (congrFun (reshape_bias1 (V4 m c)) (ValueIdx.ix2 (0 : Fin 1) g)).trans ?_
  rw [hc]
  exact shapeCast_apply _ _ _ _ (by
    show (S8192.rowMajor (ValueIdx.ix1 g)).val = (S1x8192.rowMajor (ValueIdx.ix2 (0 : Fin 1) g)).val
    rw [Shape.rowMajor_val_one, Shape.rowMajor_val_two]
    show g.val = 0 * 8192 + g.val
    omega)

/-- The second bias reaches the second kernel as a row: entry (0, v) is b2(v). -/
theorem entry_bias2 (v : Fin 4096) :
    V5 m c main_v32 (ValueIdx.ix2 (0 : Fin 1) v) = m ((c : Thread nD τ).loc main_arg5) (ValueIdx.ix1 v) := by
  have hc : (V4 m c main_arg5 : S4096.Idx → EReal) = m ((c : Thread nD τ).loc main_arg5) :=
    (V4_of m c main_arg5 (by decide)).trans ((V3_of m c main_arg5 (by decide)).trans
      ((V2_of m c main_arg5 (by decide)).trans (V1_of m c main_arg5 (by decide))))
  refine (congrFun (reshape_bias2 (V4 m c)) (ValueIdx.ix2 (0 : Fin 1) v)).trans ?_
  rw [hc]
  exact shapeCast_apply _ _ _ _ (by
    show (S4096.rowMajor (ValueIdx.ix1 v)).val = (S1x4096.rowMajor (ValueIdx.ix2 (0 : Fin 1) v)).val
    rw [Shape.rowMajor_val_one, Shape.rowMajor_val_two]
    show v.val = 0 * 4096 + v.val
    omega)

/-- After the second kernel the result is reshaped 1024 × 4096 to 8 × 128 × 4096: entry (b, t, v) is row 128·b + t, column v. -/
theorem exit_reshape (W : Valuation τ sig (Elt Ideal)) (b : Fin 8) (t : Fin 128) (v : Fin 4096) :
    StableHlo.after hostOps2 W main_v35 (ValueIdx.ix3 b t v) = W main_v34 (ValueIdx.ix2 (⟨128 * b.val + t.val, by omega⟩ : Fin 1024) v) := by
  have e : (after hostOps2 W (Proc.devRef .tc main_v35) : S8x128x4096.Idx → EReal)
      = shapeCast S8x128x4096 (W (Proc.devRef .tc main_v34) : S1024x4096.Idx → EReal) shapeCasts_S1024x4096_S8x128x4096 := by
    after_results
    rfl
  refine (congrFun e (ValueIdx.ix3 b t v)).trans ?_
  exact shapeCast_apply _ _ _ _ (by
    show (S1024x4096.rowMajor (ValueIdx.ix2 (⟨128 * b.val + t.val, by omega⟩ : Fin 1024) v)).val
      = (S8x128x4096.rowMajor (ValueIdx.ix3 b t v)).val
    rw [Shape.rowMajor_val_two, Shape.rowMajor_val_three]
    show (128 * b.val + t.val) * 4096 + v.val = (b.val * 128 + t.val) * 4096 + v.val
    omega)

end Cert.PrefixSide

end
-- ==== Proof.Bridge.lean ====
/-
  The program's result array is the specification's result, given what the two kernels leave in their output arrays.
  The first kernel is entered with the flattened windowed embedding, W1 and the first bias as a row, and (by
  hypothesis) leaves the specification's hidden layer of them; the second is entered with that array, W2 and the
  second bias as a row — nothing stands between the calls, and the first call changes none of the second's other
  operands — and (by hypothesis) leaves the specification's output layer; the closing reshape reads entry (b, t, v)
  at row 128·b + t, column v. Reading the operands back to the launch memory, entry (b, t, v) of the final array is
  Σ_g H(128·b + t, g) · W2(v, g) + b2(v) with H the hidden layer of the flattened windowed embedding of the
  reference: the specification's result at (b, t, v).
-/
import proofs.«179280_j42734924595240_2_alg».proof.Proof.TwoCalls
import proofs.«179280_j42734924595240_2_alg».proof.Proof.Prefix
import proofs.«179280_j42734924595240_2_alg».proof.Proof.Spec
import proofs.«179280_j42734924595240_2_alg».proof.Proof.Gen.ReferenceIdeal.Read
import Idealize.ShloMosaic.Lib.ValueIdx

noncomputable section

namespace Cert.Bridge

open Idealize.ShloMosaic Idealize.ShloMosaic.TcCoe Cert.KernelIdeal Cert.KernelIdeal.Gen Cert.KernelIdeal.Frm

/-! ## The specification's arrays read at an index -/

theorem logits_at (H : (⟨2, ![1024, 8192]⟩ : Shape).Idx → EReal) (W2 : (⟨2, ![4096, 8192]⟩ : Shape).Idx → EReal)
    (b2 : (⟨1, ![4096]⟩ : Shape).Idx → EReal) (r : Fin 1024) (v : Fin 4096) :
    Cert.MlpSpec.logits H W2 b2 (ValueIdx.ix2 r v) = Cert.MlpSpec.logitAt H W2 b2 r v := rfl

theorem result_at (sel : (⟨4, ![8, 128, 128, 64]⟩ : Shape).Idx → EReal) (W1 : (⟨2, ![8192, 8192]⟩ : Shape).Idx → EReal)
    (b1 : (⟨1, ![8192]⟩ : Shape).Idx → EReal) (W2 : (⟨2, ![4096, 8192]⟩ : Shape).Idx → EReal)
    (b2 : (⟨1, ![4096]⟩ : Shape).Idx → EReal) (b : Fin 8) (t : Fin 128) (v : Fin 4096) :
    Cert.MlpSpec.result sel W1 b1 W2 b2 (ValueIdx.ix3 b t v)
      = Cert.MlpSpec.logitAt (Cert.MlpSpec.hidden (Cert.MlpSpec.rows sel) W1 b1) W2 b2
          (⟨128 * b.val + t.val, by have hb := b.isLt; have ht := t.isLt; omega⟩ : Fin 1024) v := rfl

/-! ## The kernels' operands, read back to the launch memory -/

variable (m : (ℓ : Loc nD τ sig) → Buf (Elt Ideal) ℓ) (c : Dev nD)

/-- W1 is entered as launched: no host operation before the first call writes it. -/
theorem entry_w1 : (E5 m c main_arg2 : S8192x8192.Idx → EReal) = m ((c : Thread nD τ).loc main_arg2) :=
  (V5_of m c main_arg2 (by decide)).trans <| (V4_of m c main_arg2 (by decide)).trans <| (V3_of m c main_arg2 (by decide)).trans <|
    (V2_of m c main_arg2 (by decide)).trans <| (V1_of m c main_arg2 (by decide)).trans rfl

/-- The first kernel's bias row, read along its one row, is b1. -/
theorem entry_b1 :
    (fun g : (⟨1, ![8192]⟩ : Shape).Idx => E5 m c main_v31 (ValueIdx.ix2 (0 : Fin 1) (g 0))) = m ((c : Thread nD τ).loc main_arg3) := by
  funext g
  exact (Cert.PrefixSide.entry_bias1 m c (g 0)).trans (congrArg _ (ValueIdx.eq_ix1 g).symm)

/-- W2 reaches the second call as launched: no host operation writes it and it is not an array of the first call. -/
theorem mid_w2 : (E6 m c main_arg4 : S4096x8192.Idx → EReal) = m ((c : Thread nD τ).loc main_arg4) :=
  (W6_of_ne m c main_arg4 (by decide)).trans <| (V5_of m c main_arg4 (by decide)).trans <| (V4_of m c main_arg4 (by decide)).trans <|
    (V3_of m c main_arg4 (by decide)).trans <| (V2_of m c main_arg4 (by decide)).trans <| (V1_of m c main_arg4 (by decide)).trans rfl

/-- The second kernel's bias row is not an array of the first call; read along its one row, it is b2. -/
theorem mid_bias2 :
    (fun v : (⟨1, ![4096]⟩ : Shape).Idx => E6 m c main_v32 (ValueIdx.ix2 (0 : Fin 1) (v 0))) = m ((c : Thread nD τ).loc main_arg5) := by
  funext v
  have e : E6 m c main_v32 = V5 m c main_v32 := W6_of_ne m c main_v32 (by decide)
  exact (congrFun e _).trans ((Cert.PrefixSide.entry_bias2 m c (v 0)).trans (congrArg _ (ValueIdx.eq_ix1 v).symm))

/-- What the first call leaves in its output array, which the second call reads: the specification's hidden layer
    of the flattened windowed embedding of the reference. -/
theorem mid_hidden
    (hH : ∀ (V : (c : Dev nD) → (b : Ref sig .tc) → Buf (Elt Ideal) ((c : Thread nD τ).loc b)) (c : Dev nD),
      (dat0 (F := Ideal) V c).arrAt 3 cfg0.N = Cert.MlpSpec.hidden (V c main_v30) (V c main_arg2) (fun g => V c main_v31 (ValueIdx.ix2 (0 : Fin 1) (g 0)))) :
    (E6 m c main_v33 : S1024x8192.Idx → EReal)
      = Cert.MlpSpec.hidden (Cert.MlpSpec.rows (Cert.ReferenceIdeal.Read.val_main_v27 (F := Ideal) (m ((c : Thread nD τ).loc main_arg0)) (m ((c : Thread nD τ).loc main_arg1))))
          (m ((c : Thread nD τ).loc main_arg2)) (m ((c : Thread nD τ).loc main_arg3)) :=
  (W6_arr m c 3).trans <| (hH (E5 m) c).trans <|
    congr (congr (congrArg Cert.MlpSpec.hidden (Cert.PrefixSide.entry_rows m c)) (entry_w1 m c)) (entry_b1 m c)

/-! ## The result -/

/-- The program's result array, as a function of the launch memory, is the specification's result of the reference's
    windowed embedding and the four weight arguments. -/
theorem kernel_result
    (hH : ∀ (V : (c : Dev nD) → (b : Ref sig .tc) → Buf (Elt Ideal) ((c : Thread nD τ).loc b)) (c : Dev nD),
      (dat0 (F := Ideal) V c).arrAt 3 cfg0.N = Cert.MlpSpec.hidden (V c main_v30) (V c main_arg2) (fun g => V c main_v31 (ValueIdx.ix2 (0 : Fin 1) (g 0))))
    (hL : ∀ (V : (c : Dev nD) → (b : Ref sig .tc) → Buf (Elt Ideal) ((c : Thread nD τ).loc b)) (c : Dev nD),
      (dat1 (F := Ideal) V c).arrAt 3 cfg1.N = Cert.MlpSpec.logits (V c main_v33) (V c main_arg4) (fun v => V c main_v32 (ValueIdx.ix2 (0 : Fin 1) (v 0))))
    (m : (ℓ : Loc nD τ sig) → Buf (Elt Ideal) ℓ) (c : Dev nD) :
    (W8 (F := Ideal) m c main_v35 : S8x128x4096.Idx → EReal) = Cert.MlpSpec.result (Cert.ReferenceIdeal.Read.val_main_v27 (F := Ideal) (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5)) := by
  funext i
  obtain ⟨b, t, v, rfl⟩ : ∃ (b : Fin 8) (t : Fin 128) (v : Fin 4096), i = ValueIdx.ix3 b t v := ⟨i 0, i 1, i 2, ValueIdx.eq_ix3 i⟩
  -- the second call's output array is the output layer of what it was entered with
  have hout : (W7 m c main_v34 : S1024x4096.Idx → EReal)
      = Cert.MlpSpec.logits (Cert.MlpSpec.hidden (Cert.MlpSpec.rows (Cert.ReferenceIdeal.Read.val_main_v27 (F := Ideal) (m ((c : Thread nD τ).loc main_arg0)) (m ((c : Thread nD τ).loc main_arg1))))
          (m ((c : Thread nD τ).loc main_arg2)) (m ((c : Thread nD τ).loc main_arg3)))
        (m ((c : Thread nD τ).loc main_arg4)) (m ((c : Thread nD τ).loc main_arg5)) :=
    (W7_arr m c 3).trans <| (hL (E6 m) c).trans <|
      congr (congr (congrArg Cert.MlpSpec.logits (mid_hidden m c hH)) (mid_w2 m c)) (mid_bias2 m c)
  -- the closing reshape, then both sides at the index
  refine (Cert.PrefixSide.exit_reshape (W7 m c) b t v).trans ?_
  refine (congrFun hout _).trans ?_
  exact (logits_at _ _ _ _ v).trans (result_at _ _ _ _ _ b t v).symm

end Cert.Bridge

end
-- ==== Proof.lean ====
/-
  The certificate: both forms of the program (as printed and idealized) run to the end leaving their arguments
  unchanged — the two kernel calls' accumulators carried from grid point to grid point —, the reference runs
  likewise, the idealization rewrote nothing, and over the extended reals the idealized program and the
  reference compute the same two-layer perceptron of the same windowed embedding, index by index.
-/
import proofs.«179280_j42734924595240_2_alg».proof.Defs
import proofs.«179280_j42734924595240_2_alg».proof.Proof.Gen.Kernel
import proofs.«179280_j42734924595240_2_alg».proof.Proof.Gen.KernelIdeal
import proofs.«179280_j42734924595240_2_alg».proof.Proof.Gen.ReferenceIdeal
import proofs.«179280_j42734924595240_2_alg».proof.Proof.Gen.ReferenceIdeal.Run
import proofs.«179280_j42734924595240_2_alg».proof.Proof.Gen.Pre_finite_inputs
import proofs.«179280_j42734924595240_2_alg».proof.Proof.TwoCalls
import proofs.«179280_j42734924595240_2_alg».proof.Proof.KTwoCalls
import proofs.«179280_j42734924595240_2_alg».proof.Proof.Gen.ReferenceIdeal.Read
import proofs.«179280_j42734924595240_2_alg».proof.Proof.RefValue
import proofs.«179280_j42734924595240_2_alg».proof.Proof.Mlp1Value
import proofs.«179280_j42734924595240_2_alg».proof.Proof.Mlp2Value
import proofs.«179280_j42734924595240_2_alg».proof.Proof.Bridge

noncomputable section

namespace Cert.Proof

open Idealize.ShloMosaic Idealize.ShloMosaic.TcCoe Idealize.SL.Sem

/-- The program as printed runs and leaves its arguments unchanged. -/
theorem frame_k : Cert.frame_Kernel := fun m ρ _ => Cert.Kernel.Frm.frame (F := Bits) m ρ
/-- So does the idealized program. -/
theorem frame_ki : Cert.frame_KernelIdeal := fun m ρ _ => Cert.KernelIdeal.Frm.frame (F := Ideal) m ρ
/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals the idealized program's result array and the reference's are the same two-layer
    perceptron of the same windowed embedding: the program's result is read off its run through the two kernel
    calls' final arrays (the hidden layer, then the output layer, each a four-block sum that is the whole dot
    product), the reference's off its run one operation at a time. -/
theorem algebraic : Cert.algebraic_KernelIdeal_ReferenceIdeal := by
  intro m ρ m' ρ' _ hagree
  refine ⟨fun c => Cert.KernelIdeal.Frm.W8 (F := Ideal) m c Cert.KernelIdeal.main_v35, ?_, ?_⟩
  · exact (θ_run Cert.KernelIdeal.defs _ _).mono (fun _ h c =>
      ⟨h c _ (Cert.KernelIdeal.Frm.mem_uc Cert.KernelIdeal.main_v35 (by decide)),
       (h c _ (Cert.KernelIdeal.Frm.mem_uc Cert.KernelIdeal.main_arg0 (by decide))).trans (Cert.KernelIdeal.Frm.W8_main_arg0 m c),
       (h c _ (Cert.KernelIdeal.Frm.mem_uc Cert.KernelIdeal.main_arg1 (by decide))).trans (Cert.KernelIdeal.Frm.W8_main_arg1 m c),
       (h c _ (Cert.KernelIdeal.Frm.mem_uc Cert.KernelIdeal.main_arg2 (by decide))).trans (Cert.KernelIdeal.Frm.W8_main_arg2 m c),
       (h c _ (Cert.KernelIdeal.Frm.mem_uc Cert.KernelIdeal.main_arg3 (by decide))).trans (Cert.KernelIdeal.Frm.W8_main_arg3 m c),
       (h c _ (Cert.KernelIdeal.Frm.mem_uc Cert.KernelIdeal.main_arg4 (by decide))).trans (Cert.KernelIdeal.Frm.W8_main_arg4 m c),
       (h c _ (Cert.KernelIdeal.Frm.mem_uc Cert.KernelIdeal.main_arg5 (by decide))).trans (Cert.KernelIdeal.Frm.W8_main_arg5 m c)⟩)
      (Cert.KernelIdeal.Frm.run_all (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v49_eq m' c).trans ?_
    rw [(hagree c).1, (hagree c).2.1, (hagree c).2.2.1, (hagree c).2.2.2.1, (hagree c).2.2.2.2.1, (hagree c).2.2.2.2.2]
    exact (Cert.RefSide.ref_result _ _ _ _ _ _).trans
      (Cert.Bridge.kernel_result Cert.KernelIdeal.Frm1Value.hidden_final Cert.KernelIdeal.Frm2Value.logits_final m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
